-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x8 : Shape := ⟨2, ![50000, 8]⟩
abbrev S2x1600000 : Shape := ⟨2, ![2, 1600000]⟩
abbrev S50000 : Shape := ⟨1, ![50000]⟩
abbrev S8x64 : Shape := ⟨2, ![8, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S_ : Shape := ⟨0, ![]⟩
abbrev S1x1600000 : Shape := ⟨2, ![1, 1600000]⟩
abbrev S1600000 : Shape := ⟨1, ![1600000]⟩

class Facts : Prop where
  bcast_S_S50000x8 : S_.BroadcastsInDim S50000x8 (![] : Fin 0 → Fin S50000x8.rank)
  reducesTo_S50000x8_S_d0_1 : S50000x8.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_arg1 : IVec S2x1600000 32) (main_arg16 : FVec F S32x3 .f32) (main_arg17 : FVec F S3 .f32) (main_v63 : IVec S_ 1) (main_v67 : IVec S_ 1) : IVec S_ 1 :=
  let main_v68 : IVec S_ 1 := andi main_v63 main_v67
  let main_v69 : FVec F S32x3 .f32 := Host.absf main_arg16
  let main_cst_26 : FVec F S_ .f32 := constant S_ .f32 0x7F800000#32
  let main_v70 : FVec F S32x3 .f32 := broadcastInDim S32x3 ![] bcast_S_S32x3 main_cst_26
  let main_v71 : IVec S32x3 1 := cmpf .olt main_v69 main_v70
  let main_c_27 : IVec S_ 1 := constantI S_ 1 1#1
  let main_v72 : IVec S_ 1 := (fun x v => Host.reduce IntOp.andi x v reducesTo_S32x3_S_d0_1 h_S_) main_v71 main_c_27
  let main_v73 : IVec S_ 1 := andi main_v68 main_v72
  let main_v74 : FVec F S3 .f32 := Host.absf main_arg17
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  let main_v79 : IVec S1x1600000 32 := (extractStridedSlice S1x1600000 ![1, 0] · slices_S2x1600000_S1x1600000_1_0) main_arg1
  let main_v80 : IVec S1600000 32 := shapeCast S1600000 main_v79 shapeCasts_S1x1600000_S1600000
  let main_c_30 : IVec S_ 32 := constantI S_ 32 0#32
  let main_v81 : IVec S1600000 32 := broadcastInDim S1600000 ![] bcast_S_S1600000 main_c_30
  let main_v82 : IVec S1600000 1 := cmpi .sge main_v80 main_v81
  let main_c_31 : IVec S_ 1 := constantI S_ 1 1#1
  let main_v83 : IVec S_ 1 := (fun x v => Host.reduce IntOp.andi x v reducesTo_S1600000_S_d0 h_S_) main_v82 main_c_31
  let main_v84 : IVec S_ 1 := andi main_v78 main_v83
  main_v84

def fn_part3 {F : FTy → Type} [FloatOps F] (main_arg1 : IVec S2x1600000 32) (main_arg13 : FVec F S64 .f32) (main_arg14 : FVec F S64x32 .f32) (main_arg15 : FVec F S32 .f32) (main_arg16 : FVec F S32x3 .f32) (main_arg17 : FVec F S3 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg1 main_arg16 main_arg17 main_v63 main_v67

def fn_part2 {F : FTy → Type} [FloatOps F] (main_arg1 : IVec S2x1600000 32) (main_arg9 : FVec F S64x64 .f32) (main_arg10 : FVec F S64 .f32) (main_arg11 : FVec F S64x64 .f32) (main_arg12 : FVec F S64 .f32) (main_arg13 : FVec F S64 .f32) (main_arg14 : FVec F S64x32 .f32) (main_arg15 : FVec F S32 .f32) (main_arg16 : FVec F S32x3 .f32) (main_arg17 : FVec F S3 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg13 main_arg14 main_arg15 main_arg16 main_arg17 main_v48 main_v49 main_v50

def fn_part1 {F : FTy → Type} [FloatOps F] (main_arg1 : IVec S2x1600000 32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64x32 .f32) (main_arg15 : FVec F S32 .f32) (main_arg16 : FVec F S32x3 .f32) (main_arg17 : FVec F S3 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_v33

def fn {F : FTy → Type} [FloatOps F] (main_arg0 : FVec F S50000x8 .f32) (main_arg1 : IVec S2x1600000 32) (main_arg2 : IVec S50000 32) (main_arg3 : FVec F S8x64 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64x32 .f32) (main_arg15 : FVec F S32 .f32) (main_arg16 : FVec F S32x3 .f32) (main_arg17 : FVec F S3 .f32) : IVec S_ 1 :=
  let main_v0 : FVec F S50000x8 .f32 := Host.absf main_arg0
  let main_cst : FVec F S_ .f32 := constant S_ .f32 0x7F800000#32
  let main_v1 : FVec F S50000x8 .f32 := broadcastInDim S50000x8 ![] bcast_S_S50000x8 main_cst
  let main_v2 : IVec S50000x8 1 := cmpf .olt main_v0 main_v1
  let main_c : IVec S_ 1 := constantI S_ 1 1#1
  let main_v3 : IVec S_ 1 := (fun x v => Host.reduce IntOp.andi x v reducesTo_S50000x8_S_d0_1 h_S_) main_v2 main_c
  let main_v4 : FVec F S8x64 .f32 := Host.absf main_arg3
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg6 main_arg7 main_arg8 main_arg9 main_arg10 main_arg11 main_arg12 main_arg13 main_arg14 main_arg15 main_arg16 main_arg17 main_v13 main_v16
-- ==== Kernel.lean ====
abbrev S50000x8 : Shape := ⟨2, ![50000, 8]⟩
abbrev S2x1600000 : Shape := ⟨2, ![2, 1600000]⟩
abbrev S50000 : Shape := ⟨1, ![50000]⟩
abbrev S8x64 : Shape := ⟨2, ![8, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S1x64 : Shape := ⟨2, ![1, 64]⟩
abbrev S50000x64 : Shape := ⟨2, ![50000, 64]⟩
abbrev S80x64 : Shape := ⟨2, ![80, 64]⟩
abbrev S5000x8 : Shape := ⟨2, ![5000, 8]⟩
abbrev S5000x64 : Shape := ⟨2, ![5000, 64]⟩
abbrev S1600000x64 : Shape := ⟨2, ![1600000, 64]⟩
abbrev S50000x1 : Shape := ⟨2, ![50000, 1]⟩
abbrev S512x64 : Shape := ⟨2, ![512, 64]⟩
abbrev S512 : Shape := ⟨1, ![512]⟩
abbrev S512x1 : Shape := ⟨2, ![512, 1]⟩
abbrev S1x32 : Shape := ⟨2, ![1, 32]⟩
abbrev S1x3 : Shape := ⟨2, ![1, 3]⟩
abbrev S512x3 : Shape := ⟨2, ![512, 3]⟩
abbrev S512x32 : Shape := ⟨2, ![512, 32]⟩

abbrev nBuf : Space → Nat
  | .hbm => 142
  | .vmem => 49
  | .smem => 0
  | _ => 0

abbrev hbmTy0_0 (i : Nat) : BufTy := match i % 128 with
  | 0 => ⟨S50000x8, .f32⟩
  | 1 => ⟨S2x1600000, .i32⟩
  | 2 => ⟨S50000, .i32⟩
  | 3 => ⟨S8x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64x32, .f32⟩
  | 15 => ⟨S32, .f32⟩
  | 16 => ⟨S32x3, .f32⟩
  | 17 => ⟨S3, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S50000x8, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x8, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S50000x8, .f32⟩
  | 42 => ⟨S1x64, .f32⟩
  | 43 => ⟨S1x64, .f32⟩
  | 44 => ⟨S50000x64, .f32⟩
  | 45 => ⟨S80x64, .f32⟩
  | 46 => ⟨S80x64, .f32⟩
  | 47 => ⟨S_, .f32⟩
  | 48 => ⟨S64, .f32⟩
  | 49 => ⟨S_, .f32⟩
  | 50 => ⟨S64, .f32⟩
  | 51 => ⟨S64, .f32⟩
  | 52 => ⟨S_, .f32⟩
  | 53 => ⟨S64, .f32⟩
  | 54 => ⟨S_, .f32⟩
  | 55 => ⟨S64, .f32⟩
  | 56 => ⟨S64, .f32⟩
  | 57 => ⟨S64, .f32⟩
  | 58 => ⟨S64, .f32⟩
  | 59 => ⟨S_, .f32⟩
  | 60 => ⟨S64, .f32⟩
  | 61 => ⟨S64, .f32⟩
  | 62 => ⟨S1x64, .f32⟩
  | 63 => ⟨S1x64, .f32⟩
  | 64 => ⟨S1x64, .f32⟩
  | 65 => ⟨S1x64, .f32⟩
  | 66 => ⟨S50000x64, .f32⟩
  | 67 => ⟨S_, .f32⟩
  | 68 => ⟨S50000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x64, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S50000x64, .f32⟩
  | 87 => ⟨S_, .f32⟩
  | 88 => ⟨S1600000, .f32⟩
  | 89 => ⟨S_, .f32⟩
  | 90 => ⟨S50000, .f32⟩
  | 91 => ⟨S1600000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x64, .f32⟩
  | 98 => ⟨S50000x64, .f32⟩
  | 99 => ⟨S1x64, .f32⟩
  | 100 => ⟨S50000x64, .f32⟩
  | 101 => ⟨S80x64, .f32⟩
  | 102 => ⟨S80x64, .f32⟩
  | 103 => ⟨S_, .f32⟩
  | 104 => ⟨S64, .f32⟩
  | 105 => ⟨S_, .f32⟩
  | 106 => ⟨S64, .f32⟩
  | 107 => ⟨S64, .f32⟩
  | 108 => ⟨S_, .f32⟩
  | 109 => ⟨S64, .f32⟩
  | 110 => ⟨S_, .f32⟩
  | 111 => ⟨S64, .f32⟩
  | 112 => ⟨S64, .f32⟩
  | 113 => ⟨S64, .f32⟩
  | 114 => ⟨S64, .f32⟩
  | 115 => ⟨S_, .f32⟩
  | 116 => ⟨S64, .f32⟩
  | 117 => ⟨S64, .f32⟩
  | 118 => ⟨S1x64, .f32⟩
  | 119 => ⟨S1x64, .f32⟩
  | 120 => ⟨S1x64, .f32⟩
  | 121 => ⟨S1x64, .f32⟩
  | 122 => ⟨S50000x64, .f32⟩
  | 123 => ⟨S_, .f32⟩
  | 124 => ⟨S512x64, .f32⟩
  | 125 => ⟨S50000x1, .i32⟩
  | 126 => ⟨S512x64, .f32⟩
  | 127 => ⟨S_, .f32⟩
  | _ => ⟨S50000x8, .f32⟩

abbrev hbmTy0_1 (i : Nat) : BufTy := match i % 128 with
  | 0 => ⟨S50000, .f32⟩
  | 1 => ⟨S_, .f32⟩
  | 2 => ⟨S512, .f32⟩
  | 3 => ⟨S50000x1, .i32⟩
  | 4 => ⟨S512, .f32⟩
  | 5 => ⟨S_, .f32⟩
  | 6 => ⟨S512, .f32⟩
  | 7 => ⟨S512, .f32⟩
  | 8 => ⟨S512x1, .f32⟩
  | 9 => ⟨S512x64, .f32⟩
  | 10 => ⟨S512x64, .f32⟩
  | 11 => ⟨S1x32, .f32⟩
  | 12 => ⟨S1x3, .f32⟩
  | 13 => ⟨S512x3, .f32⟩
  | _ => ⟨S50000x8, .f32⟩

abbrev hbmTy (i : Nat) : BufTy := match i / 128 with
  | 0 => hbmTy0_0 i
  | 1 => hbmTy0_1 i
  | _ => ⟨S50000x8, .f32⟩

abbrev bufTy : (tb : Table) → Fin (tcTables nBuf tb) → BufTy
  | .hbm, ⟨i, _⟩ => hbmTy i
  | .local _ .vmem, ⟨0, _⟩ => ⟨S5000x8, .f32⟩
  | .local _ .vmem, ⟨1, _⟩ => ⟨S5000x8, .f32⟩
  | .local _ .vmem, ⟨2, _⟩ => ⟨S5000x8, .f32⟩
  | .local _ .vmem, ⟨3, _⟩ => ⟨S5000x8, .f32⟩
  | .local _ .vmem, ⟨4, _⟩ => ⟨S8x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | .local _ .vmem, ⟨13, _⟩ => ⟨S8x64, .f32⟩
  | .local _ .vmem, ⟨14, _⟩ => ⟨S5000x64, .f32⟩
  | .local _ .vmem, ⟨15, _⟩ => ⟨S5000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S8x64, .f32⟩
  | .local _ .vmem, ⟨32, _⟩ => ⟨S8x64, .f32⟩
  | .local _ .vmem, ⟨33, _⟩ => ⟨S8x64, .f32⟩
  | .local _ .vmem, ⟨34, _⟩ => ⟨S8x64, .f32⟩
  | .local _ .vmem, ⟨35, _⟩ => ⟨S5000x64, .f32⟩
  | .local _ .vmem, ⟨36, _⟩ => ⟨S5000x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S1x64, .f32⟩
  | .local _ .vmem, ⟨41, _⟩ => ⟨S5000x64, .f32⟩
  | .local _ .vmem, ⟨42, _⟩ => ⟨S5000x64, .f32⟩
  | .local _ .vmem, ⟨43, _⟩ => ⟨S512x64, .f32⟩
  | .local _ .vmem, ⟨44, _⟩ => ⟨S64x32, .f32⟩
  | .local _ .vmem, ⟨45, _⟩ => ⟨S1x32, .f32⟩
  | .local _ .vmem, ⟨46, _⟩ => ⟨S32x3, .f32⟩
  | .local _ .vmem, ⟨47, _⟩ => ⟨S1x3, .f32⟩
  | .local _ .vmem, ⟨48, _⟩ => ⟨S512x3, .f32⟩
  | _, _ => ⟨S50000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21_0 : Ref sig .tc := ⟨.hbm, 44, rfl⟩
abbrev main_v21_1 : Ref sig .tc := ⟨.hbm, 45, rfl⟩
abbrev main_v21_2 : Ref sig .tc := ⟨.hbm, 46, rfl⟩
abbrev main_cst_3 : Ref sig .tc := ⟨.hbm, 47, rfl⟩
abbrev main_v22 : Ref sig .tc := ⟨.hbm, 48, rfl⟩
abbrev main_cst_4 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_cst_6 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_7 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_8 : Ref sig .tc := ⟨.hbm, 67, rfl⟩
abbrev main_v37 : Ref sig .tc := ⟨.hbm, 68, rfl⟩
abbrev main_c_9 : Ref sig .tc := ⟨.hbm, 69, rfl⟩
abbrev main_v38 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_11 : Ref sig .tc := ⟨.hbm, 78, rfl⟩
abbrev main_v45 : Ref sig .tc := ⟨.hbm, 79, rfl⟩
abbrev main_v46 : Ref sig .tc := ⟨.hbm, 80, rfl⟩
abbrev main_c_12 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_13 : Ref sig .tc := ⟨.hbm, 87, rfl⟩
abbrev main_v52 : Ref sig .tc := ⟨.hbm, 88, rfl⟩
abbrev main_cst_14 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_15 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62_0 : Ref sig .tc := ⟨.hbm, 100, rfl⟩
abbrev main_v62_1 : Ref sig .tc := ⟨.hbm, 101, rfl⟩
abbrev main_v62_2 : Ref sig .tc := ⟨.hbm, 102, rfl⟩
abbrev main_cst_16 : Ref sig .tc := ⟨.hbm, 103, rfl⟩
abbrev main_v63 : Ref sig .tc := ⟨.hbm, 104, rfl⟩
abbrev main_cst_17 : Ref sig .tc := ⟨.hbm, 105, rfl⟩
abbrev main_v64 : Ref sig .tc := ⟨.hbm, 106, rfl⟩
abbrev main_v65 : Ref sig .tc := ⟨.hbm, 107, rfl⟩
abbrev main_cst_18 : Ref sig .tc := ⟨.hbm, 108, rfl⟩
abbrev main_v66 : Ref sig .tc := ⟨.hbm, 109, rfl⟩
abbrev main_cst_19 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_20 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_cst_21 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_cst_22 : Ref sig .tc := ⟨.hbm, 127, rfl⟩
abbrev main_v81 : Ref sig .tc := ⟨.hbm, 128, rfl⟩
abbrev main_cst_23 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_cst_24 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg7_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg5_1 : Ref sig .tc := ⟨.vmem, 42, rfl⟩
abbrev cc4_stg0_0 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc2_sem7_0 : DmaSem sig := 33
abbrev cc2_sem7_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem5_1 : DmaSem sig := 42
abbrev cc4_sem0_0 : DmaSem sig := 43
abbrev cc4_sem1_0 : DmaSem sig := 44
abbrev cc4_sem2_0 : DmaSem sig := 45
abbrev cc4_sem3_0 : DmaSem sig := 46
abbrev cc4_sem4_0 : DmaSem sig := 47
abbrev cc4_sem5_0 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x3 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000x8 : S_.BroadcastsInDim S50000x8 (![] : Fin 0 → Fin S50000x8.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  bitsLt_bf16_f32 : FTy.bits .bf16 < FTy.bits .f32
  inb_S8x64_S8x64_0_0 : ∀ a, (![0, 0] : Fin 2 → Nat) a + S8x64.size a ≤ S8x64.size a
  h_S8x64 : 0 < S8x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  iota_S8x64_d0_w32 : S8x64.Iotas .tc 32 [0]
  natLt_1_32 : 1 < 32
  broadcasts_S1x64_S8x64 : S1x64.Broadcasts S8x64
  reducesTo_S80x64_S64_d0 : S80x64.ReducesTo [0] S64
  h_S_ : 0 < S_.numel
  bcast_S_S64 : S_.BroadcastsInDim S64 (![] : Fin 0 → Fin S64.rank)
  shapeCasts_S5000x64_S5000x64 : S5000x64.ShapeCasts S5000x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S32_S1x32 : S32.ShapeCasts S1x32
  shapeCasts_S3_S1x3 : S3.ShapeCasts S1x3
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  inb_S512x3_S512x3_0_0 : ∀ a, (![0, 0] : Fin 2 → Nat) a + S512x3.size a ≤ S512x3.size a
  h_S512x3 : 0 < S512x3.numel
  gather_S50000x8_S1600000x1_S1600000x8_1_0_n_n_0_1_18_wf : GatherDims.WF S50000x8 S1600000x1 S1600000x8 [1] [0] [] [0] [] 1 ![1, 8]
  scatter_S50000x8_S1600000x1_S1600000x8_1_0_0_1_wf : ScatterDims.WF S50000x8 S1600000x1 S1600000x8 [1] [0] [0] 1
  dot_S5000x8_S8x64_S5000x64_1_0_0_1_n_n_wf : DotDims.WF S5000x8 S8x64 S5000x64 [1] [0] [0] [1] [] []
  dot_S5000x64_S64x64_S5000x64_1_0_0_1_n_n_wf : DotDims.WF S5000x64 S64x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x32_S512x32_1_0_0_1_n_n_wf : DotDims.WF S512x64 S64x32 S512x32 [1] [0] [0] [1] [] []
  dot_S512x32_S32x3_S512x3_1_0_0_1_n_n_wf : DotDims.WF S512x32 S32x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x8.size a ≤ S50000x8.size a
  hwx0_0 : ∀ i : grid0.Coords, EltTy.bits .f32 = 32 ∨ (Rect.block (s := S50000x8) S5000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x8.size a ≤ S50000x8.size a
  hwx0_1 : ∀ i : grid0.Coords, EltTy.bits .f32 = 32 ∨ (Rect.block (s := S50000x8) S5000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S8x64.size a
  hwx0_2 : ∀ i : grid0.Coords, EltTy.bits .f32 = 32 ∨ (Rect.block (s := S8x64) S8x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x64.size a ≤ S80x64.size a
  hwx0_7 : ∀ i : grid0.Coords, EltTy.bits .f32 = 32 ∨ (Rect.block (s := S80x64) S8x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x64.size a ≤ S80x64.size a
  hwx0_8 : ∀ i : grid0.Coords, EltTy.bits .f32 = 32 ∨ (Rect.block (s := S80x64) S8x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x64.size a ≤ S80x64.size a
  hwx2_6 : ∀ i : grid2.Coords, EltTy.bits .f32 = 32 ∨ (Rect.block (s := S80x64) S8x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x64.size a ≤ S80x64.size a
  hwx2_7 : ∀ i : grid2.Coords, EltTy.bits .f32 = 32 ∨ (Rect.block (s := S80x64) S8x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x3.size a ≤ S32x3.size a
  hwx4_3 : ∀ i : grid4.Coords, EltTy.bits .f32 = 32 ∨ (Rect.block (s := S32x3) S32x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x3.size a ≤ S1x3.size a
  hwx4_4 : ∀ i : grid4.Coords, EltTy.bits .f32 = 32 ∨ (Rect.block (s := S1x3) S1x3.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x3.size a ≤ S512x3.size a
  hwx4_5 : ∀ i : grid4.Coords, EltTy.bits .f32 = 32 ∨ (Rect.block (s := S512x3) S512x3.size (cc4_transform_5 i) (hinb4_5 i)).WholeWords (EltTy.packing .f32)

variable [Facts₀]

def gather_S50000x8_S1600000x1_S1600000x8_1_0_n_n_0_1_18 : GatherDims S50000x8 S1600000x1 S1600000x8 where
  offsetDims := [1]
  collapsedSliceDims := [0]
  operandBatchingDims := []
  startIndicesBatchingDims := []
  startIndexMap := [0]
  indexVectorDim := 1
  sliceSizes := ![1, 8]
  wf := gather_S50000x8_S1600000x1_S1600000x8_1_0_n_n_0_1_18_wf
def scatter_S50000x8_S1600000x1_S1600000x8_1_0_0_1 : ScatterDims S50000x8 S1600000x1 S1600000x8 where
  updateWindowDims := [1]
  insertedWindowDims := [0]
  scatterDimsToOperandDims := [0]
  indexVectorDim := 1
  wf := scatter_S50000x8_S1600000x1_S1600000x8_1_0_0_1_wf
def dot_S5000x8_S8x64_S5000x64_1_0_0_1_n_n : DotDims S5000x8 S8x64 S5000x64 where
  lhsContracting := [1]
  rhsContracting := [0]
  lhsNonContracting := [0]
  rhsNonContracting := [1]
  lhsBatch := []
  rhsBatch := []
  wf := dot_S5000x8_S8x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x3_S512x3_1_0_0_1_n_n : DotDims S512x32 S32x3 S512x3 where
  lhsContracting := [1]
  rhsContracting := [0]
  lhsNonContracting := [0]
  rhsNonContracting := [1]
  lhsBatch := []
  rhsBatch := []
  wf := dot_S512x32_S32x3_S512x3_1_0_0_1_n_n_wf

abbrev win0_0 : Pipeline.Window sig grid0 :=
  Pipeline.Window.ofSpec (Memref.whole main_arg0) S5000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_1) S8x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_2) S8x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v21_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62_0) S5000x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v62_1) S8x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v62_2) S8x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v62_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v89) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v90) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S32x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v91) S1x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v92) S512x3.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x8 : Shape := ⟨2, ![50000, 8]⟩
abbrev S2x1600000 : Shape := ⟨2, ![2, 1600000]⟩
abbrev S50000 : Shape := ⟨1, ![50000]⟩
abbrev S8x64 : Shape := ⟨2, ![8, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x3 : Shape := ⟨2, ![32, 3]⟩
abbrev S3 : Shape := ⟨1, ![3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x8 : Shape := ⟨2, ![1600000, 8]⟩
abbrev S50000x64 : Shape := ⟨2, ![50000, 64]⟩
abbrev S1x64 : Shape := ⟨2, ![1, 64]⟩
abbrev S1600000x64 : Shape := ⟨2, ![1600000, 64]⟩
abbrev S50000x1 : Shape := ⟨2, ![50000, 1]⟩
abbrev S512x64 : Shape := ⟨2, ![512, 64]⟩
abbrev S512 : Shape := ⟨1, ![512]⟩
abbrev S512x1 : Shape := ⟨2, ![512, 1]⟩
abbrev S512x32 : Shape := ⟨2, ![512, 32]⟩
abbrev S1x32 : Shape := ⟨2, ![1, 32]⟩
abbrev S512x3 : Shape := ⟨2, ![512, 3]⟩
abbrev S1x3 : Shape := ⟨2, ![1, 3]⟩

abbrev nBuf : Space → Nat
  | .hbm => 171
  | .vmem => 0
  | .smem => 0
  | _ => 0

abbrev hbmTy0_0 (i : Nat) : BufTy := match i % 128 with
  | 0 => ⟨S50000x8, .f32⟩
  | 1 => ⟨S2x1600000, .i32⟩
  | 2 => ⟨S50000, .i32⟩
  | 3 => ⟨S8x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64x32, .f32⟩
  | 15 => ⟨S32, .f32⟩
  | 16 => ⟨S32x3, .f32⟩
  | 17 => ⟨S3, .f32⟩
  | 18 => ⟨S1x1600000, .i32⟩
  | 19 => ⟨S1600000, .i32⟩
  | 20 => ⟨S1x1600000, .i32⟩
  | 21 => ⟨S1600000, .i32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x8, .f32⟩
  | 31 => ⟨S_, .f32⟩
  | 32 => ⟨S50000x8, .f32⟩
  | 33 => ⟨S1600000x1, .i32⟩
  | 34 => ⟨S50000x8, .f32⟩
  | 35 => ⟨S50000x8, .f32⟩
  | 36 => ⟨S50000x64, .f32⟩
  | 37 => ⟨S1x64, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S50000x64, .f32⟩
  | 44 => ⟨S1x64, .f32⟩
  | 45 => ⟨S50000x64, .f32⟩
  | 46 => ⟨S50000x64, .f32⟩
  | 47 => ⟨S_, .f32⟩
  | 48 => ⟨S64, .f32⟩
  | 49 => ⟨S_, .f32⟩
  | 50 => ⟨S64, .f32⟩
  | 51 => ⟨S64, .f32⟩
  | 52 => ⟨S1x64, .f32⟩
  | 53 => ⟨S50000x64, .f32⟩
  | 54 => ⟨S50000x64, .f32⟩
  | 55 => ⟨S50000x64, .f32⟩
  | 56 => ⟨S_, .f32⟩
  | 57 => ⟨S64, .f32⟩
  | 58 => ⟨S_, .f32⟩
  | 59 => ⟨S64, .f32⟩
  | 60 => ⟨S64, .f32⟩
  | 61 => ⟨S1x64, .f32⟩
  | 62 => ⟨S50000x64, .f32⟩
  | 63 => ⟨S50000x64, .f32⟩
  | 64 => ⟨S_, .f32⟩
  | 65 => ⟨S64, .f32⟩
  | 66 => ⟨S64, .f32⟩
  | 67 => ⟨S64, .f32⟩
  | 68 => ⟨S1x64, .f32⟩
  | 69 => ⟨S50000x64, .f32⟩
  | 70 => ⟨S50000x64, .f32⟩
  | 71 => ⟨S1x64, .f32⟩
  | 72 => ⟨S50000x64, .f32⟩
  | 73 => ⟨S50000x64, .f32⟩
  | 74 => ⟨S1x64, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S_, .f32⟩
  | 90 => ⟨S50000x64, .f32⟩
  | 91 => ⟨S1600000x1, .i32⟩
  | 92 => ⟨S50000x64, .f32⟩
  | 93 => ⟨S_, .f32⟩
  | 94 => ⟨S1600000, .f32⟩
  | 95 => ⟨S_, .f32⟩
  | 96 => ⟨S50000, .f32⟩
  | 97 => ⟨S1600000x1, .i32⟩
  | 98 => ⟨S50000, .f32⟩
  | 99 => ⟨S_, .f32⟩
  | 100 => ⟨S50000, .f32⟩
  | 101 => ⟨S50000, .f32⟩
  | 102 => ⟨S50000x1, .f32⟩
  | 103 => ⟨S50000x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S50000x64, .f32⟩
  | 110 => ⟨S50000x64, .f32⟩
  | 111 => ⟨S_, .f32⟩
  | 112 => ⟨S64, .f32⟩
  | 113 => ⟨S_, .f32⟩
  | 114 => ⟨S64, .f32⟩
  | 115 => ⟨S64, .f32⟩
  | 116 => ⟨S1x64, .f32⟩
  | 117 => ⟨S50000x64, .f32⟩
  | 118 => ⟨S50000x64, .f32⟩
  | 119 => ⟨S50000x64, .f32⟩
  | 120 => ⟨S_, .f32⟩
  | 121 => ⟨S64, .f32⟩
  | 122 => ⟨S_, .f32⟩
  | 123 => ⟨S64, .f32⟩
  | 124 => ⟨S64, .f32⟩
  | 125 => ⟨S1x64, .f32⟩
  | 126 => ⟨S50000x64, .f32⟩
  | 127 => ⟨S50000x64, .f32⟩
  | _ => ⟨S50000x8, .f32⟩

abbrev hbmTy0_1 (i : Nat) : BufTy := match i % 128 with
  | 0 => ⟨S_, .f32⟩
  | 1 => ⟨S64, .f32⟩
  | 2 => ⟨S64, .f32⟩
  | 3 => ⟨S64, .f32⟩
  | 4 => ⟨S1x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S_, .f32⟩
  | 17 => ⟨S512x64, .f32⟩
  | 18 => ⟨S50000x1, .i32⟩
  | 19 => ⟨S512x64, .f32⟩
  | 20 => ⟨S_, .f32⟩
  | 21 => ⟨S50000, .f32⟩
  | 22 => ⟨S_, .f32⟩
  | 23 => ⟨S512, .f32⟩
  | 24 => ⟨S50000x1, .i32⟩
  | 25 => ⟨S512, .f32⟩
  | 26 => ⟨S_, .f32⟩
  | 27 => ⟨S512, .f32⟩
  | 28 => ⟨S512, .f32⟩
  | 29 => ⟨S512x1, .f32⟩
  | 30 => ⟨S512x64, .f32⟩
  | 31 => ⟨S512x64, .f32⟩
  | 32 => ⟨S512x32, .f32⟩
  | 33 => ⟨S1x32, .f32⟩
  | 34 => ⟨S512x32, .f32⟩
  | 35 => ⟨S512x32, .f32⟩
  | 36 => ⟨S_, .f32⟩
  | 37 => ⟨S512x32, .f32⟩
  | 38 => ⟨S512x32, .f32⟩
  | 39 => ⟨S512x3, .f32⟩
  | 40 => ⟨S1x3, .f32⟩
  | 41 => ⟨S512x3, .f32⟩
  | 42 => ⟨S512x3, .f32⟩
  | _ => ⟨S50000x8, .f32⟩

abbrev hbmTy (i : Nat) : BufTy := match i / 128 with
  | 0 => hbmTy0_0 i
  | 1 => hbmTy0_1 i
  | _ => ⟨S50000x8, .f32⟩

abbrev bufTy : (tb : Table) → Fin (tcTables nBuf tb) → BufTy
  | .hbm, ⟨i, _⟩ => hbmTy i
  | _, _ => ⟨S50000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call0_cst : Ref sig .tc := ⟨.hbm, 40, rfl⟩
abbrev main_call0_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_cst : Ref sig .tc := ⟨.hbm, 77, rfl⟩
abbrev main_call1_v0 : Ref sig .tc := ⟨.hbm, 78, rfl⟩
abbrev main_v49 : Ref sig .tc := ⟨.hbm, 79, rfl⟩
abbrev main_c_6 : Ref sig .tc := ⟨.hbm, 80, rfl⟩
abbrev main_v50 : Ref sig .tc := ⟨.hbm, 81, rfl⟩
abbrev main_v51 : Ref sig .tc := ⟨.hbm, 82, rfl⟩
abbrev main_c_7 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_8 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_9 : Ref sig .tc := ⟨.hbm, 93, rfl⟩
abbrev main_v60 : Ref sig .tc := ⟨.hbm, 94, rfl⟩
abbrev main_cst_10 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_11 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_cst_13 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_14 : Ref sig .tc := ⟨.hbm, 120, rfl⟩
abbrev main_v82 : Ref sig .tc := ⟨.hbm, 121, rfl⟩
abbrev main_cst_15 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_16 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_call2_cst : Ref sig .tc := ⟨.hbm, 141, rfl⟩
abbrev main_call2_v0 : Ref sig .tc := ⟨.hbm, 142, rfl⟩
abbrev main_v100 : Ref sig .tc := ⟨.hbm, 143, rfl⟩
abbrev main_cst_17 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_18 : Ref sig .tc := ⟨.hbm, 148, rfl⟩
abbrev main_v104 : Ref sig .tc := ⟨.hbm, 149, rfl⟩
abbrev main_cst_19 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_20 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_call3_cst : Ref sig .tc := ⟨.hbm, 164, rfl⟩
abbrev main_call3_v0 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x8 : S_.BroadcastsInDim S50000x8 (![] : Fin 0 → Fin S50000x8.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  gather_S50000x8_S1600000x1_S1600000x8_1_0_n_n_0_1_18_wf : GatherDims.WF S50000x8 S1600000x1 S1600000x8 [1] [0] [] [0] [] 1 ![1, 8]
  scatter_S50000x8_S1600000x1_S1600000x8_1_0_0_1_wf : ScatterDims.WF S50000x8 S1600000x1 S1600000x8 [1] [0] [0] 1
  dot_S50000x8_S8x64_S50000x64_1_0_0_1_n_n_wf : DotDims.WF S50000x8 S8x64 S50000x64 [1] [0] [0] [1] [] []
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x32_S512x32_1_0_0_1_n_n_wf : DotDims.WF S512x64 S64x32 S512x32 [1] [0] [0] [1] [] []
  dot_S512x32_S32x3_S512x3_1_0_0_1_n_n_wf : DotDims.WF S512x32 S32x3 S512x3 [1] [0] [0] [1] [] []

variable [Facts₀]

def gather_S50000x8_S1600000x1_S1600000x8_1_0_n_n_0_1_18 : GatherDims S50000x8 S1600000x1 S1600000x8 where
  offsetDims := [1]
  collapsedSliceDims := [0]
  operandBatchingDims := []
  startIndicesBatchingDims := []
  startIndexMap := [0]
  indexVectorDim := 1
  sliceSizes := ![1, 8]
  wf := gather_S50000x8_S1600000x1_S1600000x8_1_0_n_n_0_1_18_wf
def scatter_S50000x8_S1600000x1_S1600000x8_1_0_0_1 : ScatterDims S50000x8 S1600000x1 S1600000x8 where
  updateWindowDims := [1]
  insertedWindowDims := [0]
  scatterDimsToOperandDims := [0]
  indexVectorDim := 1
  wf := scatter_S50000x8_S1600000x1_S1600000x8_1_0_0_1_wf
def dot_S50000x8_S8x64_S50000x64_1_0_0_1_n_n : DotDims S50000x8 S8x64 S50000x64 where
  lhsContracting := [1]
  rhsContracting := [0]
  lhsNonContracting := [0]
  rhsNonContracting := [1]
  lhsBatch := []
  rhsBatch := []
  wf := dot_S50000x8_S8x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x3_S512x3_1_0_0_1_n_n : DotDims S512x32 S32x3 S512x3 where
  lhsContracting := [1]
  rhsContracting := [0]
  lhsNonContracting := [0]
  rhsNonContracting := [1]
  lhsBatch := []
  rhsBatch := []
  wf := dot_S512x32_S32x3_S512x3_1_0_0_1_n_n_wf

class Facts : Prop extends Facts₀ where

variable [Facts]
-- ==== Proof.RunValue.lean ====
/-
  The kernel program's run with its final memory kept: every weakly fair execution of the program ends, and at the
  end every unscoped buffer of every core holds what the last segment boundary's contents say — the fold of the host
  stretches and of the five regions' write-backs from the launch memory. The frame claim keeps only the argument
  buffers out of this; the value claim needs the result buffer, so the same run is stated here with the whole
  final contents in its post.
-/
import proofs.«119119_j46677704573771_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped buffer of each core at the contents the last boundary
    names: the segments are the program (host stretches and regions in order, each pipeline entered once), the
    launch deals every core its buffers at the launch memory, and the last thread state is read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.RunValue

end
-- ==== Proof.Spec.lean ====
/-
  The network's layers as functions of extended reals, one entry or one row at a time. Both programs are read
  against these: a batch-normalised entry followed by the rectifier, a row of a two-layer perceptron (the rectifier
  between the layers), and a row of the neighbourhood layer (a transformed mean of the neighbours plus a transformed
  copy of the node's own row).
-/
import Idealize.ShloMosaic.PureOps.Ideal

noncomputable section

namespace Cert.Spec

open Idealize.ShloMosaic

/-- One entry `h` normalised by its column's mean `mu` and variance `var` (the small constant added under the
    inverse square root is the one both programs carry), scaled by `g`, shifted by `b`, then the rectifier. -/
def bnrelu (h mu var g b : EReal) : EReal :=
  max ((h - mu) * Ideal.rsqrt (var + Ideal.ofBits .f32 0x3727C5AC#32) * g + b) 0

/-- Entry `q` of a row `u` sent through two affine layers with the rectifier between them:
    `(∑ k, max (∑ j, u j · w1 j k + b1 k) 0 · w2 k q) + b2 q`. -/
def mlpRow {a b c : ℕ} (u : Fin a → EReal) (w1 : Fin a → Fin b → EReal) (b1 : Fin b → EReal)
    (w2 : Fin b → Fin c → EReal) (b2 : Fin c → EReal) (q : Fin c) : EReal :=
  (∑ k : Fin b, max ((∑ j : Fin a, u j * w1 j k) + b1 k) 0 * w2 k q) + b2 q

/-- Entry `q` of the neighbourhood layer at one node: the neighbours' mean row `nb` through `wl` plus the bias,
    plus the node's own row `h` through `wr`. -/
def sageRow {a c : ℕ} (nb h : Fin a → EReal) (wl : Fin a → Fin c → EReal) (bl : Fin c → EReal)
    (wr : Fin a → Fin c → EReal) (q : Fin c) : EReal :=
  ((∑ k : Fin a, nb k * wl k q) + bl q) + ∑ k : Fin a, h k * wr k q

end Cert.Spec

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.Region0a.lean ====
/-
  The first region (the two-layer perceptron over the node rows, ten blocks of 5000 rows) and what it leaves in
  its first output array: row `p` of the result is the perceptron of row `p` of `x + agg`. A block's row `i` at
  grid point `t` is the array's row `5000 t + i`; the weights and biases are read whole at every point.
-/
import proofs.«119119_j46677704573771_2_alg».proof.Proof.Gen.KernelIdeal.Frame
import proofs.«119119_j46677704573771_2_alg».proof.Proof.Spec
import proofs.«119119_j46677704573771_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- A `[1, b]` row spread over the rows of an `[a, b]` block, read at `(i, q)`, is the row's entry `q`. -/
theorem row_over_apply {a b : ℕ} (v : (⟨2, ![1, b]⟩ : Shape).Idx → EReal) (h0 : (⟨2, ![1, b]⟩ : Shape).ShapeCasts ⟨2, ![1, b]⟩)
    (h : (⟨2, ![1, b]⟩ : Shape).Broadcasts ⟨2, ![a, b]⟩) (i : Fin a) (q : Fin b) :
    broadcastTo (⟨2, ![a, b]⟩ : Shape) (shapeCast (⟨2, ![1, b]⟩ : Shape) v h0) h (ix2 i q) = v (ix2 0 q) := by
  rw [shapeCast_self]
  exact broadcastTo_1b_ab_apply v h i q

/-- A matrix product into the zero accumulator, as the kernel bodies print it, read at an entry. -/
theorem mm_apply {M K N : ℕ} {φ₁ φ₂ : FTy} (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (p : Fin M) (q : Fin N) :
    matmul D none A B (constant (F := Ideal) ⟨2, ![M, N]⟩ .f32 0x00000000#32) (ix2 p q) = ∑ k : Fin K, A (ix2 p k) * B (ix2 k q) :=
  Cert.LibMatmulPlain.matmul_plain_zero_apply D hD none A B p q

/-- THE PERCEPTRON PAYLOAD AT AN ENTRY: entry `(i, q)` of the block's result is the perceptron of row `i` of the
    sum of the two input blocks. -/
theorem pay2_apply (x0 x1 : Vec Ideal S5000x8 .f32) (w1 : Vec Ideal S8x64 .f32) (b1 : Vec Ideal S1x64 .f32)
    (w2 : Vec Ideal S64x64 .f32) (b2 : Vec Ideal S1x64 .f32) (i : Fin 5000) (q : Fin 64) :
    k0_pay2 x0 x1 w1 b1 w2 b2 (ix2 i q)
      = Cert.Spec.mlpRow (fun j : Fin 8 => x0 (ix2 i j) + x1 (ix2 i j)) (fun (j : Fin 8) (k : Fin 64) => w1 (ix2 j k))
          (fun k : Fin 64 => b1 (ix2 0 k)) (fun (k : Fin 64) (q : Fin 64) => w2 (ix2 k q)) (fun q : Fin 64 => b2 (ix2 0 q)) q := by
  unfold k0_pay2 Cert.Spec.mlpRow
  dsimp only
  rw [addf_apply, mm_apply dot_S5000x64_S64x64_S5000x64_1_0_0_1_n_n rfl, row_over_apply]
  congr 1
  refine Finset.sum_congr rfl fun k _ => ?_
  rw [truncf_apply, truncf_apply, maximumf_apply, addf_apply, mm_apply dot_S5000x8_S8x64_S5000x64_1_0_0_1_n_n rfl,
    row_over_apply, broadcast_apply]
  congr 2
  · congr 1
    refine Finset.sum_congr rfl fun j _ => ?_
    rw [truncf_apply, truncf_apply, addf_apply, shapeCast_self]
  · exact Ideal.ofBits_zero_f32

/-- The printed index maps over the ten grid points: the row-blocked windows sit at block `t`, the whole-array
    windows at block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ t.val < 10 :=
  (by decide +kernel : ∀ t : Fin grid0.N, _)

theorem t_lt (t : Fin cfg0.N) : t.val < 10 := (idx_facts t).2.2.2.2.2.2.2.2.2.2.2.2.2.2.2.2.2.2

section Reads

variable (V : (c : Dev nD) → (b : Ref sig .tc) → Buf (Elt Ideal) ((c : Thread nD τ).loc b)) (c : Dev nD) (t : Fin cfg0.N)

/-- Row `i` of the first input's block at point `t` is row `5000 t + i` of its array. -/
theorem read0 (i : Fin 5000) (j : Fin 8) (h : t.val * 5000 + i.val < 50000) :
    iblk0 (F := Ideal) V c 0 t (ix2 i j) = (V c main_arg0 : S50000x8.Idx → EReal) (ix2 ⟨t.val * 5000 + i.val, h⟩ j) := by
  show (V c main_arg0 : S50000x8.Idx → EReal) (((cfg0.win 0).blk t).view.emb (ix2 i j)) = _
  refine congrArg _ (funext fun a => Fin.ext ?_)
  obtain ⟨e0, e1, -⟩ := idx_facts t
  match a with
  | ⟨0, _⟩ => show win0_0.index t (0 : Fin 2) * 5000 + 1 * i.val = t.val * 5000 + i.val; omega
  | ⟨1, _⟩ => show win0_0.index t (1 : Fin 2) * 8 + 1 * j.val = j.val; omega

/-- The same of the second input (the aggregated neighbour features). -/
theorem read1 (i : Fin 5000) (j : Fin 8) (h : t.val * 5000 + i.val < 50000) :
    iblk0 (F := Ideal) V c 1 t (ix2 i j) = (V c main_v18 : S50000x8.Idx → EReal) (ix2 ⟨t.val * 5000 + i.val, h⟩ j) := by
  show (V c main_v18 : S50000x8.Idx → EReal) (((cfg0.win 1).blk t).view.emb (ix2 i j)) = _
  refine congrArg _ (funext fun a => Fin.ext ?_)
  obtain ⟨-, -, e0, e1, -⟩ := idx_facts t
  match a with
  | ⟨0, _⟩ => show win0_1.index t (0 : Fin 2) * 5000 + 1 * i.val = t.val * 5000 + i.val; omega
  | ⟨1, _⟩ => show win0_1.index t (1 : Fin 2) * 8 + 1 * j.val = j.val; omega

/-- The first weight matrix is read whole. -/
theorem read2 (j : Fin 8) (k : Fin 64) :
    iblk0 (F := Ideal) V c 2 t (ix2 j k) = (V c main_arg3 : S8x64.Idx → EReal) (ix2 j k) := by
  show (V c main_arg3 : S8x64.Idx → EReal) (((cfg0.win 2).blk t).view.emb (ix2 j k)) = _
  refine congrArg _ (funext fun a => Fin.ext ?_)
  obtain ⟨-, -, -, -, e0, e1, -⟩ := idx_facts t
  match a with
  | ⟨0, _⟩ => show win0_2.index t (0 : Fin 2) * 8 + 1 * j.val = j.val; omega
  | ⟨1, _⟩ => show win0_2.index t (1 : Fin 2) * 64 + 1 * k.val = k.val; omega

/-- The first bias row is read whole. -/
theorem read3 (z : Fin 1) (k : Fin 64) :
    iblk0 (F := Ideal) V c 3 t (ix2 z k) = (V c main_v19 : S1x64.Idx → EReal) (ix2 z k) := by
  show (V c main_v19 : S1x64.Idx → EReal) (((cfg0.win 3).blk t).view.emb (ix2 z k)) = _
  refine congrArg _ (funext fun a => Fin.ext ?_)
  obtain ⟨-, -, -, -, -, -, e0, e1, -⟩ := idx_facts t
  match a with
  | ⟨0, _⟩ => show win0_3.index t (0 : Fin 2) * 1 + 1 * z.val = z.val; omega
  | ⟨1, _⟩ => show win0_3.index t (1 : Fin 2) * 64 + 1 * k.val = k.val; omega

/-- The second weight matrix is read whole. -/
theorem read4 (j : Fin 64) (k : Fin 64) :
    iblk0 (F := Ideal) V c 4 t (ix2 j k) = (V c main_arg5 : S64x64.Idx → EReal) (ix2 j k) := by
  show (V c main_arg5 : S64x64.Idx → EReal) (((cfg0.win 4).blk t).view.emb (ix2 j k)) = _
  refine congrArg _ (funext fun a => Fin.ext ?_)
  obtain ⟨-, -, -, -, -, -, -, -, e0, e1, -⟩ := idx_facts t
  match a with
  | ⟨0, _⟩ => show win0_4.index t (0 : Fin 2) * 64 + 1 * j.val = j.val; omega
  | ⟨1, _⟩ => show win0_4.index t (1 : Fin 2) * 64 + 1 * k.val = k.val; omega

/-- The second bias row is read whole. -/
theorem read5 (z : Fin 1) (k : Fin 64) :
    iblk0 (F := Ideal) V c 5 t (ix2 z k) = (V c main_v20 : S1x64.Idx → EReal) (ix2 z k) := by
  show (V c main_v20 : S1x64.Idx → EReal) (((cfg0.win 5).blk t).view.emb (ix2 z k)) = _
  refine congrArg _ (funext fun a => Fin.ext ?_)
  obtain ⟨-, -, -, -, -, -, -, -, -, -, e0, e1, -⟩ := idx_facts t
  match a with
  | ⟨0, _⟩ => show win0_5.index t (0 : Fin 2) * 1 + 1 * z.val = z.val; omega
  | ⟨1, _⟩ => show win0_5.index t (1 : Fin 2) * 64 + 1 * k.val = k.val; omega

/-- Entry `(i, q)` of the first output's block at point `t` sits at row `5000 t + i` of its array. -/
theorem emb6 (i : Fin 5000) (q : Fin 64) (h : t.val * 5000 + i.val < 50000) :
    ((cfg0.win 6).blk t).view.emb (ix2 i q) = (ix2 ⟨t.val * 5000 + i.val, h⟩ q : S50000x64.Idx) := by
  refine funext fun a => Fin.ext ?_
  obtain ⟨-, -, -, -, -, -, -, -, -, -, -, -, e0, e1, -⟩ := idx_facts t
  match a with
  | ⟨0, _⟩ => show win0_6.index t (0 : Fin 2) * 5000 + 1 * i.val = t.val * 5000 + i.val; omega
  | ⟨1, _⟩ => show win0_6.index t (1 : Fin 2) * 64 + 1 * q.val = q.val; omega

end Reads

/-- THE FIRST OUTPUT AS ONE FUNCTION OF THE REGION'S INPUT ARRAYS: row `p` is the perceptron of row `p` of `x + agg`. -/
def G6 (X AGG : S50000x8.Idx → EReal) (W1 : S8x64.Idx → EReal) (B1 : S1x64.Idx → EReal) (W2 : S64x64.Idx → EReal)
    (B2 : S1x64.Idx → EReal) : S50000x64.Idx → EReal := fun j =>
  Cert.Spec.mlpRow (fun a : Fin 8 => X (ix2 (j 0) a) + AGG (ix2 (j 0) a)) (fun (a : Fin 8) (k : Fin 64) => W1 (ix2 a k))
    (fun k : Fin 64 => B1 (ix2 0 k)) (fun (k : Fin 64) (q : Fin 64) => W2 (ix2 k q)) (fun q : Fin 64 => B2 (ix2 0 q)) (j 1)

section Final

variable (V : (c : Dev nD) → (b : Ref sig .tc) → Buf (Elt Ideal) ((c : Thread nD τ).loc b)) (c : Dev nD)

/-- WHAT POINT `t` WRITES BACK to the first output is block `t` of `G6` of the arrays as the region finds them. -/
theorem flushed6 (t : Fin cfg0.N) :
    (dat0 (F := Ideal) V c).flushed 6 t
      = ((cfg0.win 6).blk t).view.read (Elt Ideal) (G6 (V c main_arg0) (V c main_v18) (V c main_arg3) (V c main_v19) (V c main_arg5) (V c main_v20)) := by
  show (cfg0.win 6).cut (grid0.coords t) ((dat0 V c).after 6 t) = _
  rw [after0_6]
  unfold out0_6
  rw [View.canon_unit_zero hz]
  simp only [View.ld_unit_zero (S := S5000x8) hz, View.ld_unit_zero (S := S8x64) hz, View.ld_unit_zero (S := S1x64) hz,
    View.ld_unit_zero (S := S64x64) hz]
  funext y
  obtain ⟨i, q, rfl⟩ : ∃ (i : Fin 5000) (q : Fin 64), y = ix2 i q := ⟨y 0, y 1, eq_ix2 y⟩
  have hb : t.val * 5000 + i.val < 50000 := by have := i.isLt; have := t_lt t; omega
  show k0_pay2 (iblk0 V c 0 t) (iblk0 V c 1 t) (iblk0 V c 2 t) (iblk0 V c 3 t) (iblk0 V c 4 t) (iblk0 V c 5 t) (ix2 i q)
    = G6 (V c main_arg0) (V c main_v18) (V c main_arg3) (V c main_v19) (V c main_arg5) (V c main_v20) (((cfg0.win 6).blk t).view.emb (ix2 i q))
  rw [emb6 t i q hb]
  refine (pay2_apply _ _ _ _ _ _ i q).trans ?_
  simp only [read0 V c t i _ hb, read1 V c t i _ hb, read2 V c t, read3 V c t, read4 V c t, read5 V c t]
  rfl

/-- An index of the first output's array is in point `t`'s block iff its row is one of the block's 5000. -/
theorem mem_blk6 (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v21_0).slice (win0_6.rect t)).set ↔ _
  rw [View.set_slice_whole, Rect.mem_set_unit]
  exact Iff.rfl

/-- Every row is in the block of point `row / 5000`. -/
theorem cover6 (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  refine ⟨t, flush0_6 t, ?_⟩
  rw [mem_blk6]
  obtain ⟨-, -, -, -, -, -, -, -, -, -, -, -, e0, e1, -⟩ := idx_facts t
  have ht : t.val = (i 0).val / 5000 := rfl
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE FIRST OUTPUT ARRAY after the region: `G6` of the region's input arrays. -/
theorem final6 : (dat0 (F := Ideal) V c).arrAt 6 cfg0.N
    = G6 (V c main_arg0) (V c main_v18) (V c main_arg3) (V c main_v19) (V c main_arg5) (V c main_v20) :=
  (dat0 (F := Ideal) V c).arrAt_eq_of_cover 6 _ (fun t _ => flushed6 V c t) (cover6)

end Final

end Cert.Region0

end
-- ==== Proof.HostReads.lean ====
/-
  The host stretches of the kernel program, read at the buffers the regions take: each is a fold of host operations
  over the contents `W` it starts from, and the buffers a region reads are terms of `W` at earlier buffers.
-/
import proofs.«119119_j46677704573771_2_alg».proof.Proof.Gen.KernelIdeal.Frame
import Idealize.ShloMosaic.Lib.StableHlo.Run
import Idealize.ShloMosaic.PureOps.Ideal
import Idealize.ShloMosaic.Lib.ValueIdx

set_option maxRecDepth 16384

noncomputable section

namespace Cert.HostReads

open Cert.KernelIdeal Cert.KernelIdeal.Gen
open Idealize.ShloMosaic Idealize.ShloMosaic.TcCoe Idealize.ShloMosaic.StableHlo
open Idealize.SL Idealize.SL.Sem

/-- Row `r` of the edge list as a vector of 1 600 000 words. -/
def edgeRow0 (a1 : IVec S2x1600000 32) : IVec S1600000 32 :=
  shapeCast S1600000 (extractStridedSlice S1x1600000 ![0, 0] a1 slices_S2x1600000_S1x1600000_0_0) shapeCasts_S1x1600000_S1600000
def edgeRow1 (a1 : IVec S2x1600000 32) : IVec S1600000 32 :=
  shapeCast S1600000 (extractStridedSlice S1x1600000 ![1, 0] a1 slices_S2x1600000_S1x1600000_1_0) shapeCasts_S1x1600000_S1600000

/-- A negative node number counted from the end: `d + 50000` where `d < 0`, else `d`. -/
def wrap (d : IVec S1600000 32) : IVec S1600000 32 :=
  select (cmpi .slt d (broadcastInDim S1600000 ![] bcast_S_S1600000 (constantI S_ 32 0#32)))
    (addi d (broadcastInDim S1600000 ![] bcast_S_S1600000 (constantI S_ 32 50000#32))) d

/-- A vector of node numbers as an index column. -/
def col (d : IVec S1600000 32) : IVec S1600000x1 32 := broadcastInDim S1600000x1 ![0] bcast_S1600000_S1600000x1_0 d

/-- The first aggregation as the kernel program's host lines compute it: the rows of `x` gathered at the wrapped
    sources, added into a zero table at the wrapped destinations. -/
def aggK (x : FVec Ideal S50000x8 .f32) (a1 : IVec S2x1600000 32) : FVec Ideal S50000x8 .f32 :=
  Host.scatterAdd scatter_S50000x8_S1600000x1_S1600000x8_1_0_0_1
    (broadcastInDim S50000x8 ![] bcast_S_S50000x8 (constant (F := Ideal) S_ .f32 0x00000000#32))
    (col (wrap (edgeRow1 a1)))
    (Host.gather gather_S50000x8_S1600000x1_S1600000x8_1_0_n_n_0_1_18 x (col (wrap (edgeRow0 a1))))

variable (W : Valuation τ sig (Elt Ideal))

theorem s0_v18 : (StableHlo.after (hostOps0 (F := Ideal)) W (Proc.devRef .tc main_v18) : S50000x8.Idx → EReal)
    = aggK (W (Proc.devRef .tc main_arg0)) (W (Proc.devRef .tc main_arg1)) := by
  after_results_simp
  rfl

theorem s0_v19 : (StableHlo.after (hostOps0 (F := Ideal)) W (Proc.devRef .tc main_v19) : S1x64.Idx → EReal)
    = shapeCast S1x64 (W (Proc.devRef .tc main_arg4) : S64.Idx → EReal) shapeCasts_S64_S1x64 := by
  after_results_simp
  rfl

theorem s0_v20 : (StableHlo.after (hostOps0 (F := Ideal)) W (Proc.devRef .tc main_v20) : S1x64.Idx → EReal)
    = shapeCast S1x64 (W (Proc.devRef .tc main_arg6) : S64.Idx → EReal) shapeCasts_S64_S1x64 := by
  after_results_simp
  rfl

theorem s0_arg0 : StableHlo.after (hostOps0 (F := Ideal)) W (Proc.devRef .tc main_arg0) = W (Proc.devRef .tc main_arg0) := by
  after_results_simp

theorem s0_arg3 : StableHlo.after (hostOps0 (F := Ideal)) W (Proc.devRef .tc main_arg3) = W (Proc.devRef .tc main_arg3) := by
  after_results_simp

theorem s0_arg5 : StableHlo.after (hostOps0 (F := Ideal)) W (Proc.devRef .tc main_arg5) = W (Proc.devRef .tc main_arg5) := by
  after_results_simp

theorem s0_v1 : (StableHlo.after (hostOps0 (F := Ideal)) W (Proc.devRef .tc main_v1) : S1600000.Idx → BitVec 32)
    = edgeRow0 (W (Proc.devRef .tc main_arg1)) := by
  after_results_simp
  rfl

theorem s0_v3 : (StableHlo.after (hostOps0 (F := Ideal)) W (Proc.devRef .tc main_v3) : S1600000.Idx → BitVec 32)
    = edgeRow1 (W (Proc.devRef .tc main_arg1)) := by
  after_results_simp
  rfl

/-! ## The statistics stretches (after the first and after the third region) -/

/-- The column sums of an `[80, 64]` array divided by the node count. -/
def colMean (S : FVec Ideal S80x64 .f32) : FVec Ideal S64 .f32 :=
  Host.divf (Host.reduceAdd S (constant (F := Ideal) S_ .f32 0x00000000#32) reducesTo_S80x64_S64_d0 h_S_)
    (broadcastInDim S64 ![] bcast_S_S64 (constant (F := Ideal) S_ .f32 0x47435000#32))

/-- The kernel program's variance: the mean of the squares minus the squared mean, cut off below at zero. -/
def colVar (S Q : FVec Ideal S80x64 .f32) : FVec Ideal S64 .f32 :=
  maximumf (subf (colMean Q) (mulf (colMean S) (colMean S)))
    (broadcastInDim S64 ![] bcast_S_S64 (constant (F := Ideal) S_ .f32 0x00000000#32))

theorem s1_v32 : (StableHlo.after (hostOps1 (F := Ideal)) W (Proc.devRef .tc main_v32) : S1x64.Idx → EReal)
    = shapeCast S1x64 (colMean (W (Proc.devRef .tc main_v21_1))) shapeCasts_S64_S1x64 := by
  after_results_simp
  rfl

theorem s1_v33 : (StableHlo.after (hostOps1 (F := Ideal)) W (Proc.devRef .tc main_v33) : S1x64.Idx → EReal)
    = shapeCast S1x64 (colVar (W (Proc.devRef .tc main_v21_1)) (W (Proc.devRef .tc main_v21_2))) shapeCasts_S64_S1x64 := by
  after_results_simp
  rfl

theorem s1_v34 : (StableHlo.after (hostOps1 (F := Ideal)) W (Proc.devRef .tc main_v34) : S1x64.Idx → EReal)
    = shapeCast S1x64 (W (Proc.devRef .tc main_arg7) : S64.Idx → EReal) shapeCasts_S64_S1x64 := by
  after_results_simp
  rfl

theorem s1_v35 : (StableHlo.after (hostOps1 (F := Ideal)) W (Proc.devRef .tc main_v35) : S1x64.Idx → EReal)
    = shapeCast S1x64 (W (Proc.devRef .tc main_arg8) : S64.Idx → EReal) shapeCasts_S64_S1x64 := by
  after_results_simp
  rfl

theorem s3_v73 : (StableHlo.after (hostOps3 (F := Ideal)) W (Proc.devRef .tc main_v73) : S1x64.Idx → EReal)
    = shapeCast S1x64 (colMean (W (Proc.devRef .tc main_v62_1))) shapeCasts_S64_S1x64 := by
  after_results_simp
  rfl

theorem s3_v74 : (StableHlo.after (hostOps3 (F := Ideal)) W (Proc.devRef .tc main_v74) : S1x64.Idx → EReal)
    = shapeCast S1x64 (colVar (W (Proc.devRef .tc main_v62_1)) (W (Proc.devRef .tc main_v62_2))) shapeCasts_S64_S1x64 := by
  after_results_simp
  rfl

theorem s3_v75 : (StableHlo.after (hostOps3 (F := Ideal)) W (Proc.devRef .tc main_v75) : S1x64.Idx → EReal)
    = shapeCast S1x64 (W (Proc.devRef .tc main_arg12) : S64.Idx → EReal) shapeCasts_S64_S1x64 := by
  after_results_simp
  rfl

theorem s3_v76 : (StableHlo.after (hostOps3 (F := Ideal)) W (Proc.devRef .tc main_v76) : S1x64.Idx → EReal)
    = shapeCast S1x64 (W (Proc.devRef .tc main_arg13) : S64.Idx → EReal) shapeCasts_S64_S1x64 := by
  after_results_simp
  rfl

/-! ## The neighbourhood mean (after the second region) -/

/-- The neighbours' mean as the kernel program's host lines compute it: the rows of `h` gathered at the wrapped
    sources and added into a zero table at the wrapped destinations, divided by the in-degree (counted at the
    destinations as given) or by one where that is smaller. -/
def nbMeanK (h : FVec Ideal S50000x64 .f32) (src dst : IVec S1600000 32) : FVec Ideal S50000x64 .f32 :=
  Host.divf
    (Host.scatterAdd scatter_S50000x64_S1600000x1_S1600000x64_1_0_0_1
      (broadcastInDim S50000x64 ![] bcast_S_S50000x64 (constant (F := Ideal) S_ .f32 0x00000000#32))
      (col (wrap dst))
      (Host.gather gather_S50000x64_S1600000x1_S1600000x64_1_0_n_n_0_1_164 h (col (wrap src))))
    (broadcastInDim S50000x64 ![0, 1] bcast_S50000x1_S50000x64_0_1
      (broadcastInDim S50000x1 ![0] bcast_S50000_S50000x1_0
        (maximumf
          (Host.scatterAdd scatter_S50000_S1600000x1_S1600000_n_0_0_1
            (broadcastInDim S50000 ![] bcast_S_S50000 (constant (F := Ideal) S_ .f32 0x00000000#32))
            (col dst)
            (broadcastInDim S1600000 ![] bcast_S_S1600000 (constant (F := Ideal) S_ .f32 0x3F800000#32)))
          (broadcastInDim S50000 ![] bcast_S_S50000 (constant (F := Ideal) S_ .f32 0x3F800000#32)))))

theorem s2_v60 : (StableHlo.after (hostOps2 (F := Ideal)) W (Proc.devRef .tc main_v60) : S50000x64.Idx → EReal)
    = nbMeanK (W (Proc.devRef .tc main_v36)) (W (Proc.devRef .tc main_v1)) (W (Proc.devRef .tc main_v3)) := by
  after_results_simp
  rfl

theorem s2_v61 : (StableHlo.after (hostOps2 (F := Ideal)) W (Proc.devRef .tc main_v61) : S1x64.Idx → EReal)
    = shapeCast S1x64 (W (Proc.devRef .tc main_arg10) : S64.Idx → EReal) shapeCasts_S64_S1x64 := by
  after_results_simp
  rfl

/-! ## The mean pool (after the fourth region) -/

/-- The graphs' mean rows: the rows of `h` added into a zero table at their graph numbers, divided by the graph's
    node count or by one where that is smaller. -/
def poolK (h : FVec Ideal S50000x64 .f32) (batch : IVec S50000 32) : FVec Ideal S512x64 .f32 :=
  Host.divf
    (Host.scatterAdd scatter_S512x64_S50000x1_S50000x64_1_0_0_1
      (broadcastInDim S512x64 ![] bcast_S_S512x64 (constant (F := Ideal) S_ .f32 0x00000000#32))
      (broadcastInDim S50000x1 ![0] bcast_S50000_S50000x1_0 batch) h)
    (broadcastInDim S512x64 ![0, 1] bcast_S512x1_S512x64_0_1
      (broadcastInDim S512x1 ![0] bcast_S512_S512x1_0
        (maximumf
          (Host.scatterAdd scatter_S512_S50000x1_S50000_n_0_0_1
            (broadcastInDim S512 ![] bcast_S_S512 (constant (F := Ideal) S_ .f32 0x00000000#32))
            (broadcastInDim S50000x1 ![0] bcast_S50000_S50000x1_0 batch)
            (broadcastInDim S50000 ![] bcast_S_S50000 (constant (F := Ideal) S_ .f32 0x3F800000#32)))
          (broadcastInDim S512 ![] bcast_S_S512 (constant (F := Ideal) S_ .f32 0x3F800000#32)))))

theorem s4_v89 : (StableHlo.after (hostOps4 (F := Ideal)) W (Proc.devRef .tc main_v89) : S512x64.Idx → EReal)
    = poolK (W (Proc.devRef .tc main_v77)) (W (Proc.devRef .tc main_arg2)) := by
  after_results_simp
  rfl

theorem s4_v90 : (StableHlo.after (hostOps4 (F := Ideal)) W (Proc.devRef .tc main_v90) : S1x32.Idx → EReal)
    = shapeCast S1x32 (W (Proc.devRef .tc main_arg15) : S32.Idx → EReal) shapeCasts_S32_S1x32 := by
  after_results_simp
  rfl

theorem s4_v91 : (StableHlo.after (hostOps4 (F := Ideal)) W (Proc.devRef .tc main_v91) : S1x3.Idx → EReal)
    = shapeCast S1x3 (W (Proc.devRef .tc main_arg17) : S3.Idx → EReal) shapeCasts_S3_S1x3 := by
  after_results_simp
  rfl

end Cert.HostReads

end
-- ==== Proof.Carry.lean ====
/-
  Buffers that a host stretch does not write keep their contents through it, and buffers that are not among a
  region's arrays keep theirs through the region; so an argument array, read at any later segment boundary, still
  holds its launch contents, and the two rows of the edge list computed in the first stretch are still there when
  the third stretch reads them.
-/
import proofs.«119119_j46677704573771_2_alg».proof.Proof.HostReads

set_option maxRecDepth 16384

noncomputable section

namespace Cert.Carry

open Cert.KernelIdeal Cert.KernelIdeal.Gen
open Idealize.ShloMosaic Idealize.ShloMosaic.TcCoe Idealize.ShloMosaic.StableHlo
open Idealize.SL Idealize.SL.Sem

section Keep
variable (W : Valuation τ sig (Elt Ideal))
theorem keep0_main_arg0 : StableHlo.after (hostOps0 (F := Ideal)) W (Proc.devRef .tc main_arg0) = W (Proc.devRef .tc main_arg0) := by
  after_results_simp
theorem keep0_main_arg3 : StableHlo.after (hostOps0 (F := Ideal)) W (Proc.devRef .tc main_arg3) = W (Proc.devRef .tc main_arg3) := by
  after_results_simp
theorem keep0_main_arg5 : StableHlo.after (hostOps0 (F := Ideal)) W (Proc.devRef .tc main_arg5) = W (Proc.devRef .tc main_arg5) := by
  after_results_simp
theorem keep0_main_arg7 : StableHlo.after (hostOps0 (F := Ideal)) W (Proc.devRef .tc main_arg7) = W (Proc.devRef .tc main_arg7) := by
  after_results_simp
theorem keep0_main_arg8 : StableHlo.after (hostOps0 (F := Ideal)) W (Proc.devRef .tc main_arg8) = W (Proc.devRef .tc main_arg8) := by
  after_results_simp
theorem keep0_main_arg9 : StableHlo.after (hostOps0 (F := Ideal)) W (Proc.devRef .tc main_arg9) = W (Proc.devRef .tc main_arg9) := by
  after_results_simp
theorem keep0_main_arg10 : StableHlo.after (hostOps0 (F := Ideal)) W (Proc.devRef .tc main_arg10) = W (Proc.devRef .tc main_arg10) := by
  after_results_simp
theorem keep0_main_arg11 : StableHlo.after (hostOps0 (F := Ideal)) W (Proc.devRef .tc main_arg11) = W (Proc.devRef .tc main_arg11) := by
  after_results_simp
theorem keep0_main_arg12 : StableHlo.after (hostOps0 (F := Ideal)) W (Proc.devRef .tc main_arg12) = W (Proc.devRef .tc main_arg12) := by
  after_results_simp
theorem keep0_main_arg13 : StableHlo.after (hostOps0 (F := Ideal)) W (Proc.devRef .tc main_arg13) = W (Proc.devRef .tc main_arg13) := by
  after_results_simp
theorem keep0_main_arg2 : StableHlo.after (hostOps0 (F := Ideal)) W (Proc.devRef .tc main_arg2) = W (Proc.devRef .tc main_arg2) := by
  after_results_simp
theorem keep0_main_arg14 : StableHlo.after (hostOps0 (F := Ideal)) W (Proc.devRef .tc main_arg14) = W (Proc.devRef .tc main_arg14) := by
  after_results_simp
theorem keep0_main_arg15 : StableHlo.after (hostOps0 (F := Ideal)) W (Proc.devRef .tc main_arg15) = W (Proc.devRef .tc main_arg15) := by
  after_results_simp
theorem keep0_main_arg16 : StableHlo.after (hostOps0 (F := Ideal)) W (Proc.devRef .tc main_arg16) = W (Proc.devRef .tc main_arg16) := by
  after_results_simp
theorem keep0_main_arg17 : StableHlo.after (hostOps0 (F := Ideal)) W (Proc.devRef .tc main_arg17) = W (Proc.devRef .tc main_arg17) := by
  after_results_simp
theorem keep1_main_v21_0 : StableHlo.after (hostOps1 (F := Ideal)) W (Proc.devRef .tc main_v21_0) = W (Proc.devRef .tc main_v21_0) := by
  after_results_simp
theorem keep1_main_arg9 : StableHlo.after (hostOps1 (F := Ideal)) W (Proc.devRef .tc main_arg9) = W (Proc.devRef .tc main_arg9) := by
  after_results_simp
theorem keep1_main_arg10 : StableHlo.after (hostOps1 (F := Ideal)) W (Proc.devRef .tc main_arg10) = W (Proc.devRef .tc main_arg10) := by
  after_results_simp
theorem keep1_main_arg11 : StableHlo.after (hostOps1 (F := Ideal)) W (Proc.devRef .tc main_arg11) = W (Proc.devRef .tc main_arg11) := by
  after_results_simp
theorem keep1_main_v1 : StableHlo.after (hostOps1 (F := Ideal)) W (Proc.devRef .tc main_v1) = W (Proc.devRef .tc main_v1) := by
  after_results_simp
theorem keep1_main_v3 : StableHlo.after (hostOps1 (F := Ideal)) W (Proc.devRef .tc main_v3) = W (Proc.devRef .tc main_v3) := by
  after_results_simp
theorem keep1_main_arg12 : StableHlo.after (hostOps1 (F := Ideal)) W (Proc.devRef .tc main_arg12) = W (Proc.devRef .tc main_arg12) := by
  after_results_simp
theorem keep1_main_arg13 : StableHlo.after (hostOps1 (F := Ideal)) W (Proc.devRef .tc main_arg13) = W (Proc.devRef .tc main_arg13) := by
  after_results_simp
theorem keep1_main_arg2 : StableHlo.after (hostOps1 (F := Ideal)) W (Proc.devRef .tc main_arg2) = W (Proc.devRef .tc main_arg2) := by
  after_results_simp
theorem keep1_main_arg14 : StableHlo.after (hostOps1 (F := Ideal)) W (Proc.devRef .tc main_arg14) = W (Proc.devRef .tc main_arg14) := by
  after_results_simp
theorem keep1_main_arg15 : StableHlo.after (hostOps1 (F := Ideal)) W (Proc.devRef .tc main_arg15) = W (Proc.devRef .tc main_arg15) := by
  after_results_simp
theorem keep1_main_arg16 : StableHlo.after (hostOps1 (F := Ideal)) W (Proc.devRef .tc main_arg16) = W (Proc.devRef .tc main_arg16) := by
  after_results_simp
theorem keep1_main_arg17 : StableHlo.after (hostOps1 (F := Ideal)) W (Proc.devRef .tc main_arg17) = W (Proc.devRef .tc main_arg17) := by
  after_results_simp
theorem keep2_main_v36 : StableHlo.after (hostOps2 (F := Ideal)) W (Proc.devRef .tc main_v36) = W (Proc.devRef .tc main_v36) := by
  after_results_simp
theorem keep2_main_arg9 : StableHlo.after (hostOps2 (F := Ideal)) W (Proc.devRef .tc main_arg9) = W (Proc.devRef .tc main_arg9) := by
  after_results_simp
theorem keep2_main_arg11 : StableHlo.after (hostOps2 (F := Ideal)) W (Proc.devRef .tc main_arg11) = W (Proc.devRef .tc main_arg11) := by
  after_results_simp
theorem keep2_main_arg12 : StableHlo.after (hostOps2 (F := Ideal)) W (Proc.devRef .tc main_arg12) = W (Proc.devRef .tc main_arg12) := by
  after_results_simp
theorem keep2_main_arg13 : StableHlo.after (hostOps2 (F := Ideal)) W (Proc.devRef .tc main_arg13) = W (Proc.devRef .tc main_arg13) := by
  after_results_simp
theorem keep2_main_arg2 : StableHlo.after (hostOps2 (F := Ideal)) W (Proc.devRef .tc main_arg2) = W (Proc.devRef .tc main_arg2) := by
  after_results_simp
theorem keep2_main_arg14 : StableHlo.after (hostOps2 (F := Ideal)) W (Proc.devRef .tc main_arg14) = W (Proc.devRef .tc main_arg14) := by
  after_results_simp
theorem keep2_main_arg15 : StableHlo.after (hostOps2 (F := Ideal)) W (Proc.devRef .tc main_arg15) = W (Proc.devRef .tc main_arg15) := by
  after_results_simp
theorem keep2_main_arg16 : StableHlo.after (hostOps2 (F := Ideal)) W (Proc.devRef .tc main_arg16) = W (Proc.devRef .tc main_arg16) := by
  after_results_simp
theorem keep2_main_arg17 : StableHlo.after (hostOps2 (F := Ideal)) W (Proc.devRef .tc main_arg17) = W (Proc.devRef .tc main_arg17) := by
  after_results_simp
theorem keep3_main_v62_0 : StableHlo.after (hostOps3 (F := Ideal)) W (Proc.devRef .tc main_v62_0) = W (Proc.devRef .tc main_v62_0) := by
  after_results_simp
theorem keep3_main_arg2 : StableHlo.after (hostOps3 (F := Ideal)) W (Proc.devRef .tc main_arg2) = W (Proc.devRef .tc main_arg2) := by
  after_results_simp
theorem keep3_main_arg14 : StableHlo.after (hostOps3 (F := Ideal)) W (Proc.devRef .tc main_arg14) = W (Proc.devRef .tc main_arg14) := by
  after_results_simp
theorem keep3_main_arg15 : StableHlo.after (hostOps3 (F := Ideal)) W (Proc.devRef .tc main_arg15) = W (Proc.devRef .tc main_arg15) := by
  after_results_simp
theorem keep3_main_arg16 : StableHlo.after (hostOps3 (F := Ideal)) W (Proc.devRef .tc main_arg16) = W (Proc.devRef .tc main_arg16) := by
  after_results_simp
theorem keep3_main_arg17 : StableHlo.after (hostOps3 (F := Ideal)) W (Proc.devRef .tc main_arg17) = W (Proc.devRef .tc main_arg17) := by
  after_results_simp
theorem keep4_main_arg14 : StableHlo.after (hostOps4 (F := Ideal)) W (Proc.devRef .tc main_arg14) = W (Proc.devRef .tc main_arg14) := by
  after_results_simp
theorem keep4_main_arg16 : StableHlo.after (hostOps4 (F := Ideal)) W (Proc.devRef .tc main_arg16) = W (Proc.devRef .tc main_arg16) := by
  after_results_simp
end Keep

variable (m : (ℓ : Loc nD τ sig) → Buf (Elt Ideal) ℓ) (ρ : Dev nD → PrngReg) (c : Dev nD)

theorem main_arg0_at1 : W1 (F := Ideal) m ρ c (Proc.devRef .tc main_arg0) = m ((c : Thread nD τ).loc main_arg0) :=
  ((keep0_main_arg0 (W0 m ρ c)).trans rfl)
theorem main_arg3_at1 : W1 (F := Ideal) m ρ c (Proc.devRef .tc main_arg3) = m ((c : Thread nD τ).loc main_arg3) :=
  ((keep0_main_arg3 (W0 m ρ c)).trans rfl)
theorem main_arg5_at1 : W1 (F := Ideal) m ρ c (Proc.devRef .tc main_arg5) = m ((c : Thread nD τ).loc main_arg5) :=
  ((keep0_main_arg5 (W0 m ρ c)).trans rfl)
theorem main_arg7_at2 : W2 (F := Ideal) m ρ c (Proc.devRef .tc main_arg7) = m ((c : Thread nD τ).loc main_arg7) :=
  ((W2_of_ne m ρ c main_arg7 (by decide)).trans ((keep0_main_arg7 (W0 m ρ c)).trans rfl))
theorem main_arg8_at2 : W2 (F := Ideal) m ρ c (Proc.devRef .tc main_arg8) = m ((c : Thread nD τ).loc main_arg8) :=
  ((W2_of_ne m ρ c main_arg8 (by decide)).trans ((keep0_main_arg8 (W0 m ρ c)).trans rfl))
theorem main_arg10_at4 : W4 (F := Ideal) m ρ c (Proc.devRef .tc main_arg10) = m ((c : Thread nD τ).loc main_arg10) :=
  ((W4_of_ne m ρ c main_arg10 (by decide)).trans ((keep1_main_arg10 (W2 m ρ c)).trans ((W2_of_ne m ρ c main_arg10 (by decide)).trans ((keep0_main_arg10 (W0 m ρ c)).trans rfl))))
theorem main_arg9_at5 : W5 (F := Ideal) m ρ c (Proc.devRef .tc main_arg9) = m ((c : Thread nD τ).loc main_arg9) :=
  ((keep2_main_arg9 (W4 m ρ c)).trans ((W4_of_ne m ρ c main_arg9 (by decide)).trans ((keep1_main_arg9 (W2 m ρ c)).trans ((W2_of_ne m ρ c main_arg9 (by decide)).trans ((keep0_main_arg9 (W0 m ρ c)).trans rfl)))))
theorem main_arg11_at5 : W5 (F := Ideal) m ρ c (Proc.devRef .tc main_arg11) = m ((c : Thread nD τ).loc main_arg11) :=
  ((keep2_main_arg11 (W4 m ρ c)).trans ((W4_of_ne m ρ c main_arg11 (by decide)).trans ((keep1_main_arg11 (W2 m ρ c)).trans ((W2_of_ne m ρ c main_arg11 (by decide)).trans ((keep0_main_arg11 (W0 m ρ c)).trans rfl)))))
theorem main_arg12_at6 : W6 (F := Ideal) m ρ c (Proc.devRef .tc main_arg12) = m ((c : Thread nD τ).loc main_arg12) :=
  ((W6_of_ne m ρ c main_arg12 (by decide)).trans ((keep2_main_arg12 (W4 m ρ c)).trans ((W4_of_ne m ρ c main_arg12 (by decide)).trans ((keep1_main_arg12 (W2 m ρ c)).trans ((W2_of_ne m ρ c main_arg12 (by decide)).trans ((keep0_main_arg12 (W0 m ρ c)).trans rfl))))))
theorem main_arg13_at6 : W6 (F := Ideal) m ρ c (Proc.devRef .tc main_arg13) = m ((c : Thread nD τ).loc main_arg13) :=
  ((W6_of_ne m ρ c main_arg13 (by decide)).trans ((keep2_main_arg13 (W4 m ρ c)).trans ((W4_of_ne m ρ c main_arg13 (by decide)).trans ((keep1_main_arg13 (W2 m ρ c)).trans ((W2_of_ne m ρ c main_arg13 (by decide)).trans ((keep0_main_arg13 (W0 m ρ c)).trans rfl))))))
theorem main_arg2_at8 : W8 (F := Ideal) m ρ c (Proc.devRef .tc main_arg2) = m ((c : Thread nD τ).loc main_arg2) :=
  ((W8_of_ne m ρ c main_arg2 (by decide)).trans ((keep3_main_arg2 (W6 m ρ c)).trans ((W6_of_ne m ρ c main_arg2 (by decide)).trans ((keep2_main_arg2 (W4 m ρ c)).trans ((W4_of_ne m ρ c main_arg2 (by decide)).trans ((keep1_main_arg2 (W2 m ρ c)).trans ((W2_of_ne m ρ c main_arg2 (by decide)).trans ((keep0_main_arg2 (W0 m ρ c)).trans rfl))))))))
theorem main_arg15_at8 : W8 (F := Ideal) m ρ c (Proc.devRef .tc main_arg15) = m ((c : Thread nD τ).loc main_arg15) :=
  ((W8_of_ne m ρ c main_arg15 (by decide)).trans ((keep3_main_arg15 (W6 m ρ c)).trans ((W6_of_ne m ρ c main_arg15 (by decide)).trans ((keep2_main_arg15 (W4 m ρ c)).trans ((W4_of_ne m ρ c main_arg15 (by decide)).trans ((keep1_main_arg15 (W2 m ρ c)).trans ((W2_of_ne m ρ c main_arg15 (by decide)).trans ((keep0_main_arg15 (W0 m ρ c)).trans rfl))))))))
theorem main_arg17_at8 : W8 (F := Ideal) m ρ c (Proc.devRef .tc main_arg17) = m ((c : Thread nD τ).loc main_arg17) :=
  ((W8_of_ne m ρ c main_arg17 (by decide)).trans ((keep3_main_arg17 (W6 m ρ c)).trans ((W6_of_ne m ρ c main_arg17 (by decide)).trans ((keep2_main_arg17 (W4 m ρ c)).trans ((W4_of_ne m ρ c main_arg17 (by decide)).trans ((keep1_main_arg17 (W2 m ρ c)).trans ((W2_of_ne m ρ c main_arg17 (by decide)).trans ((keep0_main_arg17 (W0 m ρ c)).trans rfl))))))))
theorem main_arg14_at9 : W9 (F := Ideal) m ρ c (Proc.devRef .tc main_arg14) = m ((c : Thread nD τ).loc main_arg14) :=
  ((keep4_main_arg14 (W8 m ρ c)).trans ((W8_of_ne m ρ c main_arg14 (by decide)).trans ((keep3_main_arg14 (W6 m ρ c)).trans ((W6_of_ne m ρ c main_arg14 (by decide)).trans ((keep2_main_arg14 (W4 m ρ c)).trans ((W4_of_ne m ρ c main_arg14 (by decide)).trans ((keep1_main_arg14 (W2 m ρ c)).trans ((W2_of_ne m ρ c main_arg14 (by decide)).trans ((keep0_main_arg14 (W0 m ρ c)).trans rfl)))))))))
theorem main_arg16_at9 : W9 (F := Ideal) m ρ c (Proc.devRef .tc main_arg16) = m ((c : Thread nD τ).loc main_arg16) :=
  ((keep4_main_arg16 (W8 m ρ c)).trans ((W8_of_ne m ρ c main_arg16 (by decide)).trans ((keep3_main_arg16 (W6 m ρ c)).trans ((W6_of_ne m ρ c main_arg16 (by decide)).trans ((keep2_main_arg16 (W4 m ρ c)).trans ((W4_of_ne m ρ c main_arg16 (by decide)).trans ((keep1_main_arg16 (W2 m ρ c)).trans ((W2_of_ne m ρ c main_arg16 (by decide)).trans ((keep0_main_arg16 (W0 m ρ c)).trans rfl)))))))))
theorem main_v1_at4 : (W4 (F := Ideal) m ρ c (Proc.devRef .tc main_v1) : S1600000.Idx → BitVec 32) = Cert.HostReads.edgeRow0 (m ((c : Thread nD τ).loc main_arg1)) :=
  ((W4_of_ne m ρ c main_v1 (by decide)).trans ((keep1_main_v1 (W2 m ρ c)).trans ((W2_of_ne m ρ c main_v1 (by decide)).trans (Cert.HostReads.s0_v1 (W0 m ρ c)))))
theorem main_v3_at4 : (W4 (F := Ideal) m ρ c (Proc.devRef .tc main_v3) : S1600000.Idx → BitVec 32) = Cert.HostReads.edgeRow1 (m ((c : Thread nD τ).loc main_arg1)) :=
  ((W4_of_ne m ρ c main_v3 (by decide)).trans ((keep1_main_v3 (W2 m ρ c)).trans ((W2_of_ne m ρ c main_v3 (by decide)).trans (Cert.HostReads.s0_v3 (W0 m ρ c)))))

end Cert.Carry

end
-- ==== Proof.RefRead.lean ====
/-
  The reference program read at an index, in terms of the shared specification functions: the two-layer
  perceptron of the first layer, the column mean and variance, the batch normalisation with the rectifier,
  the neighbourhood layer, the second normalisation, and the classifier.
-/
import proofs.«119119_j46677704573771_2_alg».proof.Proof.Gen.ReferenceIdeal.Read
import proofs.«119119_j46677704573771_2_alg».proof.Proof.Spec
import Idealize.ShloMosaic.Lib.ValueIdx

noncomputable section

namespace Cert.RefRead

open Cert.ReferenceIdeal Cert.ReferenceIdeal.Gen Cert.ReferenceIdeal.Read Idealize.ShloMosaic Idealize.ShloMosaic.ValueIdx

/-! ## Index equations: the reference's composed index functions are the coordinate constructors -/

theorem lidx15 (p : Fin 50000) (q : Fin 64) (k : Fin 8) : lidx_main_v15 (ix2 p q) k = ix2 p k :=
  funext fun a => by match a with | ⟨0, _⟩ => rfl | ⟨1, _⟩ => rfl
theorem ridx15 (p : Fin 50000) (q : Fin 64) (k : Fin 8) : ridx_main_v15 (ix2 p q) k = ix2 k q :=
  funext fun a => by match a with | ⟨0, _⟩ => rfl | ⟨1, _⟩ => rfl
theorem idx16_17 (p : Fin 50000) (q : Fin 64) : idx_main_v16 (idx_main_v17 (ix2 p q)) = ix1 q :=
  funext fun a => by match a with | ⟨0, _⟩ => rfl
theorem lidx20 (p : Fin 50000) (q : Fin 64) (k : Fin 64) : lidx_main_v20 (ix2 p q) k = ix2 p k :=
  funext fun a => by match a with | ⟨0, _⟩ => rfl | ⟨1, _⟩ => rfl
theorem ridx20 (p : Fin 50000) (q : Fin 64) (k : Fin 64) : ridx_main_v20 (ix2 p q) k = ix2 k q :=
  funext fun a => by match a with | ⟨0, _⟩ => rfl | ⟨1, _⟩ => rfl
theorem idx21_22 (p : Fin 50000) (q : Fin 64) : idx_main_v21 (idx_main_v22 (ix2 p q)) = ix1 q :=
  funext fun a => by match a with | ⟨0, _⟩ => rfl
theorem idx24 (q : Fin 64) (p : Fin 50000) : idx_main_v24 (ix1 q) p = ix2 p q :=
  funext fun a => by match a with | ⟨0, _⟩ => rfl | ⟨1, _⟩ => rfl
theorem idx27_28 (p : Fin 50000) (q : Fin 64) : idx_main_v27 (idx_main_v28 (ix2 p q)) = ix1 q :=
  funext fun a => by match a with | ⟨0, _⟩ => rfl
theorem idx31 (q : Fin 64) (p : Fin 50000) : idx_main_v31 (ix1 q) p = ix2 p q :=
  funext fun a => by match a with | ⟨0, _⟩ => rfl | ⟨1, _⟩ => rfl
theorem idx34_35 (p : Fin 50000) (q : Fin 64) : idx_main_v34 (idx_main_v35 (ix2 p q)) = ix1 q :=
  funext fun a => by match a with | ⟨0, _⟩ => rfl
theorem idx40_41 (p : Fin 50000) (q : Fin 64) : idx_main_v40 (idx_main_v41 (ix2 p q)) = ix1 q :=
  funext fun a => by match a with | ⟨0, _⟩ => rfl
theorem idx43_44 (p : Fin 50000) (q : Fin 64) : idx_main_v43 (idx_main_v44 (ix2 p q)) = ix1 q :=
  funext fun a => by match a with | ⟨0, _⟩ => rfl
theorem idx46_47 (p : Fin 50000) (q : Fin 64) : idx_main_v46 (idx_main_v47 (ix2 p q)) = ix1 q :=
  funext fun a => by match a with | ⟨0, _⟩ => rfl
theorem lidx69 (p : Fin 50000) (q : Fin 64) (k : Fin 64) : lidx_main_v69 (ix2 p q) k = ix2 p k :=
  funext fun a => by match a with | ⟨0, _⟩ => rfl | ⟨1, _⟩ => rfl
theorem ridx69 (p : Fin 50000) (q : Fin 64) (k : Fin 64) : ridx_main_v69 (ix2 p q) k = ix2 k q :=
  funext fun a => by match a with | ⟨0, _⟩ => rfl | ⟨1, _⟩ => rfl
theorem idx70_71 (p : Fin 50000) (q : Fin 64) : idx_main_v70 (idx_main_v71 (ix2 p q)) = ix1 q :=
  funext fun a => by match a with | ⟨0, _⟩ => rfl
theorem lidx73 (p : Fin 50000) (q : Fin 64) (k : Fin 64) : lidx_main_v73 (ix2 p q) k = ix2 p k :=
  funext fun a => by match a with | ⟨0, _⟩ => rfl | ⟨1, _⟩ => rfl
theorem ridx73 (p : Fin 50000) (q : Fin 64) (k : Fin 64) : ridx_main_v73 (ix2 p q) k = ix2 k q :=
  funext fun a => by match a with | ⟨0, _⟩ => rfl | ⟨1, _⟩ => rfl
theorem idx75 (q : Fin 64) (p : Fin 50000) : idx_main_v75 (ix1 q) p = ix2 p q :=
  funext fun a => by match a with | ⟨0, _⟩ => rfl | ⟨1, _⟩ => rfl
theorem idx78_79 (p : Fin 50000) (q : Fin 64) : idx_main_v78 (idx_main_v79 (ix2 p q)) = ix1 q :=
  funext fun a => by match a with | ⟨0, _⟩ => rfl
theorem idx82 (q : Fin 64) (p : Fin 50000) : idx_main_v82 (ix1 q) p = ix2 p q :=
  funext fun a => by match a with | ⟨0, _⟩ => rfl | ⟨1, _⟩ => rfl
theorem idx85_86 (p : Fin 50000) (q : Fin 64) : idx_main_v85 (idx_main_v86 (ix2 p q)) = ix1 q :=
  funext fun a => by match a with | ⟨0, _⟩ => rfl
theorem idx91_92 (p : Fin 50000) (q : Fin 64) : idx_main_v91 (idx_main_v92 (ix2 p q)) = ix1 q :=
  funext fun a => by match a with | ⟨0, _⟩ => rfl
theorem idx94_95 (p : Fin 50000) (q : Fin 64) : idx_main_v94 (idx_main_v95 (ix2 p q)) = ix1 q :=
  funext fun a => by match a with | ⟨0, _⟩ => rfl
theorem idx97_98 (p : Fin 50000) (q : Fin 64) : idx_main_v97 (idx_main_v98 (ix2 p q)) = ix1 q :=
  funext fun a => by match a with | ⟨0, _⟩ => rfl
theorem lidx113 (p : Fin 512) (q : Fin 32) (k : Fin 64) : lidx_main_v113 (ix2 p q) k = ix2 p k :=
  funext fun a => by match a with | ⟨0, _⟩ => rfl | ⟨1, _⟩ => rfl
theorem ridx113 (p : Fin 512) (q : Fin 32) (k : Fin 64) : ridx_main_v113 (ix2 p q) k = ix2 k q :=
  funext fun a => by match a with | ⟨0, _⟩ => rfl | ⟨1, _⟩ => rfl
theorem idx114_115 (p : Fin 512) (q : Fin 32) : idx_main_v114 (idx_main_v115 (ix2 p q)) = ix1 q :=
  funext fun a => by match a with | ⟨0, _⟩ => rfl
theorem lidx118 (p : Fin 512) (q : Fin 3) (k : Fin 32) : lidx_main_v118 (ix2 p q) k = ix2 p k :=
  funext fun a => by match a with | ⟨0, _⟩ => rfl | ⟨1, _⟩ => rfl
theorem ridx118 (p : Fin 512) (q : Fin 3) (k : Fin 32) : ridx_main_v118 (ix2 p q) k = ix2 k q :=
  funext fun a => by match a with | ⟨0, _⟩ => rfl | ⟨1, _⟩ => rfl
theorem idx119_120 (p : Fin 512) (q : Fin 3) : idx_main_v119 (idx_main_v120 (ix2 p q)) = ix1 q :=
  funext fun a => by match a with | ⟨0, _⟩ => rfl

variable (x0 : (⟨S50000x8, .f32⟩ : BufTy).Contents (Elt Ideal)) (x1 : (⟨S2x1600000, .i32⟩ : BufTy).Contents (Elt Ideal))
  (x2 : (⟨S50000, .i32⟩ : BufTy).Contents (Elt Ideal)) (x3 : (⟨S8x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64, .f32⟩ : BufTy).Contents (Elt Ideal))
  (x8 : (⟨S64, .f32⟩ : BufTy).Contents (Elt Ideal)) (x9 : (⟨S64x64, .f32⟩ : BufTy).Contents (Elt Ideal))
  (x10 : (⟨S64, .f32⟩ : BufTy).Contents (Elt Ideal)) (x11 : (⟨S64x64, .f32⟩ : BufTy).Contents (Elt Ideal))
  (x12 : (⟨S64, .f32⟩ : BufTy).Contents (Elt Ideal)) (x13 : (⟨S64, .f32⟩ : BufTy).Contents (Elt Ideal))
  (x14 : (⟨S64x32, .f32⟩ : BufTy).Contents (Elt Ideal)) (x15 : (⟨S32, .f32⟩ : BufTy).Contents (Elt Ideal))
  (x16 : (⟨S32x3, .f32⟩ : BufTy).Contents (Elt Ideal)) (x17 : (⟨S3, .f32⟩ : BufTy).Contents (Elt Ideal))

/-! ## The first layer's perceptron -/

/-- The hidden entry before the rectifier. -/
theorem v18_eq (p : Fin 50000) (k : Fin 64) :
    val_main_v18 (F := Ideal) x0 x1 x3 x4 (ix2 p k)
      = (∑ j : Fin 8, (x0 (ix2 p j) + val_main_v13 (F := Ideal) x0 x1 (ix2 p j)) * x3 (ix2 j k)) + x4 (ix1 k) := by
  simp only [val_main_v18_apply, val_main_v15_apply, val_main_v17_apply, val_main_v16_apply, val_main_v14_apply,
    Ideal.addf_def, lidx15, ridx15, idx16_17]

/-- The hidden entry after the rectifier. -/
theorem v19_eq (p : Fin 50000) (k : Fin 64) :
    val_main_v19 (F := Ideal) x0 x1 x3 x4 (ix2 p k)
      = max ((∑ j : Fin 8, (x0 (ix2 p j) + val_main_v13 (F := Ideal) x0 x1 (ix2 p j)) * x3 (ix2 j k)) + x4 (ix1 k)) 0 := by
  simp only [val_main_v19_apply, val_main_call0_v0_apply, val_main_call0_cst_apply, v18_eq,
    Ideal.maximumf_def, Ideal.ofBits_def, Ideal.ofBits_zero_f32]

/-- The first layer's output row is the two-layer perceptron of the node's row plus its neighbours' sum. -/
theorem v23_eq (p : Fin 50000) (q : Fin 64) :
    val_main_v23 (F := Ideal) x0 x1 x3 x4 x5 x6 (ix2 p q)
      = Cert.Spec.mlpRow (fun j : Fin 8 => x0 (ix2 p j) + val_main_v13 (F := Ideal) x0 x1 (ix2 p j))
          (fun j k => x3 (ix2 j k)) (fun k => x4 (ix1 k)) (fun k q => x5 (ix2 k q)) (fun q => x6 (ix1 q)) q := by
  unfold Cert.Spec.mlpRow
  simp only [val_main_v23_apply, val_main_v20_apply, val_main_v22_apply, val_main_v21_apply,
    Ideal.addf_def, lidx20, ridx20, idx21_22, v19_eq]

/-! ## The first normalisation's statistics -/

/-- The column mean: the sum over the nodes divided by the number of nodes. -/
theorem v26_eq (q : Fin 64) :
    val_main_v26 (F := Ideal) x0 x1 x3 x4 x5 x6 (ix1 q)
      = Ideal.div (∑ p : Fin 50000, val_main_v23 (F := Ideal) x0 x1 x3 x4 x5 x6 (ix2 p q)) (Ideal.ofBits .f32 0x47435000#32) := by
  simp only [val_main_v26_apply, val_main_v24_apply, val_main_v25_apply, val_main_cst_1_apply, val_main_cst_2_apply,
    Ideal.hostDivf_def, Ideal.ofBits_def, Ideal.ofBits_zero_f32, zero_add, idx24]

/-- The column variance: the mean of the squared deviations from the column mean. -/
theorem v33_eq (q : Fin 64) :
    val_main_v33 (F := Ideal) x0 x1 x3 x4 x5 x6 (ix1 q)
      = Ideal.div (∑ p : Fin 50000,
          (val_main_v23 (F := Ideal) x0 x1 x3 x4 x5 x6 (ix2 p q) - val_main_v26 (F := Ideal) x0 x1 x3 x4 x5 x6 (ix1 q))
            * (val_main_v23 (F := Ideal) x0 x1 x3 x4 x5 x6 (ix2 p q) - val_main_v26 (F := Ideal) x0 x1 x3 x4 x5 x6 (ix1 q)))
          (Ideal.ofBits .f32 0x47435000#32) := by
  simp only [val_main_v33_apply, val_main_v31_apply, val_main_v32_apply, val_main_cst_3_apply, val_main_cst_4_apply,
    val_main_v30_apply, val_main_v29_apply, val_main_v28_apply, val_main_v27_apply,
    Ideal.hostDivf_def, Ideal.mulf_def, Ideal.subf_def, Ideal.ofBits_def, Ideal.ofBits_zero_f32, zero_add, idx31, idx27_28]

/-! ## The first normalisation -/

/-- The normalised entry with the rectifier. -/
theorem v49_eq (p : Fin 50000) (q : Fin 64) :
    val_main_v49 (F := Ideal) x0 x1 x3 x4 x5 x6 x7 x8 (ix2 p q)
      = Cert.Spec.bnrelu (val_main_v23 (F := Ideal) x0 x1 x3 x4 x5 x6 (ix2 p q)) (val_main_v26 (F := Ideal) x0 x1 x3 x4 x5 x6 (ix1 q))
          (val_main_v33 (F := Ideal) x0 x1 x3 x4 x5 x6 (ix1 q)) (x7 (ix1 q)) (x8 (ix1 q)) := by
  unfold Cert.Spec.bnrelu
  simp only [val_main_v49_apply, val_main_call1_v0_apply, val_main_call1_cst_apply, val_main_v48_apply, val_main_v45_apply,
    val_main_v42_apply, val_main_v36_apply, val_main_v35_apply, val_main_v34_apply, val_main_v41_apply, val_main_v40_apply,
    val_main_v39_apply, val_main_v38_apply, val_main_v37_apply, val_main_cst_5_apply,
    val_main_v44_apply, val_main_v43_apply, val_main_v47_apply, val_main_v46_apply,
    idx34_35, idx40_41, idx43_44, idx46_47,
    Ideal.maximumf_def, Ideal.addf_def, Ideal.mulf_def, Ideal.subf_def, Ideal.hostUnary_rsqrt_def, Ideal.ofBits_def, Ideal.ofBits_zero_f32]

/-! ## The neighbourhood layer -/

/-- The layer's output row: the neighbours' mean row through one matrix plus the bias, plus the node's own row
    through the other matrix. -/
theorem v74_eq (p : Fin 50000) (q : Fin 64) :
    val_main_v74 (F := Ideal) x0 x1 x3 x4 x5 x6 x7 x8 x9 x10 x11 (ix2 p q)
      = Cert.Spec.sageRow (fun k : Fin 64 => val_main_v68 (F := Ideal) x0 x1 x3 x4 x5 x6 x7 x8 (ix2 p k))
          (fun k => val_main_v49 (F := Ideal) x0 x1 x3 x4 x5 x6 x7 x8 (ix2 p k))
          (fun k q => x9 (ix2 k q)) (fun q => x10 (ix1 q)) (fun k q => x11 (ix2 k q)) q := by
  unfold Cert.Spec.sageRow
  rw [val_main_v74_apply, val_main_v72_apply, val_main_v71_apply, val_main_v70_apply, idx70_71,
    val_main_v69_apply, val_main_v73_apply]
  simp only [lidx69, ridx69]
  simp only [lidx73, ridx73]
  rw [Ideal.addf_def, Ideal.addf_def]

/-! ## The second normalisation -/

/-- The column mean of the neighbourhood layer's output. -/
theorem v77_eq (q : Fin 64) :
    val_main_v77 (F := Ideal) x0 x1 x3 x4 x5 x6 x7 x8 x9 x10 x11 (ix1 q)
      = Ideal.div (∑ p : Fin 50000, val_main_v74 (F := Ideal) x0 x1 x3 x4 x5 x6 x7 x8 x9 x10 x11 (ix2 p q)) (Ideal.ofBits .f32 0x47435000#32) := by
  rw [val_main_v77_apply, val_main_v75_apply, val_main_v76_apply, val_main_cst_12_apply, val_main_cst_13_apply]
  simp only [idx75]
  rw [Ideal.hostDivf_def, Ideal.ofBits_def, Ideal.ofBits_def, Ideal.ofBits_zero_f32, zero_add]

/-- The deviation of an entry of the neighbourhood layer's output from its column mean. -/
theorem v80_eq (p : Fin 50000) (q : Fin 64) :
    val_main_v80 (F := Ideal) x0 x1 x3 x4 x5 x6 x7 x8 x9 x10 x11 (ix2 p q)
      = val_main_v74 (F := Ideal) x0 x1 x3 x4 x5 x6 x7 x8 x9 x10 x11 (ix2 p q) - val_main_v77 (F := Ideal) x0 x1 x3 x4 x5 x6 x7 x8 x9 x10 x11 (ix1 q) := by
  rw [val_main_v80_apply, val_main_v79_apply, val_main_v78_apply, idx78_79, Ideal.subf_def]

/-- The column variance of the neighbourhood layer's output. -/
theorem v84_eq (q : Fin 64) :
    val_main_v84 (F := Ideal) x0 x1 x3 x4 x5 x6 x7 x8 x9 x10 x11 (ix1 q)
      = Ideal.div (∑ p : Fin 50000,
          (val_main_v74 (F := Ideal) x0 x1 x3 x4 x5 x6 x7 x8 x9 x10 x11 (ix2 p q) - val_main_v77 (F := Ideal) x0 x1 x3 x4 x5 x6 x7 x8 x9 x10 x11 (ix1 q))
            * (val_main_v74 (F := Ideal) x0 x1 x3 x4 x5 x6 x7 x8 x9 x10 x11 (ix2 p q) - val_main_v77 (F := Ideal) x0 x1 x3 x4 x5 x6 x7 x8 x9 x10 x11 (ix1 q)))
          (Ideal.ofBits .f32 0x47435000#32) := by
  rw [val_main_v84_apply, val_main_v82_apply, val_main_v83_apply, val_main_cst_14_apply, val_main_cst_15_apply,
    Ideal.hostDivf_def, Ideal.ofBits_def, Ideal.ofBits_def, Ideal.ofBits_zero_f32, zero_add]
  have h : ∀ k : Fin 50000, val_main_v81 (F := Ideal) x0 x1 x3 x4 x5 x6 x7 x8 x9 x10 x11 (idx_main_v82 (ix1 q) k)
      = (val_main_v74 (F := Ideal) x0 x1 x3 x4 x5 x6 x7 x8 x9 x10 x11 (ix2 k q) - val_main_v77 (F := Ideal) x0 x1 x3 x4 x5 x6 x7 x8 x9 x10 x11 (ix1 q))
          * (val_main_v74 (F := Ideal) x0 x1 x3 x4 x5 x6 x7 x8 x9 x10 x11 (ix2 k q) - val_main_v77 (F := Ideal) x0 x1 x3 x4 x5 x6 x7 x8 x9 x10 x11 (ix1 q)) := fun k => by
    rw [idx82, val_main_v81_apply, v80_eq, Ideal.mulf_def]
  rw [Finset.sum_congr rfl fun k _ => h k]

/-- The second normalised entry with the rectifier. -/
theorem v100_eq (p : Fin 50000) (q : Fin 64) :
    val_main_v100 (F := Ideal) x0 x1 x3 x4 x5 x6 x7 x8 x9 x10 x11 x12 x13 (ix2 p q)
      = Cert.Spec.bnrelu (val_main_v74 (F := Ideal) x0 x1 x3 x4 x5 x6 x7 x8 x9 x10 x11 (ix2 p q)) (val_main_v77 (F := Ideal) x0 x1 x3 x4 x5 x6 x7 x8 x9 x10 x11 (ix1 q))
          (val_main_v84 (F := Ideal) x0 x1 x3 x4 x5 x6 x7 x8 x9 x10 x11 (ix1 q)) (x12 (ix1 q)) (x13 (ix1 q)) := by
  unfold Cert.Spec.bnrelu
  rw [val_main_v100_apply, val_main_call2_v0_apply, val_main_call2_cst_apply, val_main_v99_apply, val_main_v96_apply,
    val_main_v93_apply, val_main_v87_apply, val_main_v86_apply, val_main_v85_apply, idx85_86,
    val_main_v92_apply, val_main_v91_apply, idx91_92, val_main_v90_apply, val_main_v89_apply, val_main_v88_apply,
    val_main_cst_16_apply, val_main_v95_apply, val_main_v94_apply, idx94_95, val_main_v98_apply, val_main_v97_apply, idx97_98,
    Ideal.maximumf_def, Ideal.addf_def, Ideal.addf_def, Ideal.mulf_def, Ideal.mulf_def, Ideal.subf_def,
    Ideal.hostUnary_rsqrt_def, Ideal.ofBits_def, Ideal.ofBits_def, Ideal.ofBits_zero_f32]

/-! ## The classifier -/

/-- The classifier's hidden entry after the rectifier. -/
theorem v117_eq (g : Fin 512) (k : Fin 32) :
    val_main_v117 (F := Ideal) x0 x1 x2 x3 x4 x5 x6 x7 x8 x9 x10 x11 x12 x13 x14 x15 (ix2 g k)
      = max ((∑ j : Fin 64, val_main_v112 (F := Ideal) x0 x1 x2 x3 x4 x5 x6 x7 x8 x9 x10 x11 x12 x13 (ix2 g j) * x14 (ix2 j k)) + x15 (ix1 k)) 0 := by
  rw [val_main_v117_apply, val_main_call3_v0_apply, val_main_call3_cst_apply, val_main_v116_apply, val_main_v113_apply,
    val_main_v115_apply, val_main_v114_apply, idx114_115]
  simp only [lidx113, ridx113]
  rw [Ideal.maximumf_def, Ideal.addf_def, Ideal.ofBits_def, Ideal.ofBits_zero_f32]

/-- The classifier's output row is the two-layer perceptron of the graph's pooled row. -/
theorem v121_eq (g : Fin 512) (q : Fin 3) :
    val_main_v121 (F := Ideal) x0 x1 x2 x3 x4 x5 x6 x7 x8 x9 x10 x11 x12 x13 x14 x15 x16 x17 (ix2 g q)
      = Cert.Spec.mlpRow (fun j : Fin 64 => val_main_v112 (F := Ideal) x0 x1 x2 x3 x4 x5 x6 x7 x8 x9 x10 x11 x12 x13 (ix2 g j))
          (fun j k => x14 (ix2 j k)) (fun k => x15 (ix1 k)) (fun k q => x16 (ix2 k q)) (fun q => x17 (ix1 q)) q := by
  unfold Cert.Spec.mlpRow
  rw [val_main_v121_apply, val_main_v118_apply, val_main_v120_apply, val_main_v119_apply, idx119_120]
  simp only [lidx118, ridx118]
  simp only [v117_eq]
  rw [Ideal.addf_def]

end Cert.RefRead

end
-- ==== Proof.PreFacts.lean ====
import proofs.«119119_j46677704573771_2_alg».proof.Pre_finite_inputs
import Idealize.ShloMosaic.Lib.ReduceAll
import Idealize.ShloMosaic.Lib.ValueIdx
import Idealize.ShloMosaic.PureOps.Ideal

open Idealize.ShloMosaic

namespace Cert.PreFacts

/-- The rank-zero shape has one index. -/
instance subsingleton_scalar_idx : Subsingleton (⟨0, ![]⟩ : Shape).Idx := ⟨fun a b => funext fun d => d.elim0⟩

/-- An extended real whose absolute value lies strictly below the f32 pattern of +inf is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- all(|a| < +inf) holds: every entry of a is a real. -/
theorem finite_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf a) (broadcastInDim s ![] hb (constant (⟨0, ![]⟩ : Shape) .f32 0x7F800000#32)))
        (constantI (⟨0, ![]⟩ : Shape) 1 1#1) hr hu ValueIdx.ix0 = 1#1) :
    ∀ i, ∃ r : ℝ, a i = (r : EReal) := by
  intro i
  have h1 := Host.reduce_andi_all _ _ hr hu ValueIdx.ix0 e i
  exact real_of_abs_lt_inf (a i) h1

/-- all(d >= 0) holds (signed compare against the splat of 0): every entry of d reads nonnegative. -/
theorem nonneg_of_all {s : Shape} {axes : List (Fin s.rank)} (d : IVec s 32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpi .sge d (broadcastInDim s ![] hb (constantI (⟨0, ![]⟩ : Shape) 32 0#32)))
        (constantI (⟨0, ![]⟩ : Shape) 1 1#1) hr hu ValueIdx.ix0 = 1#1) :
    ∀ i, 0 ≤ (d i).toInt := by
  intro i
  have h1 := Host.reduce_andi_all _ _ hr hu ValueIdx.ix0 e i
  have h2 : (0#32 : BitVec 32).toInt ≤ (d i).toInt := IntOp.cmpi_sge.1 h1
  have hz : (0#32 : BitVec 32).toInt = 0 := by decide
  omega

/-- A word that reads nonnegative is not signed-less-than 0. -/
theorem not_slt_zero {x : BitVec 32} (hx : 0 ≤ x.toInt) : ¬ (x.slt 0#32) = true := by
  rw [BitVec.slt_iff_toInt_lt]
  have hz : (0#32 : BitVec 32).toInt = 0 := by decide
  omega

/-- The wrap of negative indices (d < 0 ? d + n : d) gives d back when every entry of d reads nonnegative. -/
theorem select_wrap_eq_self {s : Shape} (d : IVec s 32)
    (hb : (⟨0, ![]⟩ : Shape).BroadcastsInDim s (![] : Fin 0 → Fin s.rank)) (n : BitVec 32)
    (hd : ∀ i, 0 ≤ (d i).toInt) :
    select (cmpi .slt d (broadcastInDim s ![] hb (constantI (⟨0, ![]⟩ : Shape) 32 0#32)))
      (addi d (broadcastInDim s ![] hb (constantI (⟨0, ![]⟩ : Shape) 32 n))) d = d := by
  funext i
  have hc : ¬ IntOp.cmpi .slt (d i) (0#32 : BitVec 32) = 1#1 := by
    rw [IntOp.cmpi_slt]
    have hz : (0#32 : BitVec 32).toInt = 0 := by decide
    have := hd i
    omega
  exact if_neg hc

section
open Cert.Pre_finite_inputs
variable [hF : Cert.Pre_finite_inputs.Facts]

/-- What the precondition says of its arguments: every float entry is a real, and row 1 of the
    edge-index array (the slice [1:2, 0:1600000] reshaped to length 1600000) reads nonnegative. -/
structure Decoded (a0 : FVec Ideal S50000x8 .f32) (a1 : IVec S2x1600000 32) (a2 : IVec S50000 32)
    (a3 : FVec Ideal S8x64 .f32) (a4 : FVec Ideal S64 .f32) (a5 : FVec Ideal S64x64 .f32) (a6 : FVec Ideal S64 .f32)
    (a7 : FVec Ideal S64 .f32) (a8 : FVec Ideal S64 .f32) (a9 : FVec Ideal S64x64 .f32) (a10 : FVec Ideal S64 .f32)
    (a11 : FVec Ideal S64x64 .f32) (a12 : FVec Ideal S64 .f32) (a13 : FVec Ideal S64 .f32)
    (a14 : FVec Ideal S64x32 .f32) (a15 : FVec Ideal S32 .f32) (a16 : FVec Ideal S32x3 .f32) (a17 : FVec Ideal S3 .f32) : Prop where
  real0 : ∀ i, ∃ r : ℝ, a0 i = (r : EReal)
  real3 : ∀ i, ∃ r : ℝ, a3 i = (r : EReal)
  real4 : ∀ i, ∃ r : ℝ, a4 i = (r : EReal)
  real5 : ∀ i, ∃ r : ℝ, a5 i = (r : EReal)
  real6 : ∀ i, ∃ r : ℝ, a6 i = (r : EReal)
  real7 : ∀ i, ∃ r : ℝ, a7 i = (r : EReal)
  real8 : ∀ i, ∃ r : ℝ, a8 i = (r : EReal)
  real9 : ∀ i, ∃ r : ℝ, a9 i = (r : EReal)
  real10 : ∀ i, ∃ r : ℝ, a10 i = (r : EReal)
  real11 : ∀ i, ∃ r : ℝ, a11 i = (r : EReal)
  real12 : ∀ i, ∃ r : ℝ, a12 i = (r : EReal)
  real13 : ∀ i, ∃ r : ℝ, a13 i = (r : EReal)
  real14 : ∀ i, ∃ r : ℝ, a14 i = (r : EReal)
  real15 : ∀ i, ∃ r : ℝ, a15 i = (r : EReal)
  real16 : ∀ i, ∃ r : ℝ, a16 i = (r : EReal)
  real17 : ∀ i, ∃ r : ℝ, a17 i = (r : EReal)
  row1_nonneg : ∀ (hs : S2x1600000.Slices ![1, 0] S1x1600000) (hc : S1x1600000.ShapeCasts S1600000) (e : S1600000.Idx),
    0 ≤ (shapeCast S1600000 (extractStridedSlice S1x1600000 ![1, 0] a1 hs) hc e).toInt

/-- The precondition, all ones, decoded. -/
theorem decode (a0 : FVec Ideal S50000x8 .f32) (a1 : IVec S2x1600000 32) (a2 : IVec S50000 32)
    (a3 : FVec Ideal S8x64 .f32) (a4 : FVec Ideal S64 .f32) (a5 : FVec Ideal S64x64 .f32) (a6 : FVec Ideal S64 .f32)
    (a7 : FVec Ideal S64 .f32) (a8 : FVec Ideal S64 .f32) (a9 : FVec Ideal S64x64 .f32) (a10 : FVec Ideal S64 .f32)
    (a11 : FVec Ideal S64x64 .f32) (a12 : FVec Ideal S64 .f32) (a13 : FVec Ideal S64 .f32)
    (a14 : FVec Ideal S64x32 .f32) (a15 : FVec Ideal S32 .f32) (a16 : FVec Ideal S32x3 .f32) (a17 : FVec Ideal S3 .f32)
    (h : Cert.Pre_finite_inputs.fn (F := Ideal) a0 a1 a2 a3 a4 a5 a6 a7 a8 a9 a10 a11 a12 a13 a14 a15 a16 a17 = fun _ => 1#1) :
    Decoded a0 a1 a2 a3 a4 a5 a6 a7 a8 a9 a10 a11 a12 a13 a14 a15 a16 a17 := by
  have h0 := congrFun h ValueIdx.ix0
  dsimp only [fn, fn_part1, fn_part2, fn_part3, fn_part4, andi] at h0
  simp only [IntOp.andi_eq_one] at h0
  obtain ⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩, ei⟩ := h0
  exact ⟨finite_of_all a0 _ _ _ e0, finite_of_all a3 _ _ _ e3, finite_of_all a4 _ _ _ e4, finite_of_all a5 _ _ _ e5, finite_of_all a6 _ _ _ e6, finite_of_all a7 _ _ _ e7, finite_of_all a8 _ _ _ e8, finite_of_all a9 _ _ _ e9, finite_of_all a10 _ _ _ e10, finite_of_all a11 _ _ _ e11, finite_of_all a12 _ _ _ e12, finite_of_all a13 _ _ _ e13, finite_of_all a14 _ _ _ e14, finite_of_all a15 _ _ _ e15, finite_of_all a16 _ _ _ e16, finite_of_all a17 _ _ _ e17,
    fun _ _ => nonneg_of_all _ _ _ _ ei⟩

/-- Host lines compare-LT / add / select on row 1 of the edge-index array give the row back. -/
theorem row1_select_eq (a0 : FVec Ideal S50000x8 .f32) (a1 : IVec S2x1600000 32) (a2 : IVec S50000 32)
    (a3 : FVec Ideal S8x64 .f32) (a4 : FVec Ideal S64 .f32) (a5 : FVec Ideal S64x64 .f32) (a6 : FVec Ideal S64 .f32)
    (a7 : FVec Ideal S64 .f32) (a8 : FVec Ideal S64 .f32) (a9 : FVec Ideal S64x64 .f32) (a10 : FVec Ideal S64 .f32)
    (a11 : FVec Ideal S64x64 .f32) (a12 : FVec Ideal S64 .f32) (a13 : FVec Ideal S64 .f32)
    (a14 : FVec Ideal S64x32 .f32) (a15 : FVec Ideal S32 .f32) (a16 : FVec Ideal S32x3 .f32) (a17 : FVec Ideal S3 .f32)
    (h : Cert.Pre_finite_inputs.fn (F := Ideal) a0 a1 a2 a3 a4 a5 a6 a7 a8 a9 a10 a11 a12 a13 a14 a15 a16 a17 = fun _ => 1#1)
    (hs : S2x1600000.Slices ![1, 0] S1x1600000) (hc : S1x1600000.ShapeCasts S1600000)
    (hb : S_.BroadcastsInDim S1600000 (![] : Fin 0 → Fin S1600000.rank)) (n : BitVec 32) :
    select
      (cmpi .slt (shapeCast S1600000 (extractStridedSlice S1x1600000 ![1, 0] a1 hs) hc)
        (broadcastInDim S1600000 ![] hb (constantI S_ 32 0#32)))
      (addi (shapeCast S1600000 (extractStridedSlice S1x1600000 ![1, 0] a1 hs) hc)
        (broadcastInDim S1600000 ![] hb (constantI S_ 32 n)))
      (shapeCast S1600000 (extractStridedSlice S1x1600000 ![1, 0] a1 hs) hc)
    = shapeCast S1600000 (extractStridedSlice S1x1600000 ![1, 0] a1 hs) hc :=
  select_wrap_eq_self _ hb n ((decode a0 a1 a2 a3 a4 a5 a6 a7 a8 a9 a10 a11 a12 a13 a14 a15 a16 a17 h).row1_nonneg hs hc)

end

end Cert.PreFacts
-- ==== Proof.BridgeA.lean ====
/-
  The kernel program against the reference, stage by stage — first part: the first aggregation (equal once the
  destinations are known to be nonnegative, so that counting them from the end changes nothing) and the perceptron's
  result (the first region's main output), each as an equation between the buffer's contents at a segment boundary
  of the kernel program's run and the reference's stage as a function of the same argument arrays.
-/
import proofs.«119119_j46677704573771_2_alg».proof.Proof.Gen.KernelIdeal.Frame
import proofs.«119119_j46677704573771_2_alg».proof.Proof.Gen.ReferenceIdeal.Read
import proofs.«119119_j46677704573771_2_alg».proof.Proof.Region0a
import proofs.«119119_j46677704573771_2_alg».proof.Proof.HostReads
import proofs.«119119_j46677704573771_2_alg».proof.Proof.Carry
import proofs.«119119_j46677704573771_2_alg».proof.Proof.RefRead
import proofs.«119119_j46677704573771_2_alg».proof.Proof.PreFacts
import proofs.«119119_j46677704573771_2_alg».proof.Proof.Gen.Pre_finite_inputs
import Idealize.ShloMosaic.Lib.ValueLayout

set_option maxRecDepth 16384

noncomputable section

namespace Cert.Bridge

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The precondition of the argument arrays of core `c`: every float entry finite, every destination nonnegative. -/
def PreAt : Prop :=
  Cert.Pre_finite_inputs.fn (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    = fun _ => 1#1

/-- Under the precondition the destinations row is unchanged by counting negative entries from the end. -/
theorem wrap_dst (h : PreAt m c) :
    Cert.HostReads.wrap (Cert.HostReads.edgeRow1 (m ((c : Thread nD τ).loc main_arg1)))
      = Cert.HostReads.edgeRow1 (m ((c : Thread nD τ).loc main_arg1)) :=
  Cert.PreFacts.row1_select_eq _ _ _ _ _ _ _ _ _ _ _ _ _ _ _ _ _ _ h _ _ _ 50000#32

/-- THE FIRST AGGREGATION: the kernel program's host lines and the reference's compute the same table. -/
theorem agg_eq (h : PreAt m c) :
    (V1 m ρ c main_v18 : S50000x8.Idx → EReal)
      = Cert.ReferenceIdeal.Read.val_main_v13 (F := Ideal) (m ((c : Thread nD τ).loc main_arg0)) (m ((c : Thread nD τ).loc main_arg1)) := by
  refine (Cert.HostReads.s0_v18 (W0 m ρ c)).trans ?_
  show Cert.HostReads.aggK (m ((c : Thread nD τ).loc main_arg0)) (m ((c : Thread nD τ).loc main_arg1)) = _
  unfold Cert.HostReads.aggK
  rw [wrap_dst m c h]
  rfl

/-- A `[b]` vector laid as the row `[1, b]` read at `(0, q)`. -/
theorem row_of_vec {b : ℕ} (v : (⟨1, ![b]⟩ : Shape).Idx → EReal) (h : (⟨1, ![b]⟩ : Shape).ShapeCasts ⟨2, ![1, b]⟩) (q : Fin b) :
    shapeCast (⟨2, ![1, b]⟩ : Shape) v h (ix2 0 q) = v (ix1 q) :=
  shapeCast_a_1a_apply v h 0 q

/-- THE PERCEPTRON'S RESULT: the first region's main output array is the reference's stage. -/
theorem h2_eq (h : PreAt m c) :
    (W2 m ρ c (Proc.devRef .tc main_v21_0) : S50000x64.Idx → EReal)
      = Cert.ReferenceIdeal.Read.val_main_v23 (F := Ideal) (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) := by
  refine ((W2_arr m ρ c 6).trans (Cert.Region0.final6 (V1 m ρ) c)).trans ?_
  rw [agg_eq m ρ c h]
  rw [show (V1 m ρ c main_arg0 : S50000x8.Idx → EReal) = m ((c : Thread nD τ).loc main_arg0) from Cert.Carry.main_arg0_at1 m ρ c,
    show (V1 m ρ c main_arg3 : S8x64.Idx → EReal) = m ((c : Thread nD τ).loc main_arg3) from Cert.Carry.main_arg3_at1 m ρ c,
    show (V1 m ρ c main_arg5 : S64x64.Idx → EReal) = m ((c : Thread nD τ).loc main_arg5) from Cert.Carry.main_arg5_at1 m ρ c,
    show (V1 m ρ c main_v19 : S1x64.Idx → EReal) = _ from Cert.HostReads.s0_v19 (W0 m ρ c),
    show (V1 m ρ c main_v20 : S1x64.Idx → EReal) = _ from Cert.HostReads.s0_v20 (W0 m ρ c)]
  funext j
  obtain ⟨p, q, rfl⟩ : ∃ (p : Fin 50000) (q : Fin 64), j = ix2 p q := ⟨j 0, j 1, eq_ix2 j⟩
  rw [Cert.RefRead.v23_eq]
  unfold Cert.Region0.G6
  have e4 : ∀ k : Fin 64, (shapeCast S1x64 (W0 m ρ c (Proc.devRef .tc main_arg4)) shapeCasts_S64_S1x64 : S1x64.Idx → EReal) (ix2 0 k)
      = m ((c : Thread nD τ).loc main_arg4) (ix1 k) := fun k => shapeCast_a_1a_apply _ _ 0 k
  have e6 : ∀ k : Fin 64, (shapeCast S1x64 (W0 m ρ c (Proc.devRef .tc main_arg6)) shapeCasts_S64_S1x64 : S1x64.Idx → EReal) (ix2 0 k)
      = m ((c : Thread nD τ).loc main_arg6) (ix1 k) := fun k => shapeCast_a_1a_apply _ _ 0 k
  simp only [e4, e6]

end Cert.Bridge

end
-- ==== Proof.Payloads.lean ====
/-
  The pure values the two matrix-product regions compute, read at an entry: the row-zero mask, the masked column
  sums of a block and of its squares, and the neighbourhood layer's entry as the specification's row function.
-/
import proofs.«119119_j46677704573771_2_alg».proof.Proof.Gen.KernelIdeal.Skeleton
import proofs.«119119_j46677704573771_2_alg».proof.Proof.Spec
import proofs.«119119_j46677704573771_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Payloads

open Cert.KernelIdeal Cert.KernelIdeal.Gen
open Idealize.ShloMosaic Idealize.ShloMosaic.ValueIdx

/-- The word of "row index equals 0", widened to 32 bits and read signed: 1 on row 0, 0 elsewhere. -/
theorem mask_word : ∀ r : Fin 8,
    ((IntOp.cmpi .eq (BitVec.ofNat 32 r.val) (0#32)).setWidth 32).toInt = if r.val = 0 then 1 else 0 := by
  decide

/-- The mask as an extended real. -/
theorem mask_val (r : Fin 8) :
    (((((IntOp.cmpi .eq (BitVec.ofNat 32 r.val) (0#32)).setWidth 32).toInt : ℤ) : ℝ) : EReal) = if r.val = 0 then 1 else 0 := by
  rw [mask_word]
  split_ifs <;> simp

/-- THE ROW-ZERO MASK of the first region: 1 on row 0 of the [8, 64] tile, 0 on the other rows. -/
theorem pay4_apply (r : Fin 8) (q : Fin 64) :
    k0_pay4 (F := Ideal) (ix2 r q) = if r.val = 0 then 1 else 0 := by
  unfold k0_pay4
  dsimp only
  rw [sitofp_apply, extui_apply]
  show FloatOps.sitofp (F := Ideal) .f32 ((IntOp.cmpi .eq (iota .tc S8x64 32 [0] iota_S8x64_d0_w32 (ix2 r q)) (0#32)).setWidth 32) = _
  rw [iota_single_apply]
  exact mask_val r

/-- The same mask in the neighbourhood region. -/
theorem k2_pay2_apply (r : Fin 8) (q : Fin 64) :
    k2_pay2 (F := Ideal) (ix2 r q) = if r.val = 0 then 1 else 0 := by
  unfold k2_pay2
  dsimp only
  rw [sitofp_apply, extui_apply]
  show FloatOps.sitofp (F := Ideal) .f32 ((IntOp.cmpi .eq (iota .tc S8x64 32 [0] iota_S8x64_d0_w32 (ix2 r q)) (0#32)).setWidth 32) = _
  rw [iota_single_apply]
  exact mask_val r

/-- A column sum: the add-reduction of an [m, n] block over its rows, read at column q. -/
theorem colsum_apply {m n : ℕ} (src : FVec Ideal ⟨2, ![m, n]⟩ .f32) (h : (⟨2, ![m, n]⟩ : Shape).Reduces [0] ⟨1, ![n]⟩)
    (hφ : FKind.Formats .f32) (hacc : (0x00000000#32 : BitVec 32) = FKind.add.neutral .f32 hφ) (q : Fin n) :
    multiReduction .add [0] ⟨1, ![n]⟩ src 0x00000000#32 h hφ hacc (ix1 q) = ∑ i : Fin m, src (ix2 i q) := by
  refine (Ideal.multiReduction_add_single src 0x00000000#32 h hφ hacc (ix1 q)).trans ?_
  refine Finset.sum_congr rfl fun k _ => congrArg src ?_
  funext a
  apply Fin.ext
  match a with
  | ⟨0, _⟩ => rfl
  | ⟨1, _⟩ => rfl

/-- A [1, b] row spread over the rows of an [a, b] block, read at (i, q), is the row's entry q. -/
theorem row_over_apply {a b : ℕ} (v : (⟨2, ![1, b]⟩ : Shape).Idx → EReal) (h0 : (⟨2, ![1, b]⟩ : Shape).ShapeCasts ⟨2, ![1, b]⟩)
    (h : (⟨2, ![1, b]⟩ : Shape).Broadcasts ⟨2, ![a, b]⟩) (i : Fin a) (q : Fin b) :
    broadcastTo (⟨2, ![a, b]⟩ : Shape) (shapeCast (⟨2, ![1, b]⟩ : Shape) v h0) h (ix2 i q) = v (ix2 0 q) := by
  rw [shapeCast_self]
  exact broadcastTo_1b_ab_apply v h i q

/-- A column sum laid out as the kernel does — reduced to [n], viewed [1, n] (twice), spread over the rows of an
    [a, n] tile — and multiplied by a mask, read at (r, q): the mask's entry times the column sum. -/
theorem masked_colsum_apply {m n a : ℕ} (mask : FVec Ideal ⟨2, ![a, n]⟩ .f32) (src : FVec Ideal ⟨2, ![m, n]⟩ .f32)
    (h : (⟨2, ![m, n]⟩ : Shape).Reduces [0] ⟨1, ![n]⟩) (hφ : FKind.Formats .f32)
    (hacc : (0x00000000#32 : BitVec 32) = FKind.add.neutral .f32 hφ)
    (hc1 : (⟨1, ![n]⟩ : Shape).ShapeCasts ⟨2, ![1, n]⟩) (hc2 : (⟨2, ![1, n]⟩ : Shape).ShapeCasts ⟨2, ![1, n]⟩)
    (hb : (⟨2, ![1, n]⟩ : Shape).Broadcasts ⟨2, ![a, n]⟩) (r : Fin a) (q : Fin n) :
    mulf mask (broadcastTo ⟨2, ![a, n]⟩ (shapeCast ⟨2, ![1, n]⟩ (shapeCast ⟨2, ![1, n]⟩
        (multiReduction .add [0] ⟨1, ![n]⟩ src 0x00000000#32 h hφ hacc) hc1) hc2) hb) (ix2 r q)
      = mask (ix2 r q) * ∑ i : Fin m, src (ix2 i q) := by
  rw [mulf_apply, row_over_apply, shapeCast_a_1a_apply, colsum_apply]

/-- THE MASKED COLUMN SUMS of the first region's block: row 0 of the [8, 64] tile carries the column sums of the
    perceptron block, the other rows are 0. -/
theorem pay5_apply (x0 x1 : Vec Ideal S5000x8 .f32) (w1 : Vec Ideal S8x64 .f32) (b1 : Vec Ideal S1x64 .f32)
    (w2 : Vec Ideal S64x64 .f32) (b2 : Vec Ideal S1x64 .f32) (r : Fin 8) (q : Fin 64) :
    k0_pay5 x0 x1 w1 b1 w2 b2 (ix2 r q)
      = (if r.val = 0 then (1 : EReal) else 0) * ∑ i : Fin 5000, k0_pay2 x0 x1 w1 b1 w2 b2 (ix2 i q) := by
  unfold k0_pay5
  dsimp only
  refine (masked_colsum_apply (m := 5000) (n := 64) (a := 8) (k0_pay4 (F := Ideal)) (k0_pay2 x0 x1 w1 b1 w2 b2)
    reduces_S5000x64_S64 (.inl rfl) rfl shapeCasts_S64_S1x64 shapeCasts_S1x64_S1x64 broadcasts_S1x64_S8x64 r q).trans ?_
  rw [pay4_apply]

/-- THE MASKED COLUMN SUMS OF SQUARES of the first region's block. -/
theorem pay1_apply (x0 x1 : Vec Ideal S5000x8 .f32) (w1 : Vec Ideal S8x64 .f32) (b1 : Vec Ideal S1x64 .f32)
    (w2 : Vec Ideal S64x64 .f32) (b2 : Vec Ideal S1x64 .f32) (r : Fin 8) (q : Fin 64) :
    k0_pay1 (k0_pay3 x0 x1 w1 b1 w2 b2) (k0_pay4 (F := Ideal)) (ix2 r q)
      = (if r.val = 0 then (1 : EReal) else 0)
          * ∑ i : Fin 5000, k0_pay2 x0 x1 w1 b1 w2 b2 (ix2 i q) * k0_pay2 x0 x1 w1 b1 w2 b2 (ix2 i q) := by
  unfold k0_pay1 k0_pay3
  dsimp only
  refine (masked_colsum_apply (m := 5000) (n := 64) (a := 8) (k0_pay4 (F := Ideal))
    (mulf (k0_pay2 x0 x1 w1 b1 w2 b2) (k0_pay2 x0 x1 w1 b1 w2 b2))
    reduces_S5000x64_S64 (.inl rfl) rfl shapeCasts_S64_S1x64 shapeCasts_S1x64_S1x64 broadcasts_S1x64_S8x64 r q).trans ?_
  rw [pay4_apply]
  rfl

/-- THE NEIGHBOURHOOD LAYER'S PAYLOAD AT AN ENTRY: entry (i, q) of the block's result is the layer's row function of
    row i of the two input blocks. -/
theorem sage_pay1_apply (v0 : Vec Ideal S5000x64 .f32) (v3 : Vec Ideal S64x64 .f32) (v6 : Vec Ideal S1x64 .f32)
    (v10 : Vec Ideal S5000x64 .f32) (v13 : Vec Ideal S64x64 .f32) (i : Fin 5000) (q : Fin 64) :
    k2_pay1 v0 v3 v6 v10 v13 (ix2 i q)
      = Cert.Spec.sageRow (fun k : Fin 64 => v0 (ix2 i k)) (fun k : Fin 64 => v10 (ix2 i k))
          (fun (k : Fin 64) (q : Fin 64) => v3 (ix2 k q)) (fun q : Fin 64 => v6 (ix2 0 q))
          (fun (k : Fin 64) (q : Fin 64) => v13 (ix2 k q)) q := by
  unfold k2_pay1 Cert.Spec.sageRow
  dsimp only
  dsimp only [matmul]
  rw [addf_apply, addf_apply, row_over_apply,
    Cert.LibMatmulPlain.matmul_plain_zero_apply dot_S5000x64_S64x64_S5000x64_1_0_0_1_n_n rfl,
    Cert.LibMatmulPlain.matmul_plain_zero_apply dot_S5000x64_S64x64_S5000x64_1_0_0_1_n_n rfl]
  simp only [truncf_apply, shapeCast_self]

/-- THE MASKED COLUMN SUMS of the neighbourhood region's block. -/
theorem sage_pay3_apply (v0 : Vec Ideal S5000x64 .f32) (v3 : Vec Ideal S64x64 .f32) (v6 : Vec Ideal S1x64 .f32)
    (v10 : Vec Ideal S5000x64 .f32) (v13 : Vec Ideal S64x64 .f32) (r : Fin 8) (q : Fin 64) :
    k2_pay3 v0 v3 v6 v10 v13 (ix2 r q)
      = (if r.val = 0 then (1 : EReal) else 0) * ∑ i : Fin 5000, k2_pay1 v0 v3 v6 v10 v13 (ix2 i q) := by
  unfold k2_pay3
  dsimp only
  refine (masked_colsum_apply (m := 5000) (n := 64) (a := 8) (k2_pay2 (F := Ideal)) (k2_pay1 v0 v3 v6 v10 v13)
    reduces_S5000x64_S64 (.inl rfl) rfl shapeCasts_S64_S1x64 shapeCasts_S1x64_S1x64 broadcasts_S1x64_S8x64 r q).trans ?_
  rw [k2_pay2_apply]

/-- THE MASKED COLUMN SUMS OF SQUARES of the neighbourhood region's block. -/
theorem sage_pay4_apply (v0 : Vec Ideal S5000x64 .f32) (v3 : Vec Ideal S64x64 .f32) (v6 : Vec Ideal S1x64 .f32)
    (v10 : Vec Ideal S5000x64 .f32) (v13 : Vec Ideal S64x64 .f32) (r : Fin 8) (q : Fin 64) :
    k2_pay4 v0 v3 v6 v10 v13 (ix2 r q)
      = (if r.val = 0 then (1 : EReal) else 0)
          * ∑ i : Fin 5000, k2_pay1 v0 v3 v6 v10 v13 (ix2 i q) * k2_pay1 v0 v3 v6 v10 v13 (ix2 i q) := by
  unfold k2_pay4
  dsimp only
  refine (masked_colsum_apply (m := 5000) (n := 64) (a := 8) (k2_pay2 (F := Ideal))
    (mulf (k2_pay1 v0 v3 v6 v10 v13) (k2_pay1 v0 v3 v6 v10 v13))
    reduces_S5000x64_S64 (.inl rfl) rfl shapeCasts_S64_S1x64 shapeCasts_S1x64_S1x64 broadcasts_S1x64_S8x64 r q).trans ?_
  rw [k2_pay2_apply]
  rfl

/-- THE PERCEPTRON PAYLOAD AT AN ENTRY: entry (i, q) of the block's result is the perceptron of row i of the sum of
    the two input blocks. -/
theorem k0_pay2_apply (x0 x1 : Vec Ideal S5000x8 .f32) (w1 : Vec Ideal S8x64 .f32) (b1 : Vec Ideal S1x64 .f32)
    (w2 : Vec Ideal S64x64 .f32) (b2 : Vec Ideal S1x64 .f32) (i : Fin 5000) (q : Fin 64) :
    k0_pay2 x0 x1 w1 b1 w2 b2 (ix2 i q)
      = Cert.Spec.mlpRow (fun j : Fin 8 => x0 (ix2 i j) + x1 (ix2 i j)) (fun (j : Fin 8) (k : Fin 64) => w1 (ix2 j k))
          (fun k : Fin 64 => b1 (ix2 0 k)) (fun (k : Fin 64) (q : Fin 64) => w2 (ix2 k q)) (fun q : Fin 64 => b2 (ix2 0 q)) q := by
  unfold k0_pay2 Cert.Spec.mlpRow
  dsimp only [matmul]
  rw [addf_apply, Cert.LibMatmulPlain.matmul_plain_zero_apply dot_S5000x64_S64x64_S5000x64_1_0_0_1_n_n rfl, row_over_apply]
  congr 1
  refine Finset.sum_congr rfl fun k _ => ?_
  rw [truncf_apply, truncf_apply, maximumf_apply, addf_apply,
    Cert.LibMatmulPlain.matmul_plain_zero_apply dot_S5000x8_S8x64_S5000x64_1_0_0_1_n_n rfl,
    row_over_apply, broadcast_apply]
  congr 2
  · congr 1
    refine Finset.sum_congr rfl fun j _ => ?_
    rw [truncf_apply, truncf_apply, addf_apply, shapeCast_self]
  · exact Ideal.ofBits_zero_f32

end Cert.Payloads

end
-- ==== Proof.Stat.lean ====
/-
  The shape of the kernel's per-block statistics: an `[80, 64]` array whose row `8 t` holds, per column, the sum over
  rows `5000 t … 5000 t + 4999` of a `[50000, 64]` table sent through `f`, and whose other rows are zero.
-/
import proofs.«119119_j46677704573771_2_alg».proof.KernelIdeal
import Idealize.ShloMosaic.PureOps.Ideal
import Idealize.ShloMosaic.Lib.ValueIdx

noncomputable section

namespace Cert.Region0

open Cert.KernelIdeal Idealize.ShloMosaic Idealize.ShloMosaic.ValueIdx

/-- Row `R` of an `[80, 64]` statistics array built from a `[50000, 64]` table `H` through `f`: the column sum of
    `f` over block `R / 8`'s rows when `R` is a multiple of 8, else zero. -/
def stat (f : EReal → EReal) (H : S50000x64.Idx → EReal) : S80x64.Idx → EReal := fun j =>
  (if (j 0).val % 8 = 0 then (1 : EReal) else 0)
    * ∑ i : Fin 5000, f (H (ix2 ⟨((j 0).val / 8) * 5000 + i.val, by have h80 : (j 0).val < 80 := (j 0).isLt; have := i.isLt; show _ < 50000; omega⟩ (j 1)))

end Cert.Region0

end
-- ==== Proof.Region0b.lean ====
/-
  The first region's two small outputs. At grid point `t` the body stores an `[8, 64]` block whose row `0` holds,
  per column, the sum over the block's 5000 rows of the perceptron's result (second output) or of its square (third
  output), and whose other seven rows are zero; block `t` sits at rows `8 t … 8 t + 7` of an `[80, 64]` array.
-/
import proofs.«119119_j46677704573771_2_alg».proof.Proof.Gen.KernelIdeal.Frame
import proofs.«119119_j46677704573771_2_alg».proof.Proof.Spec
import proofs.«119119_j46677704573771_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws
import proofs.«119119_j46677704573771_2_alg».proof.Proof.Region0a
import proofs.«119119_j46677704573771_2_alg».proof.Proof.Payloads
import proofs.«119119_j46677704573771_2_alg».proof.Proof.Stat
set_option maxRecDepth 16384

noncomputable section

namespace Cert.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Final

variable (V : (c : Dev nD) → (b : Ref sig .tc) → Buf (Elt Ideal) ((c : Thread nD τ).loc b)) (c : Dev nD)

local notation "G6V" => G6 (V c main_arg0) (V c main_v18) (V c main_arg3) (V c main_v19) (V c main_arg5) (V c main_v20)

/-- Entry `(i, q)` of the perceptron payload at point `t`, read off the arrays, is `G6` at row `5000 t + i`. -/
theorem pay2_at (t : Fin cfg0.N) (i : Fin 5000) (q : Fin 64) (hb : t.val * 5000 + i.val < 50000) :
    k0_pay2 (iblk0 V c 0 t) (iblk0 V c 1 t) (iblk0 V c 2 t) (iblk0 V c 3 t) (iblk0 V c 4 t) (iblk0 V c 5 t) (ix2 i q)
      = G6V (ix2 ⟨t.val * 5000 + i.val, hb⟩ q) := by
  refine (pay2_apply _ _ _ _ _ _ i q).trans ?_
  simp only [read0 V c t i _ hb, read1 V c t i _ hb, read2 V c t, read3 V c t, read4 V c t, read5 V c t]
  rfl

theorem emb7 (t : Fin cfg0.N) (r : Fin 8) (q : Fin 64) (h : t.val * 8 + r.val < 80) :
    ((cfg0.win 7).blk t).view.emb (ix2 r q) = (ix2 ⟨t.val * 8 + r.val, h⟩ q : S80x64.Idx) := by
  refine funext fun a => Fin.ext ?_
  obtain ⟨-, -, -, -, -, -, -, -, -, -, -, -, -, -, e0, e1, -⟩ := idx_facts t
  match a with
  | ⟨0, _⟩ => show win0_7.index t (0 : Fin 2) * 8 + 1 * r.val = t.val * 8 + r.val; omega
  | ⟨1, _⟩ => show win0_7.index t (1 : Fin 2) * 64 + 1 * q.val = q.val; omega

theorem emb8 (t : Fin cfg0.N) (r : Fin 8) (q : Fin 64) (h : t.val * 8 + r.val < 80) :
    ((cfg0.win 8).blk t).view.emb (ix2 r q) = (ix2 ⟨t.val * 8 + r.val, h⟩ q : S80x64.Idx) := by
  refine funext fun a => Fin.ext ?_
  obtain ⟨-, -, -, -, -, -, -, -, -, -, -, -, -, -, -, -, e0, e1, -⟩ := idx_facts t
  match a with
  | ⟨0, _⟩ => show win0_8.index t (0 : Fin 2) * 8 + 1 * r.val = t.val * 8 + r.val; omega
  | ⟨1, _⟩ => show win0_8.index t (1 : Fin 2) * 64 + 1 * q.val = q.val; omega

/-- The statistics array at row `8 t + r`: the mask of `r` times block `t`'s column sum. -/
theorem stat_at (f : EReal → EReal) (H : S50000x64.Idx → EReal) (t : Fin cfg0.N) (r : Fin 8) (q : Fin 64) (h : t.val * 8 + r.val < 80) :
    stat f H (ix2 ⟨t.val * 8 + r.val, h⟩ q)
      = (if r.val = 0 then (1 : EReal) else 0)
          * ∑ i : Fin 5000, f (H (ix2 ⟨t.val * 5000 + i.val, by have := i.isLt; have := t_lt t; omega⟩ q)) := by
  have hr := r.isLt
  have e1 : (t.val * 8 + r.val) % 8 = r.val := by omega
  have e2 : (t.val * 8 + r.val) / 8 = t.val := by omega
  unfold stat
  show (if (t.val * 8 + r.val) % 8 = 0 then (1 : EReal) else 0) * _ = _
  rw [e1]
  congr 1
  refine Finset.sum_congr rfl fun i _ => ?_
  refine congrArg f (congrArg H ?_)
  refine funext fun a => Fin.ext ?_
  match a with
  | ⟨0, _⟩ => show (t.val * 8 + r.val) / 8 * 5000 + i.val = t.val * 5000 + i.val; rw [e2]
  | ⟨1, _⟩ => rfl

/-- WHAT POINT `t` WRITES BACK to the second output: block `t` of the column sums of `G6`. -/
theorem flushed7 (t : Fin cfg0.N) :
    (dat0 (F := Ideal) V c).flushed 7 t = ((cfg0.win 7).blk t).view.read (Elt Ideal) (stat (fun x => x) G6V) := by
  show (cfg0.win 7).cut (grid0.coords t) ((dat0 V c).after 7 t) = _
  rw [after0_7]
  unfold out0_7
  rw [View.canon_unit_zero hz]
  simp only [View.ld_unit_zero (S := S5000x8) hz, View.ld_unit_zero (S := S8x64) hz, View.ld_unit_zero (S := S1x64) hz,
    View.ld_unit_zero (S := S64x64) hz]
  funext y
  obtain ⟨r, q, rfl⟩ : ∃ (r : Fin 8) (q : Fin 64), y = ix2 r q := ⟨y 0, y 1, eq_ix2 y⟩
  have hb : t.val * 8 + r.val < 80 := by have := r.isLt; have := t_lt t; omega
  show k0_pay5 (iblk0 V c 0 t) (iblk0 V c 1 t) (iblk0 V c 2 t) (iblk0 V c 3 t) (iblk0 V c 4 t) (iblk0 V c 5 t) (ix2 r q)
    = stat (fun x => x) G6V (((cfg0.win 7).blk t).view.emb (ix2 r q))
  rw [emb7 t r q hb, stat_at]
  refine (Cert.Payloads.pay5_apply _ _ _ _ _ _ r q).trans ?_
  congr 1
  refine Finset.sum_congr rfl fun i _ => ?_
  exact pay2_at V c t i q _

/-- WHAT POINT `t` WRITES BACK to the third output: block `t` of the column sums of the squares of `G6`. -/
theorem flushed8 (t : Fin cfg0.N) :
    (dat0 (F := Ideal) V c).flushed 8 t = ((cfg0.win 8).blk t).view.read (Elt Ideal) (stat (fun x => x * x) G6V) := by
  show (cfg0.win 8).cut (grid0.coords t) ((dat0 V c).after 8 t) = _
  rw [after0_8]
  unfold out0_8
  rw [View.canon_unit_zero hz]
  simp only [View.ld_unit_zero (S := S5000x8) hz, View.ld_unit_zero (S := S8x64) hz, View.ld_unit_zero (S := S1x64) hz,
    View.ld_unit_zero (S := S64x64) hz]
  funext y
  obtain ⟨r, q, rfl⟩ : ∃ (r : Fin 8) (q : Fin 64), y = ix2 r q := ⟨y 0, y 1, eq_ix2 y⟩
  have hb : t.val * 8 + r.val < 80 := by have := r.isLt; have := t_lt t; omega
  show k0_pay1 (k0_pay3 (iblk0 V c 0 t) (iblk0 V c 1 t) (iblk0 V c 2 t) (iblk0 V c 3 t) (iblk0 V c 4 t) (iblk0 V c 5 t)) (k0_pay4 (F := Ideal)) (ix2 r q)
    = stat (fun x => x * x) G6V (((cfg0.win 8).blk t).view.emb (ix2 r q))
  rw [emb8 t r q hb, stat_at]
  refine (Cert.Payloads.pay1_apply _ _ _ _ _ _ r q).trans ?_
  congr 1
  refine Finset.sum_congr rfl fun i _ => ?_
  rw [pay2_at V c t i q _]

theorem mem_blk7 (t : Fin cfg0.N) (i : S80x64.Idx) :
    i ∈ ((cfg0.win 7).blk t).view.set ↔ ∀ a : Fin 2, win0_7.index t a * S8x64.size a ≤ (i a).val ∧ (i a).val < win0_7.index t a * S8x64.size a + S8x64.size a := by
  show i ∈ ((View.whole main_v21_1).slice (win0_7.rect t)).set ↔ _
  rw [View.set_slice_whole, Rect.mem_set_unit]
  exact Iff.rfl

theorem mem_blk8 (t : Fin cfg0.N) (i : S80x64.Idx) :
    i ∈ ((cfg0.win 8).blk t).view.set ↔ ∀ a : Fin 2, win0_8.index t a * S8x64.size a ≤ (i a).val ∧ (i a).val < win0_8.index t a * S8x64.size a + S8x64.size a := by
  show i ∈ ((View.whole main_v21_2).slice (win0_8.rect t)).set ↔ _
  rw [View.set_slice_whole, Rect.mem_set_unit]
  exact Iff.rfl

theorem cover7 (i : S80x64.Idx) : ∃ t : Fin cfg0.N, (cfg0.win 7).flush t = true ∧ i ∈ ((cfg0.win 7).blk t).view.set := by
  have hi0 : (i 0).val < 80 := (i 0).isLt
  have hi1 : (i 1).val < 64 := (i 1).isLt
  have hN : cfg0.N = 10 := N_0
  let t : Fin cfg0.N := ⟨(i 0).val / 8, by rw [hN]; omega⟩
  refine ⟨t, flush0_7 t, ?_⟩
  rw [mem_blk7]
  obtain ⟨-, -, -, -, -, -, -, -, -, -, -, -, -, -, e0, e1, -⟩ := idx_facts t
  have ht : t.val = (i 0).val / 8 := rfl
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 64 ≤ (i 1).val ∧ (i 1).val < win0_7.index t (1 : Fin 2) * 64 + 64; omega

theorem cover8 (i : S80x64.Idx) : ∃ t : Fin cfg0.N, (cfg0.win 8).flush t = true ∧ i ∈ ((cfg0.win 8).blk t).view.set := by
  have hi0 : (i 0).val < 80 := (i 0).isLt
  have hi1 : (i 1).val < 64 := (i 1).isLt
  have hN : cfg0.N = 10 := N_0
  let t : Fin cfg0.N := ⟨(i 0).val / 8, by rw [hN]; omega⟩
  refine ⟨t, flush0_8 t, ?_⟩
  rw [mem_blk8]
  obtain ⟨-, -, -, -, -, -, -, -, -, -, -, -, -, -, -, -, e0, e1, -⟩ := idx_facts t
  have ht : t.val = (i 0).val / 8 := rfl
  intro a
  match a with
  | ⟨0, _⟩ => show win0_8.index t (0 : Fin 2) * 8 ≤ (i 0).val ∧ (i 0).val < win0_8.index t (0 : Fin 2) * 8 + 8; omega
  | ⟨1, _⟩ => show win0_8.index t (1 : Fin 2) * 64 ≤ (i 1).val ∧ (i 1).val < win0_8.index t (1 : Fin 2) * 64 + 64; omega

/-- THE SECOND AND THIRD OUTPUT ARRAYS after the region. -/
theorem final7 : (dat0 (F := Ideal) V c).arrAt 7 cfg0.N = stat (fun x => x) G6V :=
  (dat0 (F := Ideal) V c).arrAt_eq_of_cover 7 _ (fun t _ => flushed7 V c t) cover7

theorem final8 : (dat0 (F := Ideal) V c).arrAt 8 cfg0.N = stat (fun x => x * x) G6V :=
  (dat0 (F := Ideal) V c).arrAt_eq_of_cover 8 _ (fun t _ => flushed8 V c t) cover8

end Final

end Cert.Region0

end
-- ==== Proof.Region1.lean ====
/-
  What the first batch-normalisation region (region 1 of the program) leaves in its output array, as a closed form of
  the buffers the region finds: the output is [50000, 64], written in ten blocks of 5000 rows; entry (r, q) is the
  input's entry (r, q) minus the mean of column q, times the inverse square root of the column's variance plus the
  small constant, times the column's scale, plus the column's shift, then the rectifier. First the stored value of
  one block at one index, then each block read as a restriction of the whole-array function, then the cover of the
  array by the ten blocks.
-/
import proofs.«119119_j46677704573771_2_alg».proof.Proof.Gen.KernelIdeal.Frame
import proofs.«119119_j46677704573771_2_alg».proof.Proof.Spec
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A row vector repeated down the rows, read at row `p` and column `q`, is the row vector's entry `q`. -/
theorem bcast_row (x : FVec Ideal S1x64 .f32) (h : S1x64.Broadcasts S5000x64) (p : Fin 5000) (q : Fin 64) :
    broadcastTo S5000x64 x h (ix2 p q) = x (ix2 0 q) :=
  broadcastTo_apply x h (ix2 p q) (ix2 0 q) fun a => by
    match a with
    | ⟨0, _⟩ => rfl
    | ⟨1, _⟩ => rfl

/-- The body's stored value at row `p`, column `q` of a block: the block's entry normalised by the column's mean and
    variance, scaled, shifted and rectified. -/
theorem pay_apply (x0 : Vec Ideal S5000x64 .f32) (x1 x2 x3 x4 : Vec Ideal S1x64 .f32) (p : Fin 5000) (q : Fin 64) :
    k1_pay1 x0 x1 x2 x3 x4 (ix2 p q)
      = Cert.Spec.bnrelu (x0 (ix2 p q)) (x1 (ix2 0 q)) (x2 (ix2 0 q)) (x3 (ix2 0 q)) (x4 (ix2 0 q)) := by
  unfold k1_pay1 Cert.Spec.bnrelu
  simp only [shapeCast_self]
  rw [maximumf_apply, addf_apply, mulf_apply, mulf_apply, subf_apply, bcast_row, bcast_row, bcast_row, bcast_row,
    broadcast_apply]
  rw [show (FloatOps.ofBits (F := Ideal) FTy.f32 0x00000000#32) = 0 from Ideal.ofBits_zero_f32]
  rfl

/-- The same at any index of the block. -/
theorem pay_at (x0 : Vec Ideal S5000x64 .f32) (x1 x2 x3 x4 : Vec Ideal S1x64 .f32) (y : S5000x64.Idx) :
    k1_pay1 x0 x1 x2 x3 x4 y
      = Cert.Spec.bnrelu (x0 y) (x1 (ix2 0 (y 1))) (x2 (ix2 0 (y 1))) (x3 (ix2 0 (y 1))) (x4 (ix2 0 (y 1))) := by
  obtain ⟨p, q, rfl⟩ : ∃ (p : Fin 5000) (q : Fin 64), y = ix2 p q := ⟨y 0, y 1, eq_ix2 y⟩
  exact pay_apply x0 x1 x2 x3 x4 p q

/-- What the region leaves in its output array, entry by entry: the input's entry normalised by its column's mean and
    variance, scaled, shifted and rectified. -/
abbrev G (c : Dev nD) : S50000x64.Idx → EReal := fun j =>
  Cert.Spec.bnrelu ((V c main_v21_0 : S50000x64.Idx → EReal) j)
    ((V c main_v32 : S1x64.Idx → EReal) (ix2 0 (j 1))) ((V c main_v33 : S1x64.Idx → EReal) (ix2 0 (j 1)))
    ((V c main_v34 : S1x64.Idx → EReal) (ix2 0 (j 1))) ((V c main_v35 : S1x64.Idx → EReal) (ix2 0 (j 1)))

/-- The block indices over the grid: the input and the output move down the rows one block per point, the four row
    vectors stay at their one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S5000x64) hz, View.ld_unit_zero (S := S1x64) hz]
  obtain ⟨e00, e01, e10, e11, e20, e21, e30, e31, e40, e41, e50, e51⟩ := idx_facts t
  have ht : t.val < 10 := lt_of_lt_of_eq t.isLt N_1
  funext y
  have hy0 : (y 0).val < 5000 := (y 0).isLt
  have hy1 : (y 1).val < 64 := (y 1).isLt
  refine (pay_at (iblk1 V c 0 t) (iblk1 V c 1 t) (iblk1 V c 2 t) (iblk1 V c 3 t) (iblk1 V c 4 t) y).trans ?_
  have hr : t.val * 5000 + (y 0).val < 50000 := by omega
  have h0 : ((cfg1.win 0).blk t).view.emb y = (ix2 (⟨t.val * 5000 + (y 0).val, hr⟩ : Fin 50000) (y 1) : S50000x64.Idx) := by
    funext a; apply Fin.ext
    match a with
    | ⟨0, _⟩ => show win1_0.index t (0 : Fin 2) * 5000 + 1 * (y 0).val = t.val * 5000 + (y 0).val; omega
    | ⟨1, _⟩ => show win1_0.index t (1 : Fin 2) * 64 + 1 * (y 1).val = (y 1).val; omega
  have h5 : ((cfg1.win 5).blk t).view.emb y = (ix2 (⟨t.val * 5000 + (y 0).val, hr⟩ : Fin 50000) (y 1) : S50000x64.Idx) := by
    funext a; apply Fin.ext
    match a with
    | ⟨0, _⟩ => show win1_5.index t (0 : Fin 2) * 5000 + 1 * (y 0).val = t.val * 5000 + (y 0).val; omega
    | ⟨1, _⟩ => show win1_5.index t (1 : Fin 2) * 64 + 1 * (y 1).val = (y 1).val; omega
  have h1 : ((cfg1.win 1).blk t).view.emb (ix2 0 (y 1)) = (ix2 0 (y 1) : S1x64.Idx) := by
    funext a; apply Fin.ext
    match a with
    | ⟨0, _⟩ => show win1_1.index t (0 : Fin 2) * 1 + 1 * 0 = 0; omega
    | ⟨1, _⟩ => show win1_1.index t (1 : Fin 2) * 64 + 1 * (y 1).val = (y 1).val; omega
  have h2 : ((cfg1.win 2).blk t).view.emb (ix2 0 (y 1)) = (ix2 0 (y 1) : S1x64.Idx) := by
    funext a; apply Fin.ext
    match a with
    | ⟨0, _⟩ => show win1_2.index t (0 : Fin 2) * 1 + 1 * 0 = 0; omega
    | ⟨1, _⟩ => show win1_2.index t (1 : Fin 2) * 64 + 1 * (y 1).val = (y 1).val; omega
  have h3 : ((cfg1.win 3).blk t).view.emb (ix2 0 (y 1)) = (ix2 0 (y 1) : S1x64.Idx) := by
    funext a; apply Fin.ext
    match a with
    | ⟨0, _⟩ => show win1_3.index t (0 : Fin 2) * 1 + 1 * 0 = 0; omega
    | ⟨1, _⟩ => show win1_3.index t (1 : Fin 2) * 64 + 1 * (y 1).val = (y 1).val; omega
  have h4 : ((cfg1.win 4).blk t).view.emb (ix2 0 (y 1)) = (ix2 0 (y 1) : S1x64.Idx) := by
    funext a; apply Fin.ext
    match a with
    | ⟨0, _⟩ => show win1_4.index t (0 : Fin 2) * 1 + 1 * 0 = 0; omega
    | ⟨1, _⟩ => show win1_4.index t (1 : Fin 2) * 64 + 1 * (y 1).val = (y 1).val; omega
  show Cert.Spec.bnrelu (V c main_v21_0 (((cfg1.win 0).blk t).view.emb y))
      (V c main_v32 (((cfg1.win 1).blk t).view.emb (ix2 0 (y 1)))) (V c main_v33 (((cfg1.win 2).blk t).view.emb (ix2 0 (y 1))))
      (V c main_v34 (((cfg1.win 3).blk t).view.emb (ix2 0 (y 1)))) (V c main_v35 (((cfg1.win 4).blk t).view.emb (ix2 0 (y 1))))
    = G V c (((cfg1.win 5).blk t).view.emb y)
  rw [h0, h1, h2, h3, h4, h5]

/-- An index of the output array is in point `t`'s block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v36).slice (win1_5.rect t)).set ↔ _
  rw [View.set_slice_whole, Rect.mem_set_unit]
  exact Iff.rfl

/-- Every index of the output array is in the block of the point its row falls in (row `r` in point `r / 5000`). -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have htv : t.val = (i 0).val / 5000 := rfl
  obtain ⟨e00, e01, e10, e11, e20, e21, e30, e31, e40, e41, e50, e51⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE OUTPUT ARRAY after the region, whatever the buffers held when it was entered: entry `(r, q)` is the input's
    entry normalised by column `q`'s mean and variance, scaled, shifted and rectified. -/
theorem arr_eq (c : Dev nD) :
    (dat1 (F := Ideal) V c).arrAt 5 cfg1.N = fun j : S50000x64.Idx =>
      Cert.Spec.bnrelu ((V c main_v21_0 : S50000x64.Idx → EReal) j)
        ((V c main_v32 : S1x64.Idx → EReal) (ix2 0 (j 1))) ((V c main_v33 : S1x64.Idx → EReal) (ix2 0 (j 1)))
        ((V c main_v34 : S1x64.Idx → EReal) (ix2 0 (j 1))) ((V c main_v35 : S1x64.Idx → EReal) (ix2 0 (j 1))) :=
  (dat1 (F := Ideal) V c).arrAt_eq_of_cover 5 (G V c) (fun t _ => flushed_eq V c t) cover

end Cert.Region1

end
-- ==== Proof.RealFacts.lean ====
/- Extended-real algebra used by the certificate: which expressions denote real numbers, the variance
   identity over the extended reals, the float constants as the reals their patterns denote, and two
   regroupings of finite sums. Nothing here depends on the programs. -/
import Idealize.ShloMosaic.PureOps.Ideal
import Mathlib.Data.EReal.Inv
import Mathlib.Data.Fintype.BigOperators
import Mathlib.Algebra.BigOperators.Fin
import Mathlib.Algebra.Order.BigOperators.Group.Finset
import Mathlib.Tactic

noncomputable section

namespace Cert.Alg

open Idealize.ShloMosaic
open scoped BigOperators

/-! ### Extended reals that are real numbers -/

/-- `x` is (the coercion of) a real number: neither infinity. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- The coercion commutes with `max`. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- The coercion commutes with `min`. -/
theorem coe_min (a b : ℝ) : ((min a b : ℝ) : EReal) = min (a : EReal) (b : EReal) := by
  rcases le_total a b with h | h
  · rw [min_eq_left h, min_eq_left (EReal.coe_le_coe_iff.2 h)]
  · rw [min_eq_right h, min_eq_right (EReal.coe_le_coe_iff.2 h)]

theorem IsReal.max {x y : EReal} (hx : IsReal x) (hy : IsReal y) : IsReal (max x y) := by
  obtain ⟨a, rfl⟩ := hx; obtain ⟨b, rfl⟩ := hy
  exact ⟨Max.max a b, (coe_max a b).symm⟩

theorem IsReal.min {x y : EReal} (hx : IsReal x) (hy : IsReal y) : IsReal (min x y) := by
  obtain ⟨a, rfl⟩ := hx; obtain ⟨b, rfl⟩ := hy
  exact ⟨Min.min a b, (coe_min a b).symm⟩

theorem IsReal.ite {p : Prop} [Decidable p] {x y : EReal} (hx : IsReal x) (hy : IsReal y) :
    IsReal (if p then x else y) := by
  split_ifs
  · exact hx
  · exact hy

/-- The coercion commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add
      (ih (fun i hi => hf i (Finset.mem_insert_of_mem hi)))

/-- Division of a real by a nonzero real, as a real. -/
theorem div_coe_coe (a : ℝ) {c : ℝ} (hc : c ≠ 0) :
    Ideal.div (a : EReal) (c : EReal) = ((a * (1 / c) : ℝ) : EReal) := by
  rw [Ideal.div_coe hc, EReal.coe_mul]

theorem IsReal.div_coe {x : EReal} (hx : IsReal x) {c : ℝ} (hc : c ≠ 0) :
    IsReal (Ideal.div x (c : EReal)) := by
  obtain ⟨a, rfl⟩ := hx
  exact ⟨a * (1 / c), div_coe_coe a hc⟩

/-- The reciprocal square root of a positive real, as a real. -/
theorem rsqrt_coe_pos {r : ℝ} (hr : 0 < r) :
    Ideal.rsqrt (r : EReal) = (((Real.sqrt r)⁻¹ : ℝ) : EReal) := by
  rw [Ideal.rsqrt_coe, if_neg (not_lt.2 hr.le), if_neg hr.ne']

theorem isReal_rsqrt {x : EReal} {r : ℝ} (hx : x = (r : EReal)) (hr : 0 < r) : IsReal (Ideal.rsqrt x) := by
  subst hx
  exact ⟨(Real.sqrt r)⁻¹, rsqrt_coe_pos hr⟩

/-! ### The variance identity -/

/-- Over the reals: the mean of the squared deviations is the mean of the squares less the squared mean. -/
theorem real_variance {ι : Type*} [Fintype ι] (r : ι → ℝ) (N : ℝ) (hN : 0 < N)
    (hcard : N = (Fintype.card ι : ℝ)) :
    (∑ i, (r i - (∑ j, r j) * (1 / N)) * (r i - (∑ j, r j) * (1 / N))) * (1 / N)
      = (∑ i, r i * r i) * (1 / N) - ((∑ j, r j) * (1 / N)) * ((∑ j, r j) * (1 / N)) := by
  have hN' : N ≠ 0 := hN.ne'
  generalize hS : (∑ j, r j) = S
  generalize hm : S * (1 / N) = m
  have hSm : S = N * m := by rw [← hm]; field_simp
  have hexp : ∀ i, (r i - m) * (r i - m) = r i * r i - 2 * m * r i + m * m := fun i => by ring
  have hsum : ∑ i, (r i - m) * (r i - m) = (∑ i, r i * r i) - 2 * m * S + N * (m * m) := by
    simp_rw [hexp]
    rw [Finset.sum_add_distrib, Finset.sum_sub_distrib, ← Finset.mul_sum, hS, Finset.sum_const,
      Finset.card_univ, nsmul_eq_mul, ← hcard]
  rw [hsum, hSm]
  field_simp
  ring

/-- The mean of squared deviations is nonnegative. -/
theorem real_variance_nonneg {ι : Type*} [Fintype ι] (r : ι → ℝ) (m N : ℝ) (hN : 0 < N) :
    0 ≤ (∑ i, (r i - m) * (r i - m)) * (1 / N) :=
  mul_nonneg (Finset.sum_nonneg (fun i _ => mul_self_nonneg _)) (by positivity)

/-- The variance identity over the extended reals, for real inputs: the mean of the squared deviations
    from the mean equals the mean of the squares less the squared mean, clamped below at `0` (the clamp
    is the identity here). -/
theorem variance_eq {ι : Type*} [Fintype ι] (h : ι → EReal) (hh : ∀ i, IsReal (h i)) (N : ℝ)
    (hN : 0 < N) (hcard : N = (Fintype.card ι : ℝ)) :
    Ideal.div (∑ i, (h i - Ideal.div (∑ j, h j) (N : EReal)) * (h i - Ideal.div (∑ j, h j) (N : EReal)))
        (N : EReal)
      = max (Ideal.div (∑ i, h i * h i) (N : EReal)
          - Ideal.div (∑ j, h j) (N : EReal) * Ideal.div (∑ j, h j) (N : EReal)) 0 := by
  choose r hr using hh
  have hN' : N ≠ 0 := hN.ne'
  have hfun : h = fun i => (r i : EReal) := funext hr
  subst hfun
  have hμ : Ideal.div (∑ j, (r j : EReal)) (N : EReal) = (((∑ j, r j) * (1 / N) : ℝ) : EReal) := by
    rw [← coe_finset_sum, div_coe_coe _ hN']
  rw [hμ]
  have hL : ∀ i, ((r i : EReal) - (((∑ j, r j) * (1 / N) : ℝ) : EReal))
        * ((r i : EReal) - (((∑ j, r j) * (1 / N) : ℝ) : EReal))
      = (((r i - (∑ j, r j) * (1 / N)) * (r i - (∑ j, r j) * (1 / N)) : ℝ) : EReal) := fun i => by
    rw [← EReal.coe_sub, ← EReal.coe_mul]
  have hR : ∀ i, (r i : EReal) * (r i : EReal) = ((r i * r i : ℝ) : EReal) := fun i =>
    (EReal.coe_mul _ _).symm
  simp_rw [hL, hR]
  rw [← coe_finset_sum, ← coe_finset_sum, div_coe_coe _ hN', div_coe_coe _ hN', ← EReal.coe_mul,
    ← EReal.coe_sub, ← EReal.coe_zero, ← coe_max, real_variance r N hN hcard]
  congr 1
  rw [max_eq_left]
  rw [← real_variance r N hN hcard]
  exact real_variance_nonneg r _ N hN

/-- The mean of real inputs is real. -/
theorem isReal_mean {ι : Type*} [Fintype ι] (h : ι → EReal) (hh : ∀ i, IsReal (h i)) {N : ℝ}
    (hN : N ≠ 0) : IsReal (Ideal.div (∑ i, h i) (N : EReal)) :=
  (IsReal.sum _ _ (fun i _ => hh i)).div_coe hN

/-- The mean of the squared deviations of real inputs is real. -/
theorem isReal_variance {ι : Type*} [Fintype ι] (h : ι → EReal) (hh : ∀ i, IsReal (h i)) {N : ℝ}
    (hN : N ≠ 0) :
    IsReal (Ideal.div
      (∑ i, (h i - Ideal.div (∑ j, h j) (N : EReal)) * (h i - Ideal.div (∑ j, h j) (N : EReal)))
      (N : EReal)) :=
  (IsReal.sum _ _ (fun i _ =>
    ((hh i).sub (isReal_mean h hh hN)).mul ((hh i).sub (isReal_mean h hh hN)))).div_coe hN

/-- The mean of the squared deviations of real inputs is nonnegative. -/
theorem variance_nonneg {ι : Type*} [Fintype ι] (h : ι → EReal) (hh : ∀ i, IsReal (h i)) (N : ℝ)
    (hN : 0 < N) (hcard : N = (Fintype.card ι : ℝ)) :
    0 ≤ Ideal.div
      (∑ i, (h i - Ideal.div (∑ j, h j) (N : EReal)) * (h i - Ideal.div (∑ j, h j) (N : EReal)))
      (N : EReal) := by
  rw [variance_eq h hh N hN hcard]
  exact le_max_right _ _

/-- The clamped form of the variance is real. -/
theorem isReal_variance' {ι : Type*} [Fintype ι] (h : ι → EReal) (hh : ∀ i, IsReal (h i)) (N : ℝ)
    (hN : 0 < N) (hcard : N = (Fintype.card ι : ℝ)) :
    IsReal (max (Ideal.div (∑ i, h i * h i) (N : EReal)
      - Ideal.div (∑ j, h j) (N : EReal) * Ideal.div (∑ j, h j) (N : EReal)) 0) := by
  rw [← variance_eq h hh N hN hcard]
  exact isReal_variance h hh hN.ne'

/-- The clamped form of the variance is nonnegative. -/
theorem variance_nonneg' (a : EReal) : 0 ≤ max a (0 : EReal) := le_max_right _ _

/-- A real, nonnegative extended real is the coercion of a nonnegative real. -/
theorem IsReal.exists_nonneg {v : EReal} (hv : IsReal v) (h0 : 0 ≤ v) :
    ∃ a : ℝ, 0 ≤ a ∧ v = (a : EReal) := by
  obtain ⟨a, rfl⟩ := hv
  exact ⟨a, EReal.coe_nonneg.1 h0, rfl⟩

/-! ### The float constants -/

/-- `50000.0` denotes the real `50000`. -/
theorem ofBits_50000 : Ideal.ofBits .f32 0x47435000#32 = ((50000 : ℝ) : EReal) := by
  simp [Ideal.ofBits, Ideal.ieee, -EReal.coe_mul]; norm_num

/-- `1.0` denotes the real `1`. -/
theorem ofBits_one : Ideal.ofBits .f32 0x3F800000#32 = ((1 : ℝ) : EReal) := by
  simp [Ideal.ofBits, Ideal.ieee, -EReal.coe_mul]; norm_num

/-- `+0.0` denotes `0`. -/
theorem ofBits_zero : Ideal.ofBits .f32 0x00000000#32 = 0 := by
  simp [Ideal.ofBits, Ideal.ieee]

/-- The small positive constant added under the square root: `10995116 · 2⁻⁴⁰`, about `1e-5`. -/
theorem ofBits_eps_eq :
    Ideal.ofBits .f32 0x3727C5AC#32 = (((10995116 : ℝ) * (2 : ℝ) ^ (-40 : Int) : ℝ) : EReal) := by
  simp [Ideal.ofBits, Ideal.ieee, -EReal.coe_mul]

theorem ofBits_eps : ∃ e : ℝ, 0 < e ∧ Ideal.ofBits .f32 0x3727C5AC#32 = (e : EReal) :=
  ⟨(10995116 : ℝ) * (2 : ℝ) ^ (-40 : Int), by positivity, ofBits_eps_eq⟩

/-- The reciprocal square root of a real nonnegative value plus the small positive constant is real. -/
theorem isReal_rsqrt_add_eps {v : EReal} (hv : IsReal v) (h0 : 0 ≤ v) :
    IsReal (Ideal.rsqrt (v + Ideal.ofBits .f32 0x3727C5AC#32)) := by
  obtain ⟨a, ha, rfl⟩ := hv.exists_nonneg h0
  obtain ⟨e, he, hE⟩ := ofBits_eps
  rw [hE, ← EReal.coe_add]
  exact isReal_rsqrt rfl (add_pos_of_nonneg_of_pos ha he)

/-! ### Divisors of the form `max d 1` -/

/-- The larger of a real and `1` is a real at least `1`. -/
theorem max_one_coe {d : EReal} (hd : IsReal d) :
    ∃ r : ℝ, 1 ≤ r ∧ max d (1 : EReal) = (r : EReal) := by
  obtain ⟨a, rfl⟩ := hd
  exact ⟨Max.max a 1, le_max_right _ _, by rw [coe_max, EReal.coe_one]⟩

theorem IsReal.div_max_one {x d : EReal} (hx : IsReal x) (hd : IsReal d) :
    IsReal (Ideal.div x (Max.max d 1)) := by
  obtain ⟨r, hr, h⟩ := max_one_coe hd
  rw [h]
  exact hx.div_coe (by linarith)

/-! ### Regrouping finite sums -/

/-- A sum over `80` positions that only reads every eighth one is the sum over the `10` it reads. -/
theorem sum_stride8 (f : Fin 10 → EReal) :
    ∑ R : Fin 80, (if R.val % 8 = 0 then f ⟨R.val / 8, by omega⟩ else 0) = ∑ t : Fin 10, f t := by
  refine (Equiv.sum_comp (finProdFinEquiv (m := 10) (n := 8))
    (fun R : Fin 80 => if R.val % 8 = 0 then f ⟨R.val / 8, by omega⟩ else 0)).symm.trans ?_
  rw [Fintype.sum_prod_type]
  refine Fintype.sum_congr _ _ (fun t => ?_)
  refine (Finset.sum_eq_single (0 : Fin 8) (fun k _ hk => ?_)
    (fun h => absurd (Finset.mem_univ _) h)).trans ?_
  · have hk' : k.val ≠ 0 := fun h => hk (Fin.ext h)
    have hmod : (finProdFinEquiv (t, k)).val % 8 ≠ 0 := by
      rw [finProdFinEquiv_apply_val]; simp only; omega
    exact if_neg hmod
  · have hmod : (finProdFinEquiv (t, (0 : Fin 8))).val % 8 = 0 := by
      rw [finProdFinEquiv_apply_val]; simp
    rw [if_pos hmod]
    congr 1
    ext
    show (finProdFinEquiv (t, (0 : Fin 8))).val / 8 = t.val
    rw [finProdFinEquiv_apply_val]
    simp

/-- A sum over `50000` positions, taken as `10` blocks of `5000`. -/
theorem sum_blocks (g : Fin 50000 → EReal) :
    ∑ t : Fin 10, ∑ i : Fin 5000, g ⟨t.val * 5000 + i.val, by omega⟩ = ∑ p : Fin 50000, g p := by
  refine Eq.trans ?_ (Equiv.sum_comp (finProdFinEquiv (m := 10) (n := 5000)) g)
  rw [Fintype.sum_prod_type]
  refine Fintype.sum_congr _ _ (fun t => Fintype.sum_congr _ _ (fun i => ?_))
  congr 1
  ext
  rw [finProdFinEquiv_apply_val]
  simp only
  omega

end Cert.Alg

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.StatBridge.lean ====
/- The kernel program's batch statistics, computed from an [80, 64] array of per-block column sums, are the
   column mean and the column variance of the whole [50000, 64] table. -/
import proofs.«119119_j46677704573771_2_alg».proof.Proof.Stat
import proofs.«119119_j46677704573771_2_alg».proof.Proof.HostReads
import proofs.«119119_j46677704573771_2_alg».proof.Proof.RealFacts
import proofs.«119119_j46677704573771_2_alg».proof.Proof.LibHostBroadcast
import Idealize.ShloMosaic.PureOps.Ideal.Laws
import Idealize.ShloMosaic.Lib.ValueIdx

noncomputable section

namespace Cert.StatBridge

open Cert.KernelIdeal Cert.KernelIdeal.Gen Cert.HostReads Cert.Region0 Cert.Alg
open Idealize.ShloMosaic Idealize.ShloMosaic.ValueIdx
open scoped BigOperators

/-- A scalar constant broadcast to a vector of 64 reads the extended real its word encodes. -/
theorem bcast64_apply (w : BitVec 32) (q : Fin 64) :
    broadcastInDim S64 ![] bcast_S_S64 (constant (F := Ideal) S_ .f32 w) (ix1 q) = Ideal.ofBits .f32 w :=
  Cert.LibHostBroadcast.bcast_scalar_apply _ bcast_S_S64 _ (ix1 q)

/-- The column sum of an [80, 64] array at column `q`. -/
theorem reduce80_apply (S : FVec Ideal S80x64 .f32) (q : Fin 64) :
    Host.reduceAdd S (constant (F := Ideal) S_ .f32 0x00000000#32) reducesTo_S80x64_S64_d0 h_S_ (ix1 q)
      = 0 + ∑ R : Fin 80, S (ix2 R q) := by
  simp only [Host.reduceAdd, Ideal.hostReduceAdd_def]
  rw [Ideal.hostReduceAdd_single reducesTo_S80x64_S64_d0 (by decide)]
  have h0 : constant (F := Ideal) S_ .f32 0x00000000#32 (Shape.Idx.first h_S_) = 0 := ofBits_zero
  rw [h0]
  refine congrArg (_ + ·) (Finset.sum_congr rfl fun k _ => ?_)
  exact congrArg S (funext fun a => Fin.ext (by match a with | ⟨0, _⟩ => rfl | ⟨1, _⟩ => rfl))

/-- The column mean of an [80, 64] array: its column sum divided by the node count. -/
theorem colMean_apply (S : FVec Ideal S80x64 .f32) (q : Fin 64) :
    colMean S (ix1 q) = Ideal.div (∑ R : Fin 80, S (ix2 R q)) (Ideal.ofBits .f32 0x47435000#32) := by
  have h : colMean S (ix1 q)
      = Ideal.div
          (Host.reduceAdd S (constant (F := Ideal) S_ .f32 0x00000000#32) reducesTo_S80x64_S64_d0 h_S_ (ix1 q))
          (broadcastInDim S64 ![] bcast_S_S64 (constant (F := Ideal) S_ .f32 0x47435000#32) (ix1 q)) := rfl
  rw [h, reduce80_apply, bcast64_apply, zero_add]

/-- The per-block sums add up, column by column, to the sum over the whole table. -/
theorem sum_stat (f : EReal → EReal) (H : S50000x64.Idx → EReal) (q : Fin 64) :
    ∑ R : Fin 80, stat f H (ix2 R q) = ∑ p : Fin 50000, f (H (ix2 p q)) := by
  have h1 : ∀ R : Fin 80, stat f H (ix2 R q)
      = if R.val % 8 = 0 then
          (fun t : Fin 10 => ∑ i : Fin 5000, f (H (ix2 ⟨t.val * 5000 + i.val, by omega⟩ q)))
            ⟨R.val / 8, by omega⟩
        else 0 := by
    intro R
    show (if R.val % 8 = 0 then (1 : EReal) else 0)
        * (∑ i : Fin 5000, f (H (ix2 ⟨(R.val / 8) * 5000 + i.val, _⟩ q))) = _
    split_ifs
    · rw [one_mul]
    · rw [zero_mul]
  refine (Finset.sum_congr rfl (fun R _ => h1 R)).trans ?_
  refine (sum_stride8
    (fun t : Fin 10 => ∑ i : Fin 5000, f (H (ix2 ⟨t.val * 5000 + i.val, by omega⟩ q)))).trans ?_
  exact sum_blocks (fun p => f (H (ix2 p q)))

/-- The column mean of the per-block sums of `f` over a table is the mean of `f` over the column. -/
theorem colMean_stat (f : EReal → EReal) (H : S50000x64.Idx → EReal) (q : Fin 64) :
    colMean (stat f H) (ix1 q)
      = Ideal.div (∑ p : Fin 50000, f (H (ix2 p q))) (Ideal.ofBits .f32 0x47435000#32) := by
  rw [colMean_apply, sum_stat]

/-- The column mean of the per-block column sums is the column mean of the table. -/
theorem colMean_stat_id (H : S50000x64.Idx → EReal) (q : Fin 64) :
    colMean (stat (fun x => x) H) (ix1 q)
      = Ideal.div (∑ p : Fin 50000, H (ix2 p q)) (Ideal.ofBits .f32 0x47435000#32) :=
  colMean_stat (fun x => x) H q

/-- The kernel program's variance — the mean of the squares less the squared mean, cut off below at
    zero — is the mean of the squared deviations from the mean, for a table of reals. -/
theorem colVar_stat (H : S50000x64.Idx → EReal) (hH : ∀ i, IsReal (H i)) (q : Fin 64) :
    colVar (stat (fun x => x) H) (stat (fun x => x * x) H) (ix1 q)
      = Ideal.div
          (∑ p : Fin 50000,
            (H (ix2 p q) - Ideal.div (∑ p : Fin 50000, H (ix2 p q)) (Ideal.ofBits .f32 0x47435000#32))
            * (H (ix2 p q) - Ideal.div (∑ p : Fin 50000, H (ix2 p q)) (Ideal.ofBits .f32 0x47435000#32)))
          (Ideal.ofBits .f32 0x47435000#32) := by
  have h : colVar (stat (fun x => x) H) (stat (fun x => x * x) H) (ix1 q)
      = max (colMean (stat (fun x => x * x) H) (ix1 q)
            - colMean (stat (fun x => x) H) (ix1 q) * colMean (stat (fun x => x) H) (ix1 q))
          (broadcastInDim S64 ![] bcast_S_S64 (constant (F := Ideal) S_ .f32 0x00000000#32) (ix1 q)) := rfl
  rw [h, colMean_stat, colMean_stat, bcast64_apply, ofBits_zero, ofBits_50000]
  exact (variance_eq (fun p : Fin 50000 => H (ix2 p q)) (fun p => hH _) 50000 (by norm_num) (by simp)).symm

end Cert.StatBridge

end
-- ==== Proof.LibSegment.lean ====
/-
  Row gathers and row scatter-adds with ONE index column, read at an index.

  The host programs index a table by a column of E signed words: `idx : [E, 1]`.
  * A gather of rows of `x : [N, K]` (or of entries of `x : [N]`) reads, at row `e`, the table row whose number
    is the word `idx[e, 0]` read signed and clamped into `[0, N - 1]` (`clampRow`).
  * An accumulating scatter of the rows of `upd : [E, K]` (or of the entries of `upd : [E]`) into `x` adds row `e`
    to the table row whose number is `idx[e, 0]` read signed, NOT clamped: a word outside `[0, N)` adds nothing.
    At the ideal instance the result at `(n, k)` is `x (n, k)` plus the sum, over every `e`, of
    `upd (e, k)` if `idx[e, 0] = n` and `0` otherwise.
  Everything is generic in the extents `N`, `E`, `K` and the word width; a program's printed dimension record
  is identified with the record here by `rfl`.
-/
import Idealize.ShloMosaic.Lib.ValueIdx
import Idealize.ShloMosaic.PureOps.Ideal.Laws

noncomputable section

open scoped BigOperators

namespace Idealize.ShloMosaic.SegmentIdx

open Idealize.ShloMosaic Idealize.ShloMosaic.ValueIdx

/-- A signed word clamped to a row number of a table with `N` rows: `min (max v 0) (N - 1)`. -/
def clampRow (N : Nat) (hN : 0 < N) {w : Nat} (v : BitVec w) : Fin N := ⟨min v.toInt.toNat (N - 1), by omega⟩

/-- A signed word that is a row number is its own clamp. -/
theorem clampRow_of_eq {N : Nat} (hN : 0 < N) {w : Nat} (v : BitVec w) (n : Fin N) (h : v.toInt = (n.val : ℤ)) :
    clampRow N hN v = n := by
  apply Fin.ext
  show min v.toInt.toNat (N - 1) = n.val
  rw [h, Int.toNat_natCast]
  have := n.isLt
  omega

/-- Rank-1 indices are their coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Gathers -/

section Gather
variable {α : Type}

/-- `x[idx]` for a table of rows: operand `[N, K]`, start indices `[E, 1]`, result `[E, K]`. -/
abbrev gatherRowsDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Row `e` of the gather is the table's row `clampRow idx[e, 0]`. -/
theorem gatherRows_apply {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (gatherRowsDims N E K wf) x idx (ix2 e k) = x (ix2 (clampRow N hN (idx (ix2 e 0))) k) := by
  unfold Host.gather
  congr 1
  funext a
  refine Fin.ext ?_
  match a with
  | ⟨0, _⟩ =>
    show (gatherRowsDims N E K wf).start (ix2 e k) idx 0 + (gatherRowsDims N E K wf).batchCoord (ix2 e k) 0
      + (gatherRowsDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E K wf).startIndexMap from List.mem_singleton.mpr rfl)]
    have hsi : (gatherRowsDims N E K wf).siIdx (ix2 e k) ⟨List.idxOf (0 : Fin 2) (gatherRowsDims N E K wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherRowsDims N E K wf).start (ix2 e k) idx 1 + (gatherRowsDims N E K wf).batchCoord (ix2 e k) 1
      + (gatherRowsDims N E K wf).offCoord (ix2 e k) 1 = _
    rw [GatherDims.batchCoord_eq_zero _ _ _ List.not_mem_nil]
    have hs : (gatherRowsDims N E K wf).start (ix2 e k) idx 1 = 0 := by
      unfold GatherDims.start
      rw [dif_neg (fun h => Nat.one_ne_zero (congrArg Fin.val (List.mem_singleton.mp h)))]
    rw [hs]
    simp only [Nat.add_zero, Nat.zero_add]
    rfl

/-- `x[idx]` for a flat table: operand `[N]`, start indices `[E, 1]`, result `[E]`. -/
abbrev gatherFlatDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gather is the table's entry `clampRow idx[e, 0]`. -/
theorem gatherFlat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherFlatDims N E wf) x idx (ix1 e) = x (ix1 (clampRow N hN (idx (ix2 e 0)))) := by
  unfold Host.gather
  congr 1
  funext a
  obtain rfl : a = 0 := Subsingleton.elim _ _
  refine Fin.ext ?_
  show (gatherFlatDims N E wf).start (ix1 e) idx 0 + (gatherFlatDims N E wf).batchCoord (ix1 e) 0
    + (gatherFlatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherFlatDims N E wf).startIndexMap from List.mem_singleton.mpr rfl)]
  have hsi : (gatherFlatDims N E wf).siIdx (ix1 e) ⟨List.idxOf (0 : Fin 1) (gatherFlatDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end Gather

/-! ## Accumulating scatters, at the ideal instance -/

section Scatter

/-- `x.at[idx].add(upd)` for a table of rows: operand `[N, K]`, scatter indices `[E, 1]`, updates `[E, K]`. -/
abbrev scatterRowsDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

variable {N E K w : Nat}

/-- Update `(e, k')` lands on `(n, k)` exactly when the word `idx[e, 0]`, read signed, is `n` and `k' = k`. -/
theorem scatterRows_lands (wf : ScatterDims.WF ⟨2, ![N, K]⟩ ⟨2, ![E, 1]⟩ ⟨2, ![E, K]⟩ [1] [0] [0] 1)
    (idx : IVec ⟨2, ![E, 1]⟩ w) (e : Fin E) (k' : Fin K) (n : Fin N) (k : Fin K) :
    (scatterRowsDims N E K wf).resultIdx? (ix2 e k') idx = some (ix2 n k)
      ↔ ((idx (ix2 e 0)).toInt = (n.val : ℤ) ∧ k' = k) := by
  have hs0 : (scatterRowsDims N E K wf).start (ix2 e k') idx 0 = (idx (ix2 e 0)).toInt := by
    unfold ScatterDims.start
    rw [dif_pos (show (0 : Fin 2) ∈ (scatterRowsDims N E K wf).scatterDimsToOperandDims from List.mem_singleton.mpr rfl)]
    have hsi : (scatterRowsDims N E K wf).siIdx (ix2 e k') ⟨List.idxOf (0 : Fin 2) (scatterRowsDims N E K wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hs1 : (scatterRowsDims N E K wf).start (ix2 e k') idx 1 = 0 := by
    unfold ScatterDims.start
    rw [dif_neg (fun h => Nat.one_ne_zero (congrArg Fin.val (List.mem_singleton.mp h)))]
  have hw0 : (scatterRowsDims N E K wf).window (ix2 e k') 0 = 0 := rfl
  have hw1 : (scatterRowsDims N E K wf).window (ix2 e k') 1 = k'.val := rfl
  unfold ScatterDims.resultIdx?
  constructor
  · intro h
    split at h
    · rename_i hin
      have hf := Option.some.inj h
      have h0 := congrArg (fun f => (f 0).val) hf
      have h1 := congrArg (fun f => (f 1).val) hf
      simp only [hs0, hs1, hw0, hw1] at h0 h1
      have hin0 := hin 0
      rw [hs0, hw0] at hin0
      refine ⟨?_, Fin.ext ?_⟩
      · change ((idx (ix2 e 0)).toInt + ((0 : ℕ) : ℤ)).toNat = n.val at h0
        omega
      · change ((0 : ℤ) + (k'.val : ℤ)).toNat = k.val at h1
        omega
    · exact absurd h (by simp)
  · rintro ⟨hv, rfl⟩
    have hin0 : 0 ≤ (scatterRowsDims N E K wf).start (ix2 e k') idx 0 + (scatterRowsDims N E K wf).window (ix2 e k') 0
        ∧ (scatterRowsDims N E K wf).start (ix2 e k') idx 0 + (scatterRowsDims N E K wf).window (ix2 e k') 0
          < (⟨2, ![N, K]⟩ : Shape).size 0 := by
      rw [hs0, hw0, hv]
      have := n.isLt
      constructor
      · omega
      · show ((n.val : ℤ) + ((0 : ℕ) : ℤ)) < (N : ℤ)
        omega
    have hin1 : 0 ≤ (scatterRowsDims N E K wf).start (ix2 e k') idx 1 + (scatterRowsDims N E K wf).window (ix2 e k') 1
        ∧ (scatterRowsDims N E K wf).start (ix2 e k') idx 1 + (scatterRowsDims N E K wf).window (ix2 e k') 1
          < (⟨2, ![N, K]⟩ : Shape).size 1 := by
      rw [hs1, hw1]
      have := k'.isLt
      constructor
      · omega
      · show ((0 : ℤ) + (k'.val : ℤ)) < (K : ℤ)
        omega
    have hin : ∀ a, 0 ≤ (scatterRowsDims N E K wf).start (ix2 e k') idx a + (scatterRowsDims N E K wf).window (ix2 e k') a
        ∧ (scatterRowsDims N E K wf).start (ix2 e k') idx a + (scatterRowsDims N E K wf).window (ix2 e k') a
          < (⟨2, ![N, K]⟩ : Shape).size a := fun a =>
      match a with
      | ⟨0, _⟩ => hin0
      | ⟨1, _⟩ => hin1
    rw [dif_pos hin]
    refine congrArg some (funext fun a => Fin.ext ?_)
    match a with
    | ⟨0, _⟩ =>
      show ((scatterRowsDims N E K wf).start (ix2 e k') idx 0 + (scatterRowsDims N E K wf).window (ix2 e k') 0).toNat = n.val
      rw [hs0, hw0, hv]
      omega
    | ⟨1, _⟩ =>
      show ((scatterRowsDims N E K wf).start (ix2 e k') idx 1 + (scatterRowsDims N E K wf).window (ix2 e k') 1).toNat = k'.val
      rw [hs1, hw1]
      omega

/-- THE ROW SCATTER-ADD AT AN ENTRY: `x (n, k)` plus, over every update row `e`, `upd (e, k)` when the word
    `idx[e, 0]` is `n`. -/
theorem scatterAddRows_apply {φ : FTy} (wf : ScatterDims.WF ⟨2, ![N, K]⟩ ⟨2, ![E, 1]⟩ ⟨2, ![E, K]⟩ [1] [0] [0] 1)
    (x : FVec Ideal ⟨2, ![N, K]⟩ φ) (idx : IVec ⟨2, ![E, 1]⟩ w) (upd : FVec Ideal ⟨2, ![E, K]⟩ φ)
    (n : Fin N) (k : Fin K) :
    Host.scatterAdd (F := Ideal) (scatterRowsDims N E K wf) x idx upd (ix2 n k)
      = x (ix2 n k) + ∑ e : Fin E, if (idx (ix2 e 0)).toInt = (n.val : ℤ) then upd (ix2 e k) else 0 := by
  show x (ix2 n k) + ∑ j ∈ Finset.univ.filter
      (fun j => (scatterRowsDims N E K wf).resultIdx? j idx = some (ix2 n k)), upd j = _
  congr 1
  rw [Finset.sum_filter, sum_idx2]
  refine Finset.sum_congr rfl fun e _ => ?_
  simp only [scatterRows_lands wf idx e _ n k]
  by_cases hv : (idx (ix2 e 0)).toInt = (n.val : ℤ)
  · simp only [hv, true_and, if_true]
    rw [Finset.sum_ite_eq' Finset.univ k (fun k' => upd (ix2 e k'))]
    simp
  · simp only [hv, false_and, if_false]
    exact Finset.sum_const_zero

/-- `x.at[idx].add(upd)` for a flat table: operand `[N]`, scatter indices `[E, 1]`, updates `[E]`. -/
abbrev scatterFlatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on entry `n` exactly when the word `idx[e, 0]`, read signed, is `n`. -/
theorem scatterFlat_lands (wf : ScatterDims.WF ⟨1, ![N]⟩ ⟨2, ![E, 1]⟩ ⟨1, ![E]⟩ [] [0] [0] 1)
    (idx : IVec ⟨2, ![E, 1]⟩ w) (e : Fin E) (n : Fin N) :
    (scatterFlatDims N E wf).resultIdx? (ix1 e) idx = some (ix1 n) ↔ (idx (ix2 e 0)).toInt = (n.val : ℤ) := by
  have hs0 : (scatterFlatDims N E wf).start (ix1 e) idx 0 = (idx (ix2 e 0)).toInt := by
    unfold ScatterDims.start
    rw [dif_pos (show (0 : Fin 1) ∈ (scatterFlatDims N E wf).scatterDimsToOperandDims from List.mem_singleton.mpr rfl)]
    have hsi : (scatterFlatDims N E wf).siIdx (ix1 e) ⟨List.idxOf (0 : Fin 1) (scatterFlatDims N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (scatterFlatDims N E wf).window (ix1 e) 0 = 0 := rfl
  unfold ScatterDims.resultIdx?
  constructor
  · intro h
    split at h
    · rename_i hin
      have hf := Option.some.inj h
      have h0 := congrArg (fun f => (f 0).val) hf
      simp only [hs0, hw0] at h0
      have hin0 := hin 0
      rw [hs0, hw0] at hin0
      change ((idx (ix2 e 0)).toInt + ((0 : ℕ) : ℤ)).toNat = n.val at h0
      omega
    · exact absurd h (by simp)
  · intro hv
    have hin0 : 0 ≤ (scatterFlatDims N E wf).start (ix1 e) idx 0 + (scatterFlatDims N E wf).window (ix1 e) 0
        ∧ (scatterFlatDims N E wf).start (ix1 e) idx 0 + (scatterFlatDims N E wf).window (ix1 e) 0
          < (⟨1, ![N]⟩ : Shape).size 0 := by
      rw [hs0, hw0, hv]
      have := n.isLt
      constructor
      · omega
      · show ((n.val : ℤ) + ((0 : ℕ) : ℤ)) < (N : ℤ)
        omega
    have hin : ∀ a, 0 ≤ (scatterFlatDims N E wf).start (ix1 e) idx a + (scatterFlatDims N E wf).window (ix1 e) a
        ∧ (scatterFlatDims N E wf).start (ix1 e) idx a + (scatterFlatDims N E wf).window (ix1 e) a
          < (⟨1, ![N]⟩ : Shape).size a := fun a =>
      match a with
      | ⟨0, _⟩ => hin0
    rw [dif_pos hin]
    refine congrArg some (funext fun a => Fin.ext ?_)
    match a with
    | ⟨0, _⟩ =>
      show ((scatterFlatDims N E wf).start (ix1 e) idx 0 + (scatterFlatDims N E wf).window (ix1 e) 0).toNat = n.val
      rw [hs0, hw0, hv]
      omega

/-- THE FLAT SCATTER-ADD AT AN ENTRY: `x n` plus, over every update `e`, `upd e` when the word `idx[e, 0]` is `n`. -/
theorem scatterAddFlat_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (scatterFlatDims N E wf) x idx upd (ix1 n)
      = x (ix1 n) + ∑ e : Fin E, if (idx (ix2 e 0)).toInt = (n.val : ℤ) then upd (ix1 e) else 0 := by
  show x (ix1 n) + ∑ j ∈ Finset.univ.filter
      (fun j => (scatterFlatDims N E wf).resultIdx? j idx = some (ix1 n)), upd j = _
  congr 1
  rw [Finset.sum_filter, sum_idx1]
  refine Finset.sum_congr rfl fun e _ => ?_
  simp only [scatterFlat_lands wf idx e n]

end Scatter

end Idealize.ShloMosaic.SegmentIdx

end
-- ==== Proof.RefFinite.lean ====
/- The reference program's intermediate values are real numbers (neither infinity) when its float arguments
   are: first for the three layer functions, then operation by operation along the reference. -/
import proofs.«119119_j46677704573771_2_alg».proof.Proof.RealFacts
import proofs.«119119_j46677704573771_2_alg».proof.Proof.Spec
import proofs.«119119_j46677704573771_2_alg».proof.Proof.LibSegment
import proofs.«119119_j46677704573771_2_alg».proof.Proof.Gen.ReferenceIdeal.Read

noncomputable section

namespace Cert.RefFinite

open Idealize.ShloMosaic Cert.Alg Cert.Spec
open scoped BigOperators

/-! ### The layer functions send reals to reals -/

/-- A row of the two-layer perceptron with real inputs, weights and biases is real. -/
theorem isReal_mlpRow {a b c : ℕ} {u : Fin a → EReal} {w1 : Fin a → Fin b → EReal} {b1 : Fin b → EReal}
    {w2 : Fin b → Fin c → EReal} {b2 : Fin c → EReal} (hu : ∀ j, IsReal (u j))
    (hw1 : ∀ j k, IsReal (w1 j k)) (hb1 : ∀ k, IsReal (b1 k)) (hw2 : ∀ k q, IsReal (w2 k q))
    (hb2 : ∀ q, IsReal (b2 q)) (q : Fin c) : IsReal (mlpRow u w1 b1 w2 b2 q) := by
  unfold mlpRow
  exact (IsReal.sum _ _ (fun k _ =>
    (((IsReal.sum _ _ (fun j _ => (hu j).mul (hw1 j k))).add (hb1 k)).max isReal_zero).mul (hw2 k q))).add
      (hb2 q)

/-- A row of the neighbourhood layer with real inputs, weights and bias is real. -/
theorem isReal_sageRow {a c : ℕ} {nb h : Fin a → EReal} {wl : Fin a → Fin c → EReal} {bl : Fin c → EReal}
    {wr : Fin a → Fin c → EReal} (hnb : ∀ k, IsReal (nb k)) (hh : ∀ k, IsReal (h k))
    (hwl : ∀ k q, IsReal (wl k q)) (hbl : ∀ q, IsReal (bl q)) (hwr : ∀ k q, IsReal (wr k q)) (q : Fin c) :
    IsReal (sageRow nb h wl bl wr q) := by
  unfold sageRow
  exact ((IsReal.sum _ _ (fun k _ => (hnb k).mul (hwl k q))).add (hbl q)).add
    (IsReal.sum _ _ (fun k _ => (hh k).mul (hwr k q)))

/-- A normalised, scaled, shifted and rectified entry is real when its five inputs are and the variance is
    nonnegative. -/
theorem isReal_bnrelu {h mu var g b : EReal} (hh : IsReal h) (hmu : IsReal mu) (hvar : IsReal var)
    (h0 : 0 ≤ var) (hg : IsReal g) (hb : IsReal b) : IsReal (bnrelu h mu var g b) := by
  unfold bnrelu
  exact ((((hh.sub hmu).mul (isReal_rsqrt_add_eps hvar h0)).mul hg).add hb).max isReal_zero

/-! ### Along the reference program -/

section Chain

open Cert.ReferenceIdeal Cert.ReferenceIdeal.Gen Cert.ReferenceIdeal.Read Idealize.ShloMosaic.TcCoe Idealize.SL.Sem
  Idealize.ShloMosaic.StableHlo Idealize.ShloMosaic.ValueIdx Idealize.ShloMosaic.SegmentIdx

/-- The argument arrays, at the extended reals. -/
abbrev A50000x8 : Type := (⟨S50000x8, .f32⟩ : BufTy).Contents (Elt Ideal)
abbrev A2x1600000 : Type := (⟨S2x1600000, .i32⟩ : BufTy).Contents (Elt Ideal)
abbrev A8x64 : Type := (⟨S8x64, .f32⟩ : BufTy).Contents (Elt Ideal)
abbrev A64x64 : Type := (⟨S64x64, .f32⟩ : BufTy).Contents (Elt Ideal)
abbrev A64 : Type := (⟨S64, .f32⟩ : BufTy).Contents (Elt Ideal)

/-- The zero table the first aggregation accumulates into. -/
theorem v11_eq_zero (i : S50000x8.Idx) : val_main_v11 (F := Ideal) i = 0 := by
  rw [val_main_v11_apply, val_main_cst_apply]
  exact ofBits_zero

/-- The first aggregation at an entry: over every edge whose destination word is `p`, the row of `x0` its
    (normalised, clamped) source word names. -/
theorem v13_apply (x0 : A50000x8) (x1 : A2x1600000) (p : Fin 50000) (j : Fin 8) :
    val_main_v13 (F := Ideal) x0 x1 (ix2 p j)
      = 0 + ∑ e : Fin 1600000, if (val_main_v12 (F := Ideal) x1 (ix2 e 0)).toInt = (p.val : ℤ)
          then x0 (ix2 (clampRow 50000 (by decide) (val_main_v9 (F := Ideal) x1 (ix2 e 0))) j) else 0 := by
  have h := scatterAddRows_apply (N := 50000) (E := 1600000) (K := 8) (φ := .f32)
    scatter_S50000x8_S1600000x1_S1600000x8_1_0_0_1_wf (val_main_v11 (F := Ideal))
    (val_main_v12 (F := Ideal) x1) (val_main_v10 (F := Ideal) x0 x1) p j
  refine (show val_main_v13 (F := Ideal) x0 x1 (ix2 p j) = _ from h).trans ?_
  rw [v11_eq_zero]
  refine congrArg (fun s => (0 : EReal) + s) (Finset.sum_congr rfl (fun e _ => ?_))
  have hg : val_main_v10 (F := Ideal) x0 x1 (ix2 e j)
      = x0 (ix2 (clampRow 50000 (by decide) (val_main_v9 (F := Ideal) x1 (ix2 e 0))) j) :=
    gatherRows_apply (N := 50000) (E := 1600000) (K := 8) (by decide)
      gather_S50000x8_S1600000x1_S1600000x8_1_0_n_n_0_1_18_wf x0 (val_main_v9 (F := Ideal) x1) e j
  rw [hg]

/-- Every entry of the first aggregation is real when the node features are. -/
theorem isReal_v13 (x0 : A50000x8) (x1 : A2x1600000) (hx0 : ∀ i, IsReal (x0 i)) (p : Fin 50000)
    (j : Fin 8) : IsReal (val_main_v13 (F := Ideal) x0 x1 (ix2 p j)) := by
  rw [v13_apply]
  exact isReal_zero.add (IsReal.sum _ _ (fun e _ => IsReal.ite (hx0 _) isReal_zero))

/-- Every entry after the first perceptron is real, given its reading as a perceptron row. -/
theorem isReal_v23 (x0 : A50000x8) (x1 : A2x1600000) (x3 : A8x64) (x4 : A64) (x5 : A64x64) (x6 : A64)
    (hx0 : ∀ i, IsReal (x0 i)) (hx3 : ∀ i, IsReal (x3 i)) (hx4 : ∀ i, IsReal (x4 i))
    (hx5 : ∀ i, IsReal (x5 i)) (hx6 : ∀ i, IsReal (x6 i))
    (hD1 : ∀ (p : Fin 50000) (q : Fin 64), val_main_v23 (F := Ideal) x0 x1 x3 x4 x5 x6 (ix2 p q)
      = Cert.Spec.mlpRow (fun j : Fin 8 => x0 (ix2 p j) + val_main_v13 (F := Ideal) x0 x1 (ix2 p j))
          (fun j k => x3 (ix2 j k)) (fun k => x4 (ix1 k)) (fun k q => x5 (ix2 k q)) (fun q => x6 (ix1 q)) q)
    (p : Fin 50000) (q : Fin 64) : IsReal (val_main_v23 (F := Ideal) x0 x1 x3 x4 x5 x6 (ix2 p q)) := by
  rw [hD1]
  exact isReal_mlpRow (fun j => (hx0 _).add (isReal_v13 x0 x1 hx0 p j)) (fun j k => hx3 _) (fun k => hx4 _)
    (fun k q => hx5 _) (fun q => hx6 _) q

/-- A column's mean is real when the column's entries are. -/
theorem isReal_mean_col {h : Fin 50000 → EReal} {m : EReal} (hh : ∀ p, IsReal (h p))
    (hm : m = Ideal.div (∑ p : Fin 50000, h p) (Ideal.ofBits .f32 0x47435000#32)) : IsReal m := by
  rw [hm, ofBits_50000]
  exact isReal_mean h hh (by norm_num)

/-- A column's variance is real and nonnegative when the column's entries are real. -/
theorem isReal_var_col {h : Fin 50000 → EReal} {m v : EReal} (hh : ∀ p, IsReal (h p))
    (hm : m = Ideal.div (∑ p : Fin 50000, h p) (Ideal.ofBits .f32 0x47435000#32))
    (hv : v = Ideal.div (∑ p : Fin 50000, (h p - m) * (h p - m)) (Ideal.ofBits .f32 0x47435000#32)) :
    IsReal v ∧ 0 ≤ v := by
  rw [hv, hm, ofBits_50000]
  exact ⟨isReal_variance h hh (by norm_num), variance_nonneg h hh 50000 (by norm_num) (by simp)⟩

/-- The reference's column means are real. -/
theorem isReal_v26 (x0 : A50000x8) (x1 : A2x1600000) (x3 : A8x64) (x4 : A64) (x5 : A64x64) (x6 : A64)
    (h23 : ∀ (p : Fin 50000) (q : Fin 64), IsReal (val_main_v23 (F := Ideal) x0 x1 x3 x4 x5 x6 (ix2 p q)))
    (hD2a : ∀ q : Fin 64, val_main_v26 (F := Ideal) x0 x1 x3 x4 x5 x6 (ix1 q)
      = Ideal.div (∑ p : Fin 50000, val_main_v23 (F := Ideal) x0 x1 x3 x4 x5 x6 (ix2 p q))
          (Ideal.ofBits .f32 0x47435000#32))
    (q : Fin 64) : IsReal (val_main_v26 (F := Ideal) x0 x1 x3 x4 x5 x6 (ix1 q)) :=
  isReal_mean_col (fun p => h23 p q) (hD2a q)

/-- The reference's column variances are real and nonnegative. -/
theorem isReal_v33 (x0 : A50000x8) (x1 : A2x1600000) (x3 : A8x64) (x4 : A64) (x5 : A64x64) (x6 : A64)
    (h23 : ∀ (p : Fin 50000) (q : Fin 64), IsReal (val_main_v23 (F := Ideal) x0 x1 x3 x4 x5 x6 (ix2 p q)))
    (hD2a : ∀ q : Fin 64, val_main_v26 (F := Ideal) x0 x1 x3 x4 x5 x6 (ix1 q)
      = Ideal.div (∑ p : Fin 50000, val_main_v23 (F := Ideal) x0 x1 x3 x4 x5 x6 (ix2 p q))
          (Ideal.ofBits .f32 0x47435000#32))
    (hD2b : ∀ q : Fin 64, val_main_v33 (F := Ideal) x0 x1 x3 x4 x5 x6 (ix1 q)
      = Ideal.div (∑ p : Fin 50000,
            (val_main_v23 (F := Ideal) x0 x1 x3 x4 x5 x6 (ix2 p q)
              - val_main_v26 (F := Ideal) x0 x1 x3 x4 x5 x6 (ix1 q))
            * (val_main_v23 (F := Ideal) x0 x1 x3 x4 x5 x6 (ix2 p q)
              - val_main_v26 (F := Ideal) x0 x1 x3 x4 x5 x6 (ix1 q)))
          (Ideal.ofBits .f32 0x47435000#32))
    (q : Fin 64) :
    IsReal (val_main_v33 (F := Ideal) x0 x1 x3 x4 x5 x6 (ix1 q))
      ∧ 0 ≤ val_main_v33 (F := Ideal) x0 x1 x3 x4 x5 x6 (ix1 q) :=
  isReal_var_col (fun p => h23 p q) (hD2a q) (hD2b q)

/-- Every normalised and rectified entry is real. -/
theorem isReal_v49 (x0 : A50000x8) (x1 : A2x1600000) (x3 : A8x64) (x4 : A64) (x5 : A64x64) (x6 x7 x8 : A64)
    (hx7 : ∀ i, IsReal (x7 i)) (hx8 : ∀ i, IsReal (x8 i))
    (h23 : ∀ (p : Fin 50000) (q : Fin 64), IsReal (val_main_v23 (F := Ideal) x0 x1 x3 x4 x5 x6 (ix2 p q)))
    (h26 : ∀ q : Fin 64, IsReal (val_main_v26 (F := Ideal) x0 x1 x3 x4 x5 x6 (ix1 q)))
    (h33 : ∀ q : Fin 64, IsReal (val_main_v33 (F := Ideal) x0 x1 x3 x4 x5 x6 (ix1 q))
      ∧ 0 ≤ val_main_v33 (F := Ideal) x0 x1 x3 x4 x5 x6 (ix1 q))
    (hD3 : ∀ (p : Fin 50000) (q : Fin 64), val_main_v49 (F := Ideal) x0 x1 x3 x4 x5 x6 x7 x8 (ix2 p q)
      = Cert.Spec.bnrelu (val_main_v23 (F := Ideal) x0 x1 x3 x4 x5 x6 (ix2 p q))
          (val_main_v26 (F := Ideal) x0 x1 x3 x4 x5 x6 (ix1 q))
          (val_main_v33 (F := Ideal) x0 x1 x3 x4 x5 x6 (ix1 q)) (x7 (ix1 q)) (x8 (ix1 q)))
    (p : Fin 50000) (q : Fin 64) : IsReal (val_main_v49 (F := Ideal) x0 x1 x3 x4 x5 x6 x7 x8 (ix2 p q)) := by
  rw [hD3]
  exact isReal_bnrelu (h23 p q) (h26 q) (h33 q).1 (h33 q).2 (hx7 _) (hx8 _)

/-- The in-degree count at a node: the number of edges whose destination word is `n`, a sum of ones. -/
theorem v63_apply (x1 : A2x1600000) (n : Fin 50000) :
    val_main_v63 (F := Ideal) x1 (ix1 n)
      = 0 + ∑ e : Fin 1600000,
          if (val_main_v62 (F := Ideal) x1 (ix2 e 0)).toInt = (n.val : ℤ) then (1 : EReal) else 0 := by
  have h := scatterAddFlat_apply (N := 50000) (E := 1600000) (φ := .f32)
    scatter_S50000_S1600000x1_S1600000_n_0_0_1_wf (val_main_v61 (F := Ideal))
    (val_main_v62 (F := Ideal) x1) (val_main_v60 (F := Ideal)) n
  refine (show val_main_v63 (F := Ideal) x1 (ix1 n) = _ from h).trans ?_
  have h61 : val_main_v61 (F := Ideal) (ix1 n) = 0 := by
    rw [val_main_v61_apply, val_main_cst_10_apply]; exact ofBits_zero
  have h60 : ∀ e : Fin 1600000, val_main_v60 (F := Ideal) (ix1 e) = 1 := fun e => by
    rw [val_main_v60_apply, val_main_cst_9_apply]; exact ofBits_one.trans EReal.coe_one
  rw [h61]
  refine congrArg (fun s => (0 : EReal) + s) (Finset.sum_congr rfl (fun e _ => ?_))
  rw [h60]

theorem isReal_v63_ix1 (x1 : A2x1600000) (n : Fin 50000) :
    IsReal (val_main_v63 (F := Ideal) x1 (ix1 n)) := by
  rw [v63_apply]
  exact isReal_zero.add (IsReal.sum _ _ (fun e _ => IsReal.ite isReal_one isReal_zero))

theorem isReal_v63 (x1 : A2x1600000) (j : S50000.Idx) : IsReal (val_main_v63 (F := Ideal) x1 j) :=
  (congrArg (fun t => IsReal (val_main_v63 (F := Ideal) x1 t)) (eq_ix1 j)).mpr (isReal_v63_ix1 x1 (j 0))

/-- The divisor of the neighbourhood mean: the larger of the in-degree and one. -/
theorem v67_apply (x1 : A2x1600000) (i : S50000x64.Idx) :
    val_main_v67 (F := Ideal) x1 i
      = max (val_main_v63 (F := Ideal) x1 (idx_main_v66 (idx_main_v67 i))) (1 : EReal) := by
  rw [val_main_v67_apply, val_main_v66_apply, val_main_v65_apply, val_main_v64_apply,
    val_main_cst_11_apply]
  exact congrArg (fun t => max (val_main_v63 (F := Ideal) x1 (idx_main_v66 (idx_main_v67 i))) t)
    (ofBits_one.trans EReal.coe_one)

/-- The second aggregation at an entry: over every edge whose destination word is `n`, the row of the
    normalised features its (normalised, clamped) source word names. -/
theorem v59_apply (x0 : A50000x8) (x1 : A2x1600000) (x3 : A8x64) (x4 : A64) (x5 : A64x64) (x6 x7 x8 : A64)
    (n : Fin 50000) (k : Fin 64) :
    val_main_v59 (F := Ideal) x0 x1 x3 x4 x5 x6 x7 x8 (ix2 n k)
      = 0 + ∑ e : Fin 1600000, if (val_main_v58 (F := Ideal) x1 (ix2 e 0)).toInt = (n.val : ℤ)
          then val_main_v49 (F := Ideal) x0 x1 x3 x4 x5 x6 x7 x8
            (ix2 (clampRow 50000 (by decide) (val_main_v55 (F := Ideal) x1 (ix2 e 0))) k) else 0 := by
  have h := scatterAddRows_apply (N := 50000) (E := 1600000) (K := 64) (φ := .f32)
    scatter_S50000x64_S1600000x1_S1600000x64_1_0_0_1_wf (val_main_v57 (F := Ideal))
    (val_main_v58 (F := Ideal) x1) (val_main_v56 (F := Ideal) x0 x1 x3 x4 x5 x6 x7 x8) n k
  refine (show val_main_v59 (F := Ideal) x0 x1 x3 x4 x5 x6 x7 x8 (ix2 n k) = _ from h).trans ?_
  have h57 : val_main_v57 (F := Ideal) (ix2 n k) = 0 := by
    rw [val_main_v57_apply, val_main_cst_8_apply]; exact ofBits_zero
  rw [h57]
  refine congrArg (fun s => (0 : EReal) + s) (Finset.sum_congr rfl (fun e _ => ?_))
  have hg : val_main_v56 (F := Ideal) x0 x1 x3 x4 x5 x6 x7 x8 (ix2 e k)
      = val_main_v49 (F := Ideal) x0 x1 x3 x4 x5 x6 x7 x8
          (ix2 (clampRow 50000 (by decide) (val_main_v55 (F := Ideal) x1 (ix2 e 0))) k) :=
    gatherRows_apply (N := 50000) (E := 1600000) (K := 64) (by decide)
      gather_S50000x64_S1600000x1_S1600000x64_1_0_n_n_0_1_164_wf
      (val_main_v49 (F := Ideal) x0 x1 x3 x4 x5 x6 x7 x8) (val_main_v55 (F := Ideal) x1) e k
  rw [hg]

theorem isReal_v59 (x0 : A50000x8) (x1 : A2x1600000) (x3 : A8x64) (x4 : A64) (x5 : A64x64) (x6 x7 x8 : A64)
    (h49 : ∀ (p : Fin 50000) (q : Fin 64),
      IsReal (val_main_v49 (F := Ideal) x0 x1 x3 x4 x5 x6 x7 x8 (ix2 p q)))
    (n : Fin 50000) (k : Fin 64) : IsReal (val_main_v59 (F := Ideal) x0 x1 x3 x4 x5 x6 x7 x8 (ix2 n k)) := by
  rw [v59_apply]
  exact isReal_zero.add (IsReal.sum _ _ (fun e _ => IsReal.ite (h49 _ _) isReal_zero))

/-- Every entry of the neighbourhood mean is real. -/
theorem isReal_v68 (x0 : A50000x8) (x1 : A2x1600000) (x3 : A8x64) (x4 : A64) (x5 : A64x64) (x6 x7 x8 : A64)
    (h49 : ∀ (p : Fin 50000) (q : Fin 64),
      IsReal (val_main_v49 (F := Ideal) x0 x1 x3 x4 x5 x6 x7 x8 (ix2 p q)))
    (p : Fin 50000) (q : Fin 64) : IsReal (val_main_v68 (F := Ideal) x0 x1 x3 x4 x5 x6 x7 x8 (ix2 p q)) := by
  rw [val_main_v68_apply, Ideal.hostDivf_def, v67_apply]
  exact (isReal_v59 x0 x1 x3 x4 x5 x6 x7 x8 h49 p q).div_max_one (isReal_v63 x1 _)

/-- Every entry of the neighbourhood layer is real, given its reading as a layer row. -/
theorem isReal_v74 (x0 : A50000x8) (x1 : A2x1600000) (x3 : A8x64) (x4 : A64) (x5 : A64x64) (x6 x7 x8 : A64)
    (x9 : A64x64) (x10 : A64) (x11 : A64x64)
    (hx9 : ∀ i, IsReal (x9 i)) (hx10 : ∀ i, IsReal (x10 i)) (hx11 : ∀ i, IsReal (x11 i))
    (h49 : ∀ (p : Fin 50000) (q : Fin 64),
      IsReal (val_main_v49 (F := Ideal) x0 x1 x3 x4 x5 x6 x7 x8 (ix2 p q)))
    (hD4 : ∀ (p : Fin 50000) (q : Fin 64),
      val_main_v74 (F := Ideal) x0 x1 x3 x4 x5 x6 x7 x8 x9 x10 x11 (ix2 p q)
        = Cert.Spec.sageRow (fun k : Fin 64 => val_main_v68 (F := Ideal) x0 x1 x3 x4 x5 x6 x7 x8 (ix2 p k))
            (fun k : Fin 64 => val_main_v49 (F := Ideal) x0 x1 x3 x4 x5 x6 x7 x8 (ix2 p k))
            (fun k q => x9 (ix2 k q)) (fun q => x10 (ix1 q)) (fun k q => x11 (ix2 k q)) q)
    (p : Fin 50000) (q : Fin 64) :
    IsReal (val_main_v74 (F := Ideal) x0 x1 x3 x4 x5 x6 x7 x8 x9 x10 x11 (ix2 p q)) := by
  rw [hD4]
  exact isReal_sageRow (fun k => isReal_v68 x0 x1 x3 x4 x5 x6 x7 x8 h49 p k) (fun k => h49 p k)
    (fun k q => hx9 _) (fun q => hx10 _) (fun k q => hx11 _) q

/-- The whole chain at once: from real float arguments and the four readings, every intermediate value named
    here is real (and the variances nonnegative). -/
theorem ref_chain (x0 : A50000x8) (x1 : A2x1600000) (x3 : A8x64) (x4 : A64) (x5 : A64x64) (x6 x7 x8 : A64)
    (x9 : A64x64) (x10 : A64) (x11 : A64x64)
    (hx0 : ∀ i, IsReal (x0 i)) (hx3 : ∀ i, IsReal (x3 i)) (hx4 : ∀ i, IsReal (x4 i))
    (hx5 : ∀ i, IsReal (x5 i)) (hx6 : ∀ i, IsReal (x6 i)) (hx7 : ∀ i, IsReal (x7 i))
    (hx8 : ∀ i, IsReal (x8 i)) (hx9 : ∀ i, IsReal (x9 i)) (hx10 : ∀ i, IsReal (x10 i))
    (hx11 : ∀ i, IsReal (x11 i))
    (hD1 : ∀ (p : Fin 50000) (q : Fin 64), val_main_v23 (F := Ideal) x0 x1 x3 x4 x5 x6 (ix2 p q)
      = Cert.Spec.mlpRow (fun j : Fin 8 => x0 (ix2 p j) + val_main_v13 (F := Ideal) x0 x1 (ix2 p j))
          (fun j k => x3 (ix2 j k)) (fun k => x4 (ix1 k)) (fun k q => x5 (ix2 k q)) (fun q => x6 (ix1 q)) q)
    (hD2a : ∀ q : Fin 64, val_main_v26 (F := Ideal) x0 x1 x3 x4 x5 x6 (ix1 q)
      = Ideal.div (∑ p : Fin 50000, val_main_v23 (F := Ideal) x0 x1 x3 x4 x5 x6 (ix2 p q))
          (Ideal.ofBits .f32 0x47435000#32))
    (hD2b : ∀ q : Fin 64, val_main_v33 (F := Ideal) x0 x1 x3 x4 x5 x6 (ix1 q)
      = Ideal.div (∑ p : Fin 50000,
            (val_main_v23 (F := Ideal) x0 x1 x3 x4 x5 x6 (ix2 p q)
              - val_main_v26 (F := Ideal) x0 x1 x3 x4 x5 x6 (ix1 q))
            * (val_main_v23 (F := Ideal) x0 x1 x3 x4 x5 x6 (ix2 p q)
              - val_main_v26 (F := Ideal) x0 x1 x3 x4 x5 x6 (ix1 q)))
          (Ideal.ofBits .f32 0x47435000#32))
    (hD3 : ∀ (p : Fin 50000) (q : Fin 64), val_main_v49 (F := Ideal) x0 x1 x3 x4 x5 x6 x7 x8 (ix2 p q)
      = Cert.Spec.bnrelu (val_main_v23 (F := Ideal) x0 x1 x3 x4 x5 x6 (ix2 p q))
          (val_main_v26 (F := Ideal) x0 x1 x3 x4 x5 x6 (ix1 q))
          (val_main_v33 (F := Ideal) x0 x1 x3 x4 x5 x6 (ix1 q)) (x7 (ix1 q)) (x8 (ix1 q)))
    (hD4 : ∀ (p : Fin 50000) (q : Fin 64),
      val_main_v74 (F := Ideal) x0 x1 x3 x4 x5 x6 x7 x8 x9 x10 x11 (ix2 p q)
        = Cert.Spec.sageRow (fun k : Fin 64 => val_main_v68 (F := Ideal) x0 x1 x3 x4 x5 x6 x7 x8 (ix2 p k))
            (fun k : Fin 64 => val_main_v49 (F := Ideal) x0 x1 x3 x4 x5 x6 x7 x8 (ix2 p k))
            (fun k q => x9 (ix2 k q)) (fun q => x10 (ix1 q)) (fun k q => x11 (ix2 k q)) q) :
    (∀ (p : Fin 50000) (q : Fin 64), IsReal (val_main_v23 (F := Ideal) x0 x1 x3 x4 x5 x6 (ix2 p q)))
    ∧ (∀ q : Fin 64, IsReal (val_main_v26 (F := Ideal) x0 x1 x3 x4 x5 x6 (ix1 q)))
    ∧ (∀ q : Fin 64, IsReal (val_main_v33 (F := Ideal) x0 x1 x3 x4 x5 x6 (ix1 q))
        ∧ 0 ≤ val_main_v33 (F := Ideal) x0 x1 x3 x4 x5 x6 (ix1 q))
    ∧ (∀ (p : Fin 50000) (q : Fin 64), IsReal (val_main_v49 (F := Ideal) x0 x1 x3 x4 x5 x6 x7 x8 (ix2 p q)))
    ∧ (∀ (p : Fin 50000) (q : Fin 64), IsReal (val_main_v68 (F := Ideal) x0 x1 x3 x4 x5 x6 x7 x8 (ix2 p q)))
    ∧ (∀ (p : Fin 50000) (q : Fin 64),
        IsReal (val_main_v74 (F := Ideal) x0 x1 x3 x4 x5 x6 x7 x8 x9 x10 x11 (ix2 p q))) := by
  have h23 := isReal_v23 x0 x1 x3 x4 x5 x6 hx0 hx3 hx4 hx5 hx6 hD1
  have h26 := isReal_v26 x0 x1 x3 x4 x5 x6 h23 hD2a
  have h33 := isReal_v33 x0 x1 x3 x4 x5 x6 h23 hD2a hD2b
  have h49 := isReal_v49 x0 x1 x3 x4 x5 x6 x7 x8 hx7 hx8 h23 h26 h33 hD3
  exact ⟨h23, h26, h33, h49, isReal_v68 x0 x1 x3 x4 x5 x6 x7 x8 h49,
    isReal_v74 x0 x1 x3 x4 x5 x6 x7 x8 x9 x10 x11 hx9 hx10 hx11 h49 hD4⟩

end Chain

end Cert.RefFinite

end
-- ==== Proof.BridgeB.lean ====
/-
  The kernel program against the reference, second part: the column mean and variance of the perceptron's result
  (the kernel program's from its per-block sums and sums of squares, by the mean of squares minus the squared mean
  cut off at zero; the reference's as the mean of the squared deviations — equal because every entry is a real
  number), the first batch-normalised layer, and the neighbours' mean.
-/
import proofs.«119119_j46677704573771_2_alg».proof.Proof.Gen.KernelIdeal.Frame
import proofs.«119119_j46677704573771_2_alg».proof.Proof.Gen.ReferenceIdeal.Read
import proofs.«119119_j46677704573771_2_alg».proof.Proof.BridgeA
import proofs.«119119_j46677704573771_2_alg».proof.Proof.Region0b
import proofs.«119119_j46677704573771_2_alg».proof.Proof.Region1
import proofs.«119119_j46677704573771_2_alg».proof.Proof.StatBridge
import proofs.«119119_j46677704573771_2_alg».proof.Proof.RefFinite
import proofs.«119119_j46677704573771_2_alg».proof.Proof.RealFacts
import Idealize.ShloMosaic.Lib.ValueLayout

set_option maxRecDepth 16384

noncomputable section

namespace Cert.Bridge

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The reference's perceptron stage of core `c`'s argument arrays. -/
abbrev H2 : S50000x64.Idx → EReal :=
  Cert.ReferenceIdeal.Read.val_main_v23 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))

/-- What the precondition says of each float argument array. -/
theorem decoded (h : PreAt m c) : Cert.PreFacts.Decoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  Cert.PreFacts.decode _ _ _ _ _ _ _ _ _ _ _ _ _ _ _ _ _ _ h

/-- Every entry of the perceptron's result is a real number. -/
theorem h2_real (h : PreAt m c) (i : S50000x64.Idx) : Cert.Alg.IsReal (H2 m c i) := by
  have D := decoded m c h
  rw [eq_ix2 i]
  exact Cert.RefFinite.isReal_v23 _ _ _ _ _ _ D.real0 D.real3 D.real4 D.real5 D.real6
    (fun p q => Cert.RefRead.v23_eq _ _ _ _ _ _ p q) (i 0) (i 1)

/-- The first region's main output as the closed form of its entry contents is the reference's stage. -/
theorem g6_eq (h : PreAt m c) :
    Cert.Region0.G6 (V1 m ρ c main_arg0) (V1 m ρ c main_v18) (V1 m ρ c main_arg3) (V1 m ρ c main_v19) (V1 m ρ c main_arg5) (V1 m ρ c main_v20)
      = H2 m c :=
  ((W2_arr m ρ c 6).trans (Cert.Region0.final6 (V1 m ρ) c)).symm.trans (h2_eq m ρ c h)

/-- The per-block column sums and sums of squares the first region leaves. -/
theorem s1_eq (h : PreAt m c) :
    (W2 m ρ c (Proc.devRef .tc main_v21_1) : S80x64.Idx → EReal) = Cert.Region0.stat (fun x => x) (H2 m c) := by
  refine ((W2_arr m ρ c 7).trans (Cert.Region0.final7 (V1 m ρ) c)).trans ?_
  rw [g6_eq m ρ c h]

theorem q1_eq (h : PreAt m c) :
    (W2 m ρ c (Proc.devRef .tc main_v21_2) : S80x64.Idx → EReal) = Cert.Region0.stat (fun x => x * x) (H2 m c) := by
  refine ((W2_arr m ρ c 8).trans (Cert.Region0.final8 (V1 m ρ) c)).trans ?_
  rw [g6_eq m ρ c h]

/-- THE FIRST COLUMN MEAN. -/
theorem mu1_eq (h : PreAt m c) (q : Fin 64) :
    (V3 m ρ c main_v32 : S1x64.Idx → EReal) (ix2 0 q)
      = Cert.ReferenceIdeal.Read.val_main_v26 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix1 q) := by
  rw [show (V3 m ρ c main_v32 : S1x64.Idx → EReal) = _ from Cert.HostReads.s1_v32 (W2 m ρ c), row_of_vec, s1_eq m ρ c h,
    Cert.StatBridge.colMean_stat_id, Cert.RefRead.v26_eq]

/-- THE FIRST COLUMN VARIANCE. -/
theorem var1_eq (h : PreAt m c) (q : Fin 64) :
    (V3 m ρ c main_v33 : S1x64.Idx → EReal) (ix2 0 q)
      = Cert.ReferenceIdeal.Read.val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix1 q) := by
  rw [show (V3 m ρ c main_v33 : S1x64.Idx → EReal) = _ from Cert.HostReads.s1_v33 (W2 m ρ c), row_of_vec, s1_eq m ρ c h, q1_eq m ρ c h,
    Cert.StatBridge.colVar_stat (H2 m c) (h2_real m c h), Cert.RefRead.v33_eq, Cert.RefRead.v26_eq]

/-- THE FIRST NORMALISED LAYER: the second region's output array is the reference's stage. -/
theorem h_eq (h : PreAt m c) :
    (W4 m ρ c (Proc.devRef .tc main_v36) : S50000x64.Idx → EReal)
      = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W4_arr m ρ c 5).trans (Cert.Region1.arr_eq (V3 m ρ) c)).trans ?_
  funext j
  obtain ⟨p, q, rfl⟩ : ∃ (p : Fin 50000) (q : Fin 64), j = ix2 p q := ⟨j 0, j 1, eq_ix2 j⟩
  show Cert.Spec.bnrelu ((V3 m ρ c main_v21_0 : S50000x64.Idx → EReal) (ix2 p q)) ((V3 m ρ c main_v32 : S1x64.Idx → EReal) (ix2 0 q))
    ((V3 m ρ c main_v33 : S1x64.Idx → EReal) (ix2 0 q)) ((V3 m ρ c main_v34 : S1x64.Idx → EReal) (ix2 0 q))
    ((V3 m ρ c main_v35 : S1x64.Idx → EReal) (ix2 0 q)) = _
  rw [mu1_eq m ρ c h, var1_eq m ρ c h,
    show (V3 m ρ c main_v21_0 : S50000x64.Idx → EReal) = H2 m c from (Cert.Carry.keep1_main_v21_0 (W2 m ρ c)).trans (h2_eq m ρ c h),
    show (V3 m ρ c main_v34 : S1x64.Idx → EReal) = _ from Cert.HostReads.s1_v34 (W2 m ρ c),
    show (V3 m ρ c main_v35 : S1x64.Idx → EReal) = _ from Cert.HostReads.s1_v35 (W2 m ρ c), row_of_vec, row_of_vec,
    show (W2 m ρ c (Proc.devRef .tc main_arg7) : S64.Idx → EReal) = _ from Cert.Carry.main_arg7_at2 m ρ c,
    show (W2 m ρ c (Proc.devRef .tc main_arg8) : S64.Idx → EReal) = _ from Cert.Carry.main_arg8_at2 m ρ c,
    Cert.RefRead.v49_eq]

/-- THE NEIGHBOURS' MEAN: the kernel program's host lines and the reference's compute the same table. -/
theorem nb_eq (h : PreAt m c) :
    (V5 m ρ c main_v60 : S50000x64.Idx → EReal)
      = Cert.ReferenceIdeal.Read.val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (Cert.HostReads.s2_v60 (W4 m ρ c)).trans ?_
  rw [h_eq m ρ c h, Cert.Carry.main_v1_at4 m ρ c, Cert.Carry.main_v3_at4 m ρ c]
  unfold Cert.HostReads.nbMeanK
  rw [wrap_dst m c h]
  rfl

end Cert.Bridge

end
-- ==== Proof.Region2a.lean ====
/-
  The third region (the neighbourhood layer over the node rows, ten blocks of 5000 rows) and what it leaves in its
  first output array: row p of the result is the layer's row function of row p of the neighbours' mean and of the
  nodes' own features. A block's row i at grid point t is the array's row 5000 t + i; the weights and the bias
  are read whole at every point.
-/
import proofs.«119119_j46677704573771_2_alg».proof.Proof.Gen.KernelIdeal.Frame
import proofs.«119119_j46677704573771_2_alg».proof.Proof.Spec
import proofs.«119119_j46677704573771_2_alg».proof.Proof.Payloads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- The printed index maps over the ten grid points: the row-blocked windows sit at block t, the whole-array
    windows at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ t.val < 10 :=
  (by decide +kernel : ∀ t : Fin grid2.N, _)

theorem t_lt (t : Fin cfg2.N) : t.val < 10 := (idx_facts t).2.2.2.2.2.2.2.2.2.2.2.2.2.2.2.2

section Reads

variable (V : (c : Dev nD) → (b : Ref sig .tc) → Buf (Elt Ideal) ((c : Thread nD τ).loc b)) (c : Dev nD) (t : Fin cfg2.N)

/-- Row i of the first input's block (the neighbours' mean) at point t is row 5000 t + i of its array. -/
theorem read0 (i : Fin 5000) (k : Fin 64) (h : t.val * 5000 + i.val < 50000) :
    iblk2 (F := Ideal) V c 0 t (ix2 i k) = (V c main_v60 : S50000x64.Idx → EReal) (ix2 ⟨t.val * 5000 + i.val, h⟩ k) := by
  show (V c main_v60 : S50000x64.Idx → EReal) (((cfg2.win 0).blk t).view.emb (ix2 i k)) = _
  refine congrArg _ (funext fun a => Fin.ext ?_)
  obtain ⟨e0, e1, -⟩ := idx_facts t
  match a with
  | ⟨0, _⟩ => show win2_0.index t (0 : Fin 2) * 5000 + 1 * i.val = t.val * 5000 + i.val; omega
  | ⟨1, _⟩ => show win2_0.index t (1 : Fin 2) * 64 + 1 * k.val = k.val; omega

/-- The same of the second input (the nodes' own features). -/
theorem read1 (i : Fin 5000) (k : Fin 64) (h : t.val * 5000 + i.val < 50000) :
    iblk2 (F := Ideal) V c 1 t (ix2 i k) = (V c main_v36 : S50000x64.Idx → EReal) (ix2 ⟨t.val * 5000 + i.val, h⟩ k) := by
  show (V c main_v36 : S50000x64.Idx → EReal) (((cfg2.win 1).blk t).view.emb (ix2 i k)) = _
  refine congrArg _ (funext fun a => Fin.ext ?_)
  obtain ⟨-, -, e0, e1, -⟩ := idx_facts t
  match a with
  | ⟨0, _⟩ => show win2_1.index t (0 : Fin 2) * 5000 + 1 * i.val = t.val * 5000 + i.val; omega
  | ⟨1, _⟩ => show win2_1.index t (1 : Fin 2) * 64 + 1 * k.val = k.val; omega

/-- The neighbours' weight matrix is read whole. -/
theorem read2 (j : Fin 64) (k : Fin 64) :
    iblk2 (F := Ideal) V c 2 t (ix2 j k) = (V c main_arg9 : S64x64.Idx → EReal) (ix2 j k) := by
  show (V c main_arg9 : S64x64.Idx → EReal) (((cfg2.win 2).blk t).view.emb (ix2 j k)) = _
  refine congrArg _ (funext fun a => Fin.ext ?_)
  obtain ⟨-, -, -, -, e0, e1, -⟩ := idx_facts t
  match a with
  | ⟨0, _⟩ => show win2_2.index t (0 : Fin 2) * 64 + 1 * j.val = j.val; omega
  | ⟨1, _⟩ => show win2_2.index t (1 : Fin 2) * 64 + 1 * k.val = k.val; omega

/-- The bias row is read whole. -/
theorem read3 (j : Fin 1) (k : Fin 64) :
    iblk2 (F := Ideal) V c 3 t (ix2 j k) = (V c main_v61 : S1x64.Idx → EReal) (ix2 j k) := by
  show (V c main_v61 : S1x64.Idx → EReal) (((cfg2.win 3).blk t).view.emb (ix2 j k)) = _
  refine congrArg _ (funext fun a => Fin.ext ?_)
  obtain ⟨-, -, -, -, -, -, e0, e1, -⟩ := idx_facts t
  match a with
  | ⟨0, _⟩ => show win2_3.index t (0 : Fin 2) * 1 + 1 * j.val = j.val; omega
  | ⟨1, _⟩ => show win2_3.index t (1 : Fin 2) * 64 + 1 * k.val = k.val; omega

/-- The nodes' own weight matrix is read whole. -/
theorem read4 (j : Fin 64) (k : Fin 64) :
    iblk2 (F := Ideal) V c 4 t (ix2 j k) = (V c main_arg11 : S64x64.Idx → EReal) (ix2 j k) := by
  show (V c main_arg11 : S64x64.Idx → EReal) (((cfg2.win 4).blk t).view.emb (ix2 j k)) = _
  refine congrArg _ (funext fun a => Fin.ext ?_)
  obtain ⟨-, -, -, -, -, -, -, -, e0, e1, -⟩ := idx_facts t
  match a with
  | ⟨0, _⟩ => show win2_4.index t (0 : Fin 2) * 64 + 1 * j.val = j.val; omega
  | ⟨1, _⟩ => show win2_4.index t (1 : Fin 2) * 64 + 1 * k.val = k.val; omega

/-- Entry (i, q) of the first output's block at point t sits at row 5000 t + i of its array. -/
theorem emb5 (i : Fin 5000) (q : Fin 64) (h : t.val * 5000 + i.val < 50000) :
    ((cfg2.win 5).blk t).view.emb (ix2 i q) = (ix2 ⟨t.val * 5000 + i.val, h⟩ q : S50000x64.Idx) := by
  refine funext fun a => Fin.ext ?_
  obtain ⟨-, -, -, -, -, -, -, -, -, -, e0, e1, -⟩ := idx_facts t
  match a with
  | ⟨0, _⟩ => show win2_5.index t (0 : Fin 2) * 5000 + 1 * i.val = t.val * 5000 + i.val; omega
  | ⟨1, _⟩ => show win2_5.index t (1 : Fin 2) * 64 + 1 * q.val = q.val; omega

end Reads

/-- THE FIRST OUTPUT AS ONE FUNCTION OF THE REGION'S INPUT ARRAYS: row p is the neighbourhood layer's row function of
    row p of the neighbours' mean and of the nodes' own features. -/
def G5 (NB H : S50000x64.Idx → EReal) (WL : S64x64.Idx → EReal) (BL : S1x64.Idx → EReal) (WR : S64x64.Idx → EReal) :
    S50000x64.Idx → EReal := fun j =>
  Cert.Spec.sageRow (fun k : Fin 64 => NB (ix2 (j 0) k)) (fun k : Fin 64 => H (ix2 (j 0) k))
    (fun (k : Fin 64) (q : Fin 64) => WL (ix2 k q)) (fun q : Fin 64 => BL (ix2 0 q))
    (fun (k : Fin 64) (q : Fin 64) => WR (ix2 k q)) (j 1)

section Final

variable (V : (c : Dev nD) → (b : Ref sig .tc) → Buf (Elt Ideal) ((c : Thread nD τ).loc b)) (c : Dev nD)

/-- Entry (i, q) of the layer's payload at point t, read off the arrays, is G5 at row 5000 t + i. -/
theorem pay1_at (t : Fin cfg2.N) (i : Fin 5000) (q : Fin 64) (hb : t.val * 5000 + i.val < 50000) :
    k2_pay1 (iblk2 V c 0 t) (iblk2 V c 2 t) (iblk2 V c 3 t) (iblk2 V c 1 t) (iblk2 V c 4 t) (ix2 i q)
      = G5 (V c main_v60) (V c main_v36) (V c main_arg9) (V c main_v61) (V c main_arg11) (ix2 ⟨t.val * 5000 + i.val, hb⟩ q) := by
  refine (Cert.Payloads.sage_pay1_apply _ _ _ _ _ i q).trans ?_
  simp only [read0 V c t i _ hb, read1 V c t i _ hb, read2 V c t, read3 V c t, read4 V c t]
  rfl

/-- WHAT POINT t WRITES BACK to the first output is block t of G5 of the arrays as the region finds them. -/
theorem flushed5 (t : Fin cfg2.N) :
    (dat2 (F := Ideal) V c).flushed 5 t
      = ((cfg2.win 5).blk t).view.read (Elt Ideal) (G5 (V c main_v60) (V c main_v36) (V c main_arg9) (V c main_v61) (V c main_arg11)) := by
  show (cfg2.win 5).cut (grid2.coords t) ((dat2 V c).after 5 t) = _
  rw [after2_5]
  unfold out2_5
  rw [View.canon_unit_zero hz]
  simp only [View.ld_unit_zero (S := S5000x64) hz, View.ld_unit_zero (S := S1x64) hz, View.ld_unit_zero (S := S64x64) hz]
  funext y
  obtain ⟨i, q, rfl⟩ : ∃ (i : Fin 5000) (q : Fin 64), y = ix2 i q := ⟨y 0, y 1, eq_ix2 y⟩
  have hb : t.val * 5000 + i.val < 50000 := by have := i.isLt; have := t_lt t; omega
  show k2_pay1 (iblk2 V c 0 t) (iblk2 V c 2 t) (iblk2 V c 3 t) (iblk2 V c 1 t) (iblk2 V c 4 t) (ix2 i q)
    = G5 (V c main_v60) (V c main_v36) (V c main_arg9) (V c main_v61) (V c main_arg11) (((cfg2.win 5).blk t).view.emb (ix2 i q))
  rw [emb5 t i q hb]
  exact pay1_at V c t i q hb

/-- An index of the first output's array is in point t's block iff its row is one of the block's 5000. -/
theorem mem_blk5 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v62_0).slice (win2_5.rect t)).set ↔ _
  rw [View.set_slice_whole, Rect.mem_set_unit]
  exact Iff.rfl

/-- Every row is in the block of point row / 5000. -/
theorem cover5 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  refine ⟨t, flush2_5 t, ?_⟩
  rw [mem_blk5]
  obtain ⟨-, -, -, -, -, -, -, -, -, -, e0, e1, -⟩ := idx_facts t
  have ht : t.val = (i 0).val / 5000 := rfl
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE FIRST OUTPUT ARRAY after the region: G5 of the region's input arrays. -/
theorem final5 : (dat2 (F := Ideal) V c).arrAt 5 cfg2.N = G5 (V c main_v60) (V c main_v36) (V c main_arg9) (V c main_v61) (V c main_arg11) :=
  (dat2 (F := Ideal) V c).arrAt_eq_of_cover 5 _ (fun t _ => flushed5 V c t) (cover5)

end Final

end Cert.Region2

end
-- ==== Proof.Region2b.lean ====
/-
  The third region's two small outputs. At grid point t the body stores an [8, 64] block whose row 0 holds, per
  column, the sum over the block's 5000 rows of the layer's result (second output) or of its square (third output),
  and whose other seven rows are zero; block t sits at rows 8 t … 8 t + 7 of an [80, 64] array.
-/
import proofs.«119119_j46677704573771_2_alg».proof.Proof.Region2a
import proofs.«119119_j46677704573771_2_alg».proof.Proof.Stat

set_option maxRecDepth 16384

noncomputable section

namespace Cert.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Region0 (stat)

section Final

variable (V : (c : Dev nD) → (b : Ref sig .tc) → Buf (Elt Ideal) ((c : Thread nD τ).loc b)) (c : Dev nD)

local notation "G5V" => G5 (V c main_v60) (V c main_v36) (V c main_arg9) (V c main_v61) (V c main_arg11)

theorem emb6 (t : Fin cfg2.N) (r : Fin 8) (q : Fin 64) (h : t.val * 8 + r.val < 80) :
    ((cfg2.win 6).blk t).view.emb (ix2 r q) = (ix2 ⟨t.val * 8 + r.val, h⟩ q : S80x64.Idx) := by
  refine funext fun a => Fin.ext ?_
  obtain ⟨-, -, -, -, -, -, -, -, -, -, -, -, e0, e1, -⟩ := idx_facts t
  match a with
  | ⟨0, _⟩ => show win2_6.index t (0 : Fin 2) * 8 + 1 * r.val = t.val * 8 + r.val; omega
  | ⟨1, _⟩ => show win2_6.index t (1 : Fin 2) * 64 + 1 * q.val = q.val; omega

theorem emb7 (t : Fin cfg2.N) (r : Fin 8) (q : Fin 64) (h : t.val * 8 + r.val < 80) :
    ((cfg2.win 7).blk t).view.emb (ix2 r q) = (ix2 ⟨t.val * 8 + r.val, h⟩ q : S80x64.Idx) := by
  refine funext fun a => Fin.ext ?_
  obtain ⟨-, -, -, -, -, -, -, -, -, -, -, -, -, -, e0, e1, -⟩ := idx_facts t
  match a with
  | ⟨0, _⟩ => show win2_7.index t (0 : Fin 2) * 8 + 1 * r.val = t.val * 8 + r.val; omega
  | ⟨1, _⟩ => show win2_7.index t (1 : Fin 2) * 64 + 1 * q.val = q.val; omega

/-- The statistics array at row 8 t + r: the mask of r times block t's column sum. -/
theorem stat_at (f : EReal → EReal) (H : S50000x64.Idx → EReal) (t : Fin cfg2.N) (r : Fin 8) (q : Fin 64) (h : t.val * 8 + r.val < 80) :
    stat f H (ix2 ⟨t.val * 8 + r.val, h⟩ q)
      = (if r.val = 0 then (1 : EReal) else 0)
          * ∑ i : Fin 5000, f (H (ix2 ⟨t.val * 5000 + i.val, by have := i.isLt; have := t_lt t; omega⟩ q)) := by
  have hr := r.isLt
  have e1 : (t.val * 8 + r.val) % 8 = r.val := by omega
  have e2 : (t.val * 8 + r.val) / 8 = t.val := by omega
  unfold stat
  show (if (t.val * 8 + r.val) % 8 = 0 then (1 : EReal) else 0) * _ = _
  rw [e1]
  congr 1
  refine Finset.sum_congr rfl fun i _ => ?_
  refine congrArg f (congrArg H ?_)
  refine funext fun a => Fin.ext ?_
  match a with
  | ⟨0, _⟩ => show (t.val * 8 + r.val) / 8 * 5000 + i.val = t.val * 5000 + i.val; rw [e2]
  | ⟨1, _⟩ => rfl

/-- WHAT POINT t WRITES BACK to the second output: block t of the column sums of G5. -/
theorem flushed6 (t : Fin cfg2.N) :
    (dat2 (F := Ideal) V c).flushed 6 t = ((cfg2.win 6).blk t).view.read (Elt Ideal) (stat (fun x => x) G5V) := by
  show (cfg2.win 6).cut (grid2.coords t) ((dat2 V c).after 6 t) = _
  rw [after2_6]
  unfold out2_6
  rw [View.canon_unit_zero hz]
  simp only [View.ld_unit_zero (S := S5000x64) hz, View.ld_unit_zero (S := S1x64) hz, View.ld_unit_zero (S := S64x64) hz]
  funext y
  obtain ⟨r, q, rfl⟩ : ∃ (r : Fin 8) (q : Fin 64), y = ix2 r q := ⟨y 0, y 1, eq_ix2 y⟩
  have hb : t.val * 8 + r.val < 80 := by have := r.isLt; have := t_lt t; omega
  show k2_pay3 (iblk2 V c 0 t) (iblk2 V c 2 t) (iblk2 V c 3 t) (iblk2 V c 1 t) (iblk2 V c 4 t) (ix2 r q)
    = stat (fun x => x) G5V (((cfg2.win 6).blk t).view.emb (ix2 r q))
  rw [emb6 t r q hb, stat_at]
  refine (Cert.Payloads.sage_pay3_apply _ _ _ _ _ r q).trans ?_
  congr 1
  refine Finset.sum_congr rfl fun i _ => ?_
  exact pay1_at V c t i q _

/-- WHAT POINT t WRITES BACK to the third output: block t of the column sums of the squares of G5. -/
theorem flushed7 (t : Fin cfg2.N) :
    (dat2 (F := Ideal) V c).flushed 7 t = ((cfg2.win 7).blk t).view.read (Elt Ideal) (stat (fun x => x * x) G5V) := by
  show (cfg2.win 7).cut (grid2.coords t) ((dat2 V c).after 7 t) = _
  rw [after2_7]
  unfold out2_7
  rw [View.canon_unit_zero hz]
  simp only [View.ld_unit_zero (S := S5000x64) hz, View.ld_unit_zero (S := S1x64) hz, View.ld_unit_zero (S := S64x64) hz]
  funext y
  obtain ⟨r, q, rfl⟩ : ∃ (r : Fin 8) (q : Fin 64), y = ix2 r q := ⟨y 0, y 1, eq_ix2 y⟩
  have hb : t.val * 8 + r.val < 80 := by have := r.isLt; have := t_lt t; omega
  show k2_pay4 (iblk2 V c 0 t) (iblk2 V c 2 t) (iblk2 V c 3 t) (iblk2 V c 1 t) (iblk2 V c 4 t) (ix2 r q)
    = stat (fun x => x * x) G5V (((cfg2.win 7).blk t).view.emb (ix2 r q))
  rw [emb7 t r q hb, stat_at]
  refine (Cert.Payloads.sage_pay4_apply _ _ _ _ _ r q).trans ?_
  congr 1
  refine Finset.sum_congr rfl fun i _ => ?_
  rw [pay1_at V c t i q _]

theorem mem_blk6 (t : Fin cfg2.N) (i : S80x64.Idx) :
    i ∈ ((cfg2.win 6).blk t).view.set ↔ ∀ a : Fin 2, win2_6.index t a * S8x64.size a ≤ (i a).val ∧ (i a).val < win2_6.index t a * S8x64.size a + S8x64.size a := by
  show i ∈ ((View.whole main_v62_1).slice (win2_6.rect t)).set ↔ _
  rw [View.set_slice_whole, Rect.mem_set_unit]
  exact Iff.rfl

theorem cover6 (i : S80x64.Idx) : ∃ t : Fin cfg2.N, (cfg2.win 6).flush t = true ∧ i ∈ ((cfg2.win 6).blk t).view.set := by
  have hi0 : (i 0).val < 80 := (i 0).isLt
  have hi1 : (i 1).val < 64 := (i 1).isLt
  have hN : cfg2.N = 10 := N_2
  let t : Fin cfg2.N := ⟨(i 0).val / 8, by rw [hN]; omega⟩
  refine ⟨t, flush2_6 t, ?_⟩
  rw [mem_blk6]
  obtain ⟨-, -, -, -, -, -, -, -, -, -, -, -, e0, e1, -⟩ := idx_facts t
  have ht : t.val = (i 0).val / 8 := rfl
  intro a
  match a with
  | ⟨0, _⟩ => show win2_6.index t (0 : Fin 2) * 8 ≤ (i 0).val ∧ (i 0).val < win2_6.index t (0 : Fin 2) * 8 + 8; omega
  | ⟨1, _⟩ => show win2_6.index t (1 : Fin 2) * 64 ≤ (i 1).val ∧ (i 1).val < win2_6.index t (1 : Fin 2) * 64 + 64; omega

theorem mem_blk7 (t : Fin cfg2.N) (i : S80x64.Idx) :
    i ∈ ((cfg2.win 7).blk t).view.set ↔ ∀ a : Fin 2, win2_7.index t a * S8x64.size a ≤ (i a).val ∧ (i a).val < win2_7.index t a * S8x64.size a + S8x64.size a := by
  show i ∈ ((View.whole main_v62_2).slice (win2_7.rect t)).set ↔ _
  rw [View.set_slice_whole, Rect.mem_set_unit]
  exact Iff.rfl

theorem cover7 (i : S80x64.Idx) : ∃ t : Fin cfg2.N, (cfg2.win 7).flush t = true ∧ i ∈ ((cfg2.win 7).blk t).view.set := by
  have hi0 : (i 0).val < 80 := (i 0).isLt
  have hi1 : (i 1).val < 64 := (i 1).isLt
  have hN : cfg2.N = 10 := N_2
  let t : Fin cfg2.N := ⟨(i 0).val / 8, by rw [hN]; omega⟩
  refine ⟨t, flush2_7 t, ?_⟩
  rw [mem_blk7]
  obtain ⟨-, -, -, -, -, -, -, -, -, -, -, -, -, -, e0, e1, -⟩ := idx_facts t
  have ht : t.val = (i 0).val / 8 := rfl
  intro a
  match a with
  | ⟨0, _⟩ => show win2_7.index t (0 : Fin 2) * 8 ≤ (i 0).val ∧ (i 0).val < win2_7.index t (0 : Fin 2) * 8 + 8; omega
  | ⟨1, _⟩ => show win2_7.index t (1 : Fin 2) * 64 ≤ (i 1).val ∧ (i 1).val < win2_7.index t (1 : Fin 2) * 64 + 64; omega

/-- THE SECOND AND THIRD OUTPUT ARRAYS after the region. -/
theorem final6 : (dat2 (F := Ideal) V c).arrAt 6 cfg2.N = stat (fun x => x) G5V :=
  (dat2 (F := Ideal) V c).arrAt_eq_of_cover 6 _ (fun t _ => flushed6 V c t) cover6

theorem final7 : (dat2 (F := Ideal) V c).arrAt 7 cfg2.N = stat (fun x => x * x) G5V :=
  (dat2 (F := Ideal) V c).arrAt_eq_of_cover 7 _ (fun t _ => flushed7 V c t) cover7

end Final

end Cert.Region2

end
-- ==== Proof.Region3.lean ====
/-
  What the second batch-normalisation region (region 3 of the program) leaves in its output array, as a closed form of
  the buffers the region finds: the output is [50000, 64], written in ten blocks of 5000 rows; entry (r, q) is the
  input's entry (r, q) minus the mean of column q, times the inverse square root of the column's variance plus the
  small constant, times the column's scale, plus the column's shift, then the rectifier. First the stored value of
  one block at one index, then each block read as a restriction of the whole-array function, then the cover of the
  array by the ten blocks.
-/
import proofs.«119119_j46677704573771_2_alg».proof.Proof.Gen.KernelIdeal.Frame
import proofs.«119119_j46677704573771_2_alg».proof.Proof.Spec
import Idealize.ShloMosaic.Lib.Pipeline.Value
import Idealize.ShloMosaic.Lib.ValueIdx
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- A row vector repeated down the rows, read at row `p` and column `q`, is the row vector's entry `q`. -/
theorem bcast_row (x : FVec Ideal S1x64 .f32) (h : S1x64.Broadcasts S5000x64) (p : Fin 5000) (q : Fin 64) :
    broadcastTo S5000x64 x h (ix2 p q) = x (ix2 0 q) :=
  broadcastTo_apply x h (ix2 p q) (ix2 0 q) fun a => by
    match a with
    | ⟨0, _⟩ => rfl
    | ⟨1, _⟩ => rfl

/-- The body's stored value at row `p`, column `q` of a block: the block's entry normalised by the column's mean and
    variance, scaled, shifted and rectified. -/
theorem pay_apply (x0 : Vec Ideal S5000x64 .f32) (x1 x2 x3 x4 : Vec Ideal S1x64 .f32) (p : Fin 5000) (q : Fin 64) :
    k3_pay1 x0 x1 x2 x3 x4 (ix2 p q)
      = Cert.Spec.bnrelu (x0 (ix2 p q)) (x1 (ix2 0 q)) (x2 (ix2 0 q)) (x3 (ix2 0 q)) (x4 (ix2 0 q)) := by
  unfold k3_pay1 Cert.Spec.bnrelu
  simp only [shapeCast_self]
  rw [maximumf_apply, addf_apply, mulf_apply, mulf_apply, subf_apply, bcast_row, bcast_row, bcast_row, bcast_row,
    broadcast_apply]
  rw [show (FloatOps.ofBits (F := Ideal) FTy.f32 0x00000000#32) = 0 from Ideal.ofBits_zero_f32]
  rfl

/-- The same at any index of the block. -/
theorem pay_at (x0 : Vec Ideal S5000x64 .f32) (x1 x2 x3 x4 : Vec Ideal S1x64 .f32) (y : S5000x64.Idx) :
    k3_pay1 x0 x1 x2 x3 x4 y
      = Cert.Spec.bnrelu (x0 y) (x1 (ix2 0 (y 1))) (x2 (ix2 0 (y 1))) (x3 (ix2 0 (y 1))) (x4 (ix2 0 (y 1))) := by
  obtain ⟨p, q, rfl⟩ : ∃ (p : Fin 5000) (q : Fin 64), y = ix2 p q := ⟨y 0, y 1, eq_ix2 y⟩
  exact pay_apply x0 x1 x2 x3 x4 p q

/-- What the region leaves in its output array, entry by entry: the input's entry normalised by its column's mean and
    variance, scaled, shifted and rectified. -/
abbrev G (c : Dev nD) : S50000x64.Idx → EReal := fun j =>
  Cert.Spec.bnrelu ((V c main_v62_0 : S50000x64.Idx → EReal) j)
    ((V c main_v73 : S1x64.Idx → EReal) (ix2 0 (j 1))) ((V c main_v74 : S1x64.Idx → EReal) (ix2 0 (j 1)))
    ((V c main_v75 : S1x64.Idx → EReal) (ix2 0 (j 1))) ((V c main_v76 : S1x64.Idx → EReal) (ix2 0 (j 1)))

/-- The block indices over the grid: the input and the output move down the rows one block per point, the four row
    vectors stay at their one block. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What point `t` writes back is block `t` of `G`. -/
theorem flushed_eq (c : Dev nD) (t : Fin cfg3.N) :
    (dat3 (F := Ideal) V c).flushed 5 t = ((cfg3.win 5).blk t).view.read (Elt Ideal) (G V c) := by
  show (cfg3.win 5).cut (grid3.coords t) ((dat3 (F := Ideal) V c).after 5 t) = _
  rw [after3_5]
  unfold out3_5
  rw [View.canon_unit_zero hz]
  simp only [View.ld_unit_zero (S := S5000x64) hz, View.ld_unit_zero (S := S1x64) hz]
  obtain ⟨e00, e01, e10, e11, e20, e21, e30, e31, e40, e41, e50, e51⟩ := idx_facts t
  have ht : t.val < 10 := lt_of_lt_of_eq t.isLt N_3
  funext y
  have hy0 : (y 0).val < 5000 := (y 0).isLt
  have hy1 : (y 1).val < 64 := (y 1).isLt
  refine (pay_at (iblk3 V c 0 t) (iblk3 V c 1 t) (iblk3 V c 2 t) (iblk3 V c 3 t) (iblk3 V c 4 t) y).trans ?_
  have hr : t.val * 5000 + (y 0).val < 50000 := by omega
  have h0 : ((cfg3.win 0).blk t).view.emb y = (ix2 (⟨t.val * 5000 + (y 0).val, hr⟩ : Fin 50000) (y 1) : S50000x64.Idx) := by
    funext a; apply Fin.ext
    match a with
    | ⟨0, _⟩ => show win3_0.index t (0 : Fin 2) * 5000 + 1 * (y 0).val = t.val * 5000 + (y 0).val; omega
    | ⟨1, _⟩ => show win3_0.index t (1 : Fin 2) * 64 + 1 * (y 1).val = (y 1).val; omega
  have h5 : ((cfg3.win 5).blk t).view.emb y = (ix2 (⟨t.val * 5000 + (y 0).val, hr⟩ : Fin 50000) (y 1) : S50000x64.Idx) := by
    funext a; apply Fin.ext
    match a with
    | ⟨0, _⟩ => show win3_5.index t (0 : Fin 2) * 5000 + 1 * (y 0).val = t.val * 5000 + (y 0).val; omega
    | ⟨1, _⟩ => show win3_5.index t (1 : Fin 2) * 64 + 1 * (y 1).val = (y 1).val; omega
  have h1 : ((cfg3.win 1).blk t).view.emb (ix2 0 (y 1)) = (ix2 0 (y 1) : S1x64.Idx) := by
    funext a; apply Fin.ext
    match a with
    | ⟨0, _⟩ => show win3_1.index t (0 : Fin 2) * 1 + 1 * 0 = 0; omega
    | ⟨1, _⟩ => show win3_1.index t (1 : Fin 2) * 64 + 1 * (y 1).val = (y 1).val; omega
  have h2 : ((cfg3.win 2).blk t).view.emb (ix2 0 (y 1)) = (ix2 0 (y 1) : S1x64.Idx) := by
    funext a; apply Fin.ext
    match a with
    | ⟨0, _⟩ => show win3_2.index t (0 : Fin 2) * 1 + 1 * 0 = 0; omega
    | ⟨1, _⟩ => show win3_2.index t (1 : Fin 2) * 64 + 1 * (y 1).val = (y 1).val; omega
  have h3 : ((cfg3.win 3).blk t).view.emb (ix2 0 (y 1)) = (ix2 0 (y 1) : S1x64.Idx) := by
    funext a; apply Fin.ext
    match a with
    | ⟨0, _⟩ => show win3_3.index t (0 : Fin 2) * 1 + 1 * 0 = 0; omega
    | ⟨1, _⟩ => show win3_3.index t (1 : Fin 2) * 64 + 1 * (y 1).val = (y 1).val; omega
  have h4 : ((cfg3.win 4).blk t).view.emb (ix2 0 (y 1)) = (ix2 0 (y 1) : S1x64.Idx) := by
    funext a; apply Fin.ext
    match a with
    | ⟨0, _⟩ => show win3_4.index t (0 : Fin 2) * 1 + 1 * 0 = 0; omega
    | ⟨1, _⟩ => show win3_4.index t (1 : Fin 2) * 64 + 1 * (y 1).val = (y 1).val; omega
  show Cert.Spec.bnrelu (V c main_v62_0 (((cfg3.win 0).blk t).view.emb y))
      (V c main_v73 (((cfg3.win 1).blk t).view.emb (ix2 0 (y 1)))) (V c main_v74 (((cfg3.win 2).blk t).view.emb (ix2 0 (y 1))))
      (V c main_v75 (((cfg3.win 3).blk t).view.emb (ix2 0 (y 1)))) (V c main_v76 (((cfg3.win 4).blk t).view.emb (ix2 0 (y 1))))
    = G V c (((cfg3.win 5).blk t).view.emb y)
  rw [h0, h1, h2, h3, h4, h5]

/-- An index of the output array is in point `t`'s block iff each coordinate is in the block's range on its axis. -/
theorem mem_blk (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v77).slice (win3_5.rect t)).set ↔ _
  rw [View.set_slice_whole, Rect.mem_set_unit]
  exact Iff.rfl

/-- Every index of the output array is in the block of the point its row falls in (row `r` in point `r / 5000`). -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  have htv : t.val = (i 0).val / 5000 := rfl
  obtain ⟨e00, e01, e10, e11, e20, e21, e30, e31, e40, e41, e50, e51⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- THE OUTPUT ARRAY after the region, whatever the buffers held when it was entered: entry `(r, q)` is the input's
    entry normalised by column `q`'s mean and variance, scaled, shifted and rectified. -/
theorem arr_eq (c : Dev nD) :
    (dat3 (F := Ideal) V c).arrAt 5 cfg3.N = fun j : S50000x64.Idx =>
      Cert.Spec.bnrelu ((V c main_v62_0 : S50000x64.Idx → EReal) j)
        ((V c main_v73 : S1x64.Idx → EReal) (ix2 0 (j 1))) ((V c main_v74 : S1x64.Idx → EReal) (ix2 0 (j 1)))
        ((V c main_v75 : S1x64.Idx → EReal) (ix2 0 (j 1))) ((V c main_v76 : S1x64.Idx → EReal) (ix2 0 (j 1))) :=
  (dat3 (F := Ideal) V c).arrAt_eq_of_cover 5 (G V c) (fun t _ => flushed_eq V c t) cover

end Cert.Region3

end
-- ==== Proof.Region4.lean ====
/-
  What the classifier region (region 4 of the program) leaves in its output array, as a closed form of the buffers the
  region finds: the grid has one point and every window's block is its whole array; the output is [512, 3], and entry
  (r, q) is row r of the [512, 64] input through an affine layer into 32 columns, the rectifier, and an affine layer
  into 3 columns: (Σ_k max (Σ_a g(r, a) · w1(a, k) + b1(k)) 0 · w2(k, q)) + b2(q). Over the extended reals a change
  of format is the identity and each product accumulated into the zero matrix is the plain sum over the contracted
  axis. First the stored value at one index, then each block read as its whole array, then the one block covering
  the output.
-/
import proofs.«119119_j46677704573771_2_alg».proof.Proof.Gen.KernelIdeal.Frame
import proofs.«119119_j46677704573771_2_alg».proof.Proof.Spec
import Idealize.ShloMosaic.Lib.Pipeline.Value
import Idealize.ShloMosaic.Lib.ValueIdx
import Idealize.ShloMosaic.Lib.Tactic
import Idealize.ShloMosaic.PureOps.Ideal.Laws
import proofs.«119119_j46677704573771_2_alg».proof.Proof.LibMatmulPlain

set_option maxRecDepth 16384

noncomputable section

open scoped BigOperators

open Idealize.ShloMosaic Idealize.ShloMosaic.TcCoe Idealize.SL.Sem
open Idealize.ShloMosaic.Pipeline (Dat)
open Idealize.ShloMosaic.ValueIdx

namespace Cert.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The first bias row repeated down the rows, read at row `p` and column `k`, is the bias's entry `k`. -/
theorem bcast_row32 (x : FVec Ideal S1x32 .f32) (h : S1x32.Broadcasts S512x32) (p : Fin 512) (k : Fin 32) :
    broadcastTo S512x32 x h (ix2 p k) = x (ix2 0 k) :=
  broadcastTo_apply x h (ix2 p k) (ix2 0 k) fun a => by
    match a with
    | ⟨0, _⟩ => rfl
    | ⟨1, _⟩ => rfl

/-- The second bias row repeated down the rows, read at row `p` and column `q`, is the bias's entry `q`. -/
theorem bcast_row3 (x : FVec Ideal S1x3 .f32) (h : S1x3.Broadcasts S512x3) (p : Fin 512) (q : Fin 3) :
    broadcastTo S512x3 x h (ix2 p q) = x (ix2 0 q) :=
  broadcastTo_apply x h (ix2 p q) (ix2 0 q) fun a => by
    match a with
    | ⟨0, _⟩ => rfl
    | ⟨1, _⟩ => rfl

/-- The body's stored value at row `p`, column `q`: row `p` of the input through the two affine layers with the
    rectifier between them, entry `q`. -/
theorem pay_apply (x0 : Vec Ideal S512x64 .f32) (x1 : Vec Ideal S64x32 .f32) (x2 : Vec Ideal S1x32 .f32)
    (x3 : Vec Ideal S32x3 .f32) (x4 : Vec Ideal S1x3 .f32) (p : Fin 512) (q : Fin 3) :
    k4_pay1 x0 x1 x2 x3 x4 (ix2 p q)
      = Cert.Spec.mlpRow (a := 64) (b := 32) (c := 3) (fun a => x0 (ix2 p a)) (fun a k => x1 (ix2 a k)) (fun k => x2 (ix2 0 k))
          (fun k q => x3 (ix2 k q)) (fun q => x4 (ix2 0 q)) q := by
  unfold k4_pay1 Cert.Spec.mlpRow
  simp only [shapeCast_self, matmul]
  rw [addf_apply, bcast_row3, Cert.LibMatmulPlain.matmul_plain_zero_apply (M := 512) (K := 32) (N := 3) dot_S512x32_S32x3_S512x3_1_0_0_1_n_n rfl]
  refine congrArg (· + x4 (ix2 0 q)) (Finset.sum_congr rfl fun k _ => ?_)
  rw [truncf_apply, truncf_apply, maximumf_apply, addf_apply, bcast_row32, broadcast_apply,
    Cert.LibMatmulPlain.matmul_plain_zero_apply (M := 512) (K := 64) (N := 32) dot_S512x64_S64x32_S512x32_1_0_0_1_n_n rfl]
  rw [show (FloatOps.ofBits (F := Ideal) FTy.f32 0x00000000#32) = 0 from Ideal.ofBits_zero_f32]
  rfl

/-- The same at any index of the block. -/
theorem pay_at (x0 : Vec Ideal S512x64 .f32) (x1 : Vec Ideal S64x32 .f32) (x2 : Vec Ideal S1x32 .f32)
    (x3 : Vec Ideal S32x3 .f32) (x4 : Vec Ideal S1x3 .f32) (y : S512x3.Idx) :
    k4_pay1 x0 x1 x2 x3 x4 y
      = Cert.Spec.mlpRow (a := 64) (b := 32) (c := 3) (fun a => x0 (ix2 (y 0) a)) (fun a k => x1 (ix2 a k)) (fun k => x2 (ix2 0 k))
          (fun k q => x3 (ix2 k q)) (fun q => x4 (ix2 0 q)) (y 1) := by
  obtain ⟨p, q, rfl⟩ : ∃ (p : Fin 512) (q : Fin 3), y = ix2 p q := ⟨y 0, y 1, eq_ix2 y⟩
  exact pay_apply x0 x1 x2 x3 x4 p q

/-- What the region leaves in its output array, entry by entry: row `r` of the input through the two affine layers
    with the rectifier between them, entry `q`. -/
abbrev G (c : Dev nD) : S512x3.Idx → EReal := fun j =>
  Cert.Spec.mlpRow (a := 64) (b := 32) (c := 3) (fun a => (V c main_v89 : S512x64.Idx → EReal) (ix2 (j 0) a))
    (fun a k => (V c main_arg14 : S64x32.Idx → EReal) (ix2 a k)) (fun k => (V c main_v90 : S1x32.Idx → EReal) (ix2 0 k))
    (fun k q => (V c main_arg16 : S32x3.Idx → EReal) (ix2 k q)) (fun q => (V c main_v91 : S1x3.Idx → EReal) (ix2 0 q)) (j 1)

/-- The block indices at the grid's one point: every window's block is its whole array. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- Window 0's block is its whole array. -/
theorem iblk_0 (c : Dev nD) (t : Fin cfg4.N) : iblk4 V c 0 t = (V c main_v89 : S512x64.Idx → EReal) := by
  obtain ⟨e00, e01, e10, e11, e20, e21, e30, e31, e40, e41, e50, e51⟩ := idx_facts t
  funext y
  show V c main_v89 (((cfg4.win 0).blk t).view.emb y) = V c main_v89 y
  refine congrArg (V c main_v89) (funext fun a => Fin.ext ?_)
  match a with
  | ⟨0, _⟩ => show win4_0.index t (0 : Fin 2) * 512 + 1 * (y 0).val = (y 0).val; omega
  | ⟨1, _⟩ => show win4_0.index t (1 : Fin 2) * 64 + 1 * (y 1).val = (y 1).val; omega

/-- Window 1's block is its whole array. -/
theorem iblk_1 (c : Dev nD) (t : Fin cfg4.N) : iblk4 V c 1 t = (V c main_arg14 : S64x32.Idx → EReal) := by
  obtain ⟨e00, e01, e10, e11, e20, e21, e30, e31, e40, e41, e50, e51⟩ := idx_facts t
  funext y
  show V c main_arg14 (((cfg4.win 1).blk t).view.emb y) = V c main_arg14 y
  refine congrArg (V c main_arg14) (funext fun a => Fin.ext ?_)
  match a with
  | ⟨0, _⟩ => show win4_1.index t (0 : Fin 2) * 64 + 1 * (y 0).val = (y 0).val; omega
  | ⟨1, _⟩ => show win4_1.index t (1 : Fin 2) * 32 + 1 * (y 1).val = (y 1).val; omega

/-- Window 2's block is its whole array. -/
theorem iblk_2 (c : Dev nD) (t : Fin cfg4.N) : iblk4 V c 2 t = (V c main_v90 : S1x32.Idx → EReal) := by
  obtain ⟨e00, e01, e10, e11, e20, e21, e30, e31, e40, e41, e50, e51⟩ := idx_facts t
  funext y
  show V c main_v90 (((cfg4.win 2).blk t).view.emb y) = V c main_v90 y
  refine congrArg (V c main_v90) (funext fun a => Fin.ext ?_)
  match a with
  | ⟨0, _⟩ => show win4_2.index t (0 : Fin 2) * 1 + 1 * (y 0).val = (y 0).val; omega
  | ⟨1, _⟩ => show win4_2.index t (1 : Fin 2) * 32 + 1 * (y 1).val = (y 1).val; omega

/-- Window 3's block is its whole array. -/
theorem iblk_3 (c : Dev nD) (t : Fin cfg4.N) : iblk4 V c 3 t = (V c main_arg16 : S32x3.Idx → EReal) := by
  obtain ⟨e00, e01, e10, e11, e20, e21, e30, e31, e40, e41, e50, e51⟩ := idx_facts t
  funext y
  show V c main_arg16 (((cfg4.win 3).blk t).view.emb y) = V c main_arg16 y
  refine congrArg (V c main_arg16) (funext fun a => Fin.ext ?_)
  match a with
  | ⟨0, _⟩ => show win4_3.index t (0 : Fin 2) * 32 + 1 * (y 0).val = (y 0).val; omega
  | ⟨1, _⟩ => show win4_3.index t (1 : Fin 2) * 3 + 1 * (y 1).val = (y 1).val; omega

/-- Window 4's block is its whole array. -/
theorem iblk_4 (c : Dev nD) (t : Fin cfg4.N) : iblk4 V c 4 t = (V c main_v91 : S1x3.Idx → EReal) := by
  obtain ⟨e00, e01, e10, e11, e20, e21, e30, e31, e40, e41, e50, e51⟩ := idx_facts t
  funext y
  show V c main_v91 (((cfg4.win 4).blk t).view.emb y) = V c main_v91 y
  refine congrArg (V c main_v91) (funext fun a => Fin.ext ?_)
  match a with
  | ⟨0, _⟩ => show win4_4.index t (0 : Fin 2) * 1 + 1 * (y 0).val = (y 0).val; omega
  | ⟨1, _⟩ => show win4_4.index t (1 : Fin 2) * 3 + 1 * (y 1).val = (y 1).val; omega

/-- What the one point writes back is the whole of `G`. -/
theorem flushed_eq (c : Dev nD) (t : Fin cfg4.N) :
    (dat4 (F := Ideal) V c).flushed 5 t = ((cfg4.win 5).blk t).view.read (Elt Ideal) (G V c) := by
  show (cfg4.win 5).cut (grid4.coords t) ((dat4 (F := Ideal) V c).after 5 t) = _
  rw [after4_5]
  unfold out4_5
  rw [View.canon_unit_zero hz]
  simp only [View.ld_unit_zero (S := S512x64) hz, View.ld_unit_zero (S := S64x32) hz, View.ld_unit_zero (S := S1x32) hz,
    View.ld_unit_zero (S := S32x3) hz, View.ld_unit_zero (S := S1x3) hz]
  obtain ⟨e00, e01, e10, e11, e20, e21, e30, e31, e40, e41, e50, e51⟩ := idx_facts t
  funext y
  refine (pay_at (iblk4 V c 0 t) (iblk4 V c 1 t) (iblk4 V c 2 t) (iblk4 V c 3 t) (iblk4 V c 4 t) y).trans ?_
  rw [iblk_0, iblk_1, iblk_2, iblk_3, iblk_4]
  have h5 : ((cfg4.win 5).blk t).view.emb y = (ix2 (y 0) (y 1) : S512x3.Idx) := by
    funext a; apply Fin.ext
    match a with
    | ⟨0, _⟩ => show win4_5.index t (0 : Fin 2) * 512 + 1 * (y 0).val = (y 0).val; omega
    | ⟨1, _⟩ => show win4_5.index t (1 : Fin 2) * 3 + 1 * (y 1).val = (y 1).val; omega
  show _ = G V c (((cfg4.win 5).blk t).view.emb y)
  rw [h5]

/-- An index of the output array is in the one point's block iff each coordinate is in the block's range on its axis. -/
theorem mem_blk (t : Fin cfg4.N) (i : S512x3.Idx) :
    i ∈ ((cfg4.win 5).blk t).view.set ↔ ∀ a : Fin 2, win4_5.index t a * S512x3.size a ≤ (i a).val ∧ (i a).val < win4_5.index t a * S512x3.size a + S512x3.size a := by
  show i ∈ ((View.whole main_v92).slice (win4_5.rect t)).set ↔ _
  rw [View.set_slice_whole, Rect.mem_set_unit]
  exact Iff.rfl

/-- Every index of the output array is in the one point's block. -/
theorem cover (i : S512x3.Idx) :
    ∃ t : Fin cfg4.N, (cfg4.win 5).flush t = true ∧ i ∈ ((cfg4.win 5).blk t).view.set := by
  have hi0 : (i 0).val < 512 := (i 0).isLt
  have hi1 : (i 1).val < 3 := (i 1).isLt
  have hN : cfg4.N = 1 := N_4
  let t : Fin cfg4.N := ⟨0, by rw [hN]; omega⟩
  obtain ⟨e00, e01, e10, e11, e20, e21, e30, e31, e40, e41, e50, e51⟩ := idx_facts t
  refine ⟨t, flush4_5 t, ?_⟩
  rw [mem_blk]
  intro a
  match a with
  | ⟨0, _⟩ => show win4_5.index t (0 : Fin 2) * 512 ≤ (i 0).val ∧ (i 0).val < win4_5.index t (0 : Fin 2) * 512 + 512; omega
  | ⟨1, _⟩ => show win4_5.index t (1 : Fin 2) * 3 ≤ (i 1).val ∧ (i 1).val < win4_5.index t (1 : Fin 2) * 3 + 3; omega

/-- THE OUTPUT ARRAY after the region, whatever the buffers held when it was entered: entry `(r, q)` is row `r` of the
    input through the two affine layers with the rectifier between them, entry `q`. -/
theorem arr_eq (c : Dev nD) :
    (dat4 (F := Ideal) V c).arrAt 5 cfg4.N = fun j : S512x3.Idx =>
      Cert.Spec.mlpRow (a := 64) (b := 32) (c := 3) (fun a => (V c main_v89 : S512x64.Idx → EReal) (ix2 (j 0) a))
        (fun a k => (V c main_arg14 : S64x32.Idx → EReal) (ix2 a k)) (fun k => (V c main_v90 : S1x32.Idx → EReal) (ix2 0 k))
        (fun k q => (V c main_arg16 : S32x3.Idx → EReal) (ix2 k q)) (fun q => (V c main_v91 : S1x3.Idx → EReal) (ix2 0 q)) (j 1) :=
  (dat4 (F := Ideal) V c).arrAt_eq_of_cover 5 (G V c) (fun t _ => flushed_eq V c t) cover

end Cert.Region4

end
-- ==== Proof.BridgeC.lean ====
/-
  The kernel program against the reference, third part: the neighbourhood layer (the third region's main output),
  its column mean and variance (again equal to the reference's because every entry is a real number), the second
  batch-normalised layer, the mean pool over the graphs and the classifier, ending at the result buffer.
-/
import proofs.«119119_j46677704573771_2_alg».proof.Proof.Gen.KernelIdeal.Frame
import proofs.«119119_j46677704573771_2_alg».proof.Proof.Gen.ReferenceIdeal.Read
import proofs.«119119_j46677704573771_2_alg».proof.Proof.BridgeB
import proofs.«119119_j46677704573771_2_alg».proof.Proof.Region2b
import proofs.«119119_j46677704573771_2_alg».proof.Proof.Region3
import proofs.«119119_j46677704573771_2_alg».proof.Proof.Region4
import Idealize.ShloMosaic.Lib.ValueLayout

set_option maxRecDepth 16384

noncomputable section

namespace Cert.Bridge

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The reference's neighbourhood-layer stage of core `c`'s argument arrays. -/
abbrev H6 : S50000x64.Idx → EReal :=
  Cert.ReferenceIdeal.Read.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- THE NEIGHBOURHOOD LAYER: the third region's main output array is the reference's stage. -/
theorem pre2_eq (h : PreAt m c) :
    (W6 m ρ c (Proc.devRef .tc main_v62_0) : S50000x64.Idx → EReal) = H6 m c := by
  refine ((W6_arr m ρ c 5).trans (Cert.Region2.final5 (V5 m ρ) c)).trans ?_
  rw [nb_eq m ρ c h,
    show (V5 m ρ c main_v36 : S50000x64.Idx → EReal) = _ from (Cert.Carry.keep2_main_v36 (W4 m ρ c)).trans (h_eq m ρ c h),
    show (V5 m ρ c main_arg9 : S64x64.Idx → EReal) = (m ((c : Thread nD τ).loc main_arg9)) from Cert.Carry.main_arg9_at5 m ρ c,
    show (V5 m ρ c main_arg11 : S64x64.Idx → EReal) = (m ((c : Thread nD τ).loc main_arg11)) from Cert.Carry.main_arg11_at5 m ρ c,
    show (V5 m ρ c main_v61 : S1x64.Idx → EReal) = _ from Cert.HostReads.s2_v61 (W4 m ρ c),
    show (W4 m ρ c (Proc.devRef .tc main_arg10) : S64.Idx → EReal) = (m ((c : Thread nD τ).loc main_arg10)) from Cert.Carry.main_arg10_at4 m ρ c]
  funext j
  obtain ⟨p, q, rfl⟩ : ∃ (p : Fin 50000) (q : Fin 64), j = ix2 p q := ⟨j 0, j 1, eq_ix2 j⟩
  unfold H6
  rw [Cert.RefRead.v74_eq]
  unfold Cert.Region2.G5
  have e10 : ∀ k : Fin 64, (shapeCast S1x64 (m ((c : Thread nD τ).loc main_arg10)) shapeCasts_S64_S1x64 : S1x64.Idx → EReal) (ix2 0 k)
      = m ((c : Thread nD τ).loc main_arg10) (ix1 k) := fun k => shapeCast_a_1a_apply _ _ 0 k
  simp only [e10]

theorem g5_eq (h : PreAt m c) :
    Cert.Region2.G5 (V5 m ρ c main_v60) (V5 m ρ c main_v36) (V5 m ρ c main_arg9) (V5 m ρ c main_v61) (V5 m ρ c main_arg11) = H6 m c :=
  ((W6_arr m ρ c 5).trans (Cert.Region2.final5 (V5 m ρ) c)).symm.trans (pre2_eq m ρ c h)

/-- Every entry of the neighbourhood layer's result is a real number: each stage before it maps real entries to
    real entries (the variance under the inverse square root is nonnegative, the in-degree divisor at least one). -/
theorem h6_real (h : PreAt m c) (i : S50000x64.Idx) : Cert.Alg.IsReal (H6 m c i) := by
  have D := decoded m c h
  rw [eq_ix2 i]
  exact (Cert.RefFinite.ref_chain _ _ _ _ _ _ _ _ _ _ _ D.real0 D.real3 D.real4 D.real5 D.real6 D.real7 D.real8 D.real9 D.real10 D.real11
    (fun p q => Cert.RefRead.v23_eq _ _ _ _ _ _ p q) (fun q => Cert.RefRead.v26_eq _ _ _ _ _ _ q) (fun q => Cert.RefRead.v33_eq _ _ _ _ _ _ q)
    (fun p q => Cert.RefRead.v49_eq _ _ _ _ _ _ _ _ p q) (fun p q => Cert.RefRead.v74_eq _ _ _ _ _ _ _ _ _ _ _ p q)).2.2.2.2.2 (i 0) (i 1)

theorem s2_eq (h : PreAt m c) :
    (W6 m ρ c (Proc.devRef .tc main_v62_1) : S80x64.Idx → EReal) = Cert.Region0.stat (fun x => x) (H6 m c) := by
  refine ((W6_arr m ρ c 6).trans (Cert.Region2.final6 (V5 m ρ) c)).trans ?_
  rw [g5_eq m ρ c h]

theorem q2_eq (h : PreAt m c) :
    (W6 m ρ c (Proc.devRef .tc main_v62_2) : S80x64.Idx → EReal) = Cert.Region0.stat (fun x => x * x) (H6 m c) := by
  refine ((W6_arr m ρ c 7).trans (Cert.Region2.final7 (V5 m ρ) c)).trans ?_
  rw [g5_eq m ρ c h]

/-- THE SECOND COLUMN MEAN AND VARIANCE. -/
theorem mu2_eq (h : PreAt m c) (q : Fin 64) :
    (V7 m ρ c main_v73 : S1x64.Idx → EReal) (ix2 0 q)
      = Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix1 q) := by
  rw [show (V7 m ρ c main_v73 : S1x64.Idx → EReal) = _ from Cert.HostReads.s3_v73 (W6 m ρ c), row_of_vec, s2_eq m ρ c h,
    Cert.StatBridge.colMean_stat_id, Cert.RefRead.v77_eq]

theorem var2_eq (h : PreAt m c) (q : Fin 64) :
    (V7 m ρ c main_v74 : S1x64.Idx → EReal) (ix2 0 q)
      = Cert.ReferenceIdeal.Read.val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (ix1 q) := by
  rw [show (V7 m ρ c main_v74 : S1x64.Idx → EReal) = _ from Cert.HostReads.s3_v74 (W6 m ρ c), row_of_vec, s2_eq m ρ c h, q2_eq m ρ c h,
    Cert.StatBridge.colVar_stat (H6 m c) (h6_real m c h), Cert.RefRead.v84_eq, Cert.RefRead.v77_eq]

/-- THE SECOND NORMALISED LAYER: the fourth region's output array is the reference's stage. -/
theorem hf_eq (h : PreAt m c) :
    (W8 m ρ c (Proc.devRef .tc main_v77) : S50000x64.Idx → EReal)
      = Cert.ReferenceIdeal.Read.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W8_arr m ρ c 5).trans (Cert.Region3.arr_eq (V7 m ρ) c)).trans ?_
  funext j
  obtain ⟨p, q, rfl⟩ : ∃ (p : Fin 50000) (q : Fin 64), j = ix2 p q := ⟨j 0, j 1, eq_ix2 j⟩
  show Cert.Spec.bnrelu ((V7 m ρ c main_v62_0 : S50000x64.Idx → EReal) (ix2 p q)) ((V7 m ρ c main_v73 : S1x64.Idx → EReal) (ix2 0 q))
    ((V7 m ρ c main_v74 : S1x64.Idx → EReal) (ix2 0 q)) ((V7 m ρ c main_v75 : S1x64.Idx → EReal) (ix2 0 q))
    ((V7 m ρ c main_v76 : S1x64.Idx → EReal) (ix2 0 q)) = _
  rw [mu2_eq m ρ c h, var2_eq m ρ c h,
    show (V7 m ρ c main_v62_0 : S50000x64.Idx → EReal) = H6 m c from (Cert.Carry.keep3_main_v62_0 (W6 m ρ c)).trans (pre2_eq m ρ c h),
    show (V7 m ρ c main_v75 : S1x64.Idx → EReal) = _ from Cert.HostReads.s3_v75 (W6 m ρ c),
    show (V7 m ρ c main_v76 : S1x64.Idx → EReal) = _ from Cert.HostReads.s3_v76 (W6 m ρ c), row_of_vec, row_of_vec,
    show (W6 m ρ c (Proc.devRef .tc main_arg12) : S64.Idx → EReal) = _ from Cert.Carry.main_arg12_at6 m ρ c,
    show (W6 m ρ c (Proc.devRef .tc main_arg13) : S64.Idx → EReal) = _ from Cert.Carry.main_arg13_at6 m ρ c,
    Cert.RefRead.v100_eq]

/-- THE MEAN POOL: the kernel program's host lines and the reference's compute the same table. -/
theorem g_eq (h : PreAt m c) :
    (V9 m ρ c main_v89 : S512x64.Idx → EReal)
      = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (Cert.HostReads.s4_v89 (W8 m ρ c)).trans ?_
  rw [hf_eq m ρ c h, show (W8 m ρ c (Proc.devRef .tc main_arg2) : S50000.Idx → BitVec 32) = _ from Cert.Carry.main_arg2_at8 m ρ c]
  rfl

end Cert.Bridge

end
-- ==== Proof.BridgeZ.lean ====
/-
  The kernel program against the reference, last part: the classifier (the fifth region, one grid point over whole
  arrays) applied to the pooled rows leaves in the result buffer the reference's last stage — the equation the
  value claim is assembled from.
-/
import proofs.«119119_j46677704573771_2_alg».proof.Proof.Gen.KernelIdeal.Frame
import proofs.«119119_j46677704573771_2_alg».proof.Proof.Gen.ReferenceIdeal.Read
import proofs.«119119_j46677704573771_2_alg».proof.Proof.BridgeC
import Idealize.ShloMosaic.Lib.ValueLayout

set_option maxRecDepth 16384

noncomputable section

namespace Cert.Bridge

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- THE RESULT: at the last segment boundary the result buffer holds the reference's output as a function of the
    kernel program's own argument arrays. -/
theorem out_eq (h : PreAt m c) :
    (W10 m ρ c (Proc.devRef .tc main_v92) : S512x3.Idx → EReal)
      = Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine ((W10_arr m ρ c 5).trans (Cert.Region4.arr_eq (V9 m ρ) c)).trans ?_
  funext j
  obtain ⟨g, q, rfl⟩ : ∃ (g : Fin 512) (q : Fin 3), j = ix2 g q := ⟨j 0, j 1, eq_ix2 j⟩
  show Cert.Spec.mlpRow (a := 64) (b := 32) (c := 3) (fun a => (V9 m ρ c main_v89 : S512x64.Idx → EReal) (ix2 g a))
    (fun a k => (V9 m ρ c main_arg14 : S64x32.Idx → EReal) (ix2 a k)) (fun k => (V9 m ρ c main_v90 : S1x32.Idx → EReal) (ix2 0 k))
    (fun k q => (V9 m ρ c main_arg16 : S32x3.Idx → EReal) (ix2 k q)) (fun q => (V9 m ρ c main_v91 : S1x3.Idx → EReal) (ix2 0 q)) q = _
  rw [g_eq m ρ c h,
    show (V9 m ρ c main_arg14 : S64x32.Idx → EReal) = (m ((c : Thread nD τ).loc main_arg14)) from Cert.Carry.main_arg14_at9 m ρ c,
    show (V9 m ρ c main_arg16 : S32x3.Idx → EReal) = (m ((c : Thread nD τ).loc main_arg16)) from Cert.Carry.main_arg16_at9 m ρ c,
    show (V9 m ρ c main_v90 : S1x32.Idx → EReal) = _ from Cert.HostReads.s4_v90 (W8 m ρ c),
    show (V9 m ρ c main_v91 : S1x3.Idx → EReal) = _ from Cert.HostReads.s4_v91 (W8 m ρ c),
    show (W8 m ρ c (Proc.devRef .tc main_arg15) : S32.Idx → EReal) = (m ((c : Thread nD τ).loc main_arg15)) from Cert.Carry.main_arg15_at8 m ρ c,
    show (W8 m ρ c (Proc.devRef .tc main_arg17) : S3.Idx → EReal) = (m ((c : Thread nD τ).loc main_arg17)) from Cert.Carry.main_arg17_at8 m ρ c,
    Cert.RefRead.v121_eq]
  have e15 : ∀ k : Fin 32, (shapeCast S1x32 (m ((c : Thread nD τ).loc main_arg15)) shapeCasts_S32_S1x32 : S1x32.Idx → EReal) (ix2 0 k)
      = m ((c : Thread nD τ).loc main_arg15) (ix1 k) := fun k => shapeCast_a_1a_apply _ _ 0 k
  have e17 : ∀ k : Fin 3, (shapeCast S1x3 (m ((c : Thread nD τ).loc main_arg17)) shapeCasts_S3_S1x3 : S1x3.Idx → EReal) (ix2 0 k)
      = m ((c : Thread nD τ).loc main_arg17) (ix1 k) := fun k => shapeCast_a_1a_apply _ _ 0 k
  simp only [e15, e17]

end Cert.Bridge

end
-- ==== Proof.lean ====
/-
  The five conjuncts of the certificate, for the five-region graph network (a perceptron over aggregated neighbours, a
  batch normalisation with the rectifier, a neighbourhood layer, a second batch normalisation, a two-layer classifier
  over pooled rows) and its reference.
  The three frame claims: each program runs to the end from any memory and leaves its eighteen argument arrays as it
  found them. For the two kernel programs this is the run through the ten segments (five host stretches, five regions)
  with the last boundary's contents read at the arguments; for the reference it is its run, one operation after
  another, with the result dropped.
  The idealized kernel program is the printed program read over the extended reals with no operation rewritten, so
  there is nothing to preserve.
  The algebraic claim: from memories that agree on the arguments, and arguments that are finite with nonnegative
  destinations, both programs end with the same [512, 3] result. The common value is the reference's last stage as a
  function of the kernel side's arguments. The kernel program's result buffer ends at what its last boundary holds,
  and that is this function, stage by stage: each host stretch and each region's output array equals the
  corresponding stage of the reference as a function of the same arguments. The reference's result is its composed
  term, which is that function of its own arguments, and these are the kernel side's.
-/
import proofs.«119119_j46677704573771_2_alg».proof.Defs
import proofs.«119119_j46677704573771_2_alg».proof.Proof.Gen.Kernel
import proofs.«119119_j46677704573771_2_alg».proof.Proof.Gen.Kernel.Skeleton
import proofs.«119119_j46677704573771_2_alg».proof.Proof.Gen.Kernel.Launch
import proofs.«119119_j46677704573771_2_alg».proof.Proof.Gen.Kernel.Points
import proofs.«119119_j46677704573771_2_alg».proof.Proof.Gen.Kernel.Frame
import proofs.«119119_j46677704573771_2_alg».proof.Proof.Gen.KernelIdeal
import proofs.«119119_j46677704573771_2_alg».proof.Proof.Gen.KernelIdeal.Skeleton
import proofs.«119119_j46677704573771_2_alg».proof.Proof.Gen.KernelIdeal.Launch
import proofs.«119119_j46677704573771_2_alg».proof.Proof.Gen.KernelIdeal.Points
import proofs.«119119_j46677704573771_2_alg».proof.Proof.Gen.KernelIdeal.Frame
import proofs.«119119_j46677704573771_2_alg».proof.Proof.Gen.ReferenceIdeal
import proofs.«119119_j46677704573771_2_alg».proof.Proof.Gen.ReferenceIdeal.Run
import proofs.«119119_j46677704573771_2_alg».proof.Proof.Gen.ReferenceIdeal.Read
import proofs.«119119_j46677704573771_2_alg».proof.Proof.Gen.Pre_finite_inputs
import proofs.«119119_j46677704573771_2_alg».proof.Proof.RunValue
import proofs.«119119_j46677704573771_2_alg».proof.Proof.BridgeZ
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the two kernel programs. -/
theorem preserves : Cert.preserves_Kernel_KernelIdeal := trivial

/-- Over the extended reals, from memories agreeing on the arguments, the kernel program's result buffer and the
    reference's end at the reference's last stage as a function of the kernel side's arguments. -/
theorem algebraic : Cert.algebraic_KernelIdeal_ReferenceIdeal := by
  intro m ρ m' ρ' hpre hagree
  refine ⟨fun c => Cert.ReferenceIdeal.Read.val_main_v121 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)), ?_, ?_⟩
  · refine (θ_run Cert.KernelIdeal.defs _ _).mono (fun r h c => ?_) (Cert.KernelIdeal.RunValue.run_all (F := Ideal) m ρ)
    exact ⟨(h c _ (Cert.KernelIdeal.Gen.mem_uc Cert.KernelIdeal.main_v92 (by decide))).trans (Cert.Bridge.out_eq m ρ c (hpre c)),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c),
      (h c _ (Cert.KernelIdeal.Gen.mem_uc Cert.KernelIdeal.main_arg13 (by decide))).trans (Cert.KernelIdeal.Gen.W10_main_arg13 m ρ c),
      (h c _ (Cert.KernelIdeal.Gen.mem_uc Cert.KernelIdeal.main_arg14 (by decide))).trans (Cert.KernelIdeal.Gen.W10_main_arg14 m ρ c),
      (h c _ (Cert.KernelIdeal.Gen.mem_uc Cert.KernelIdeal.main_arg15 (by decide))).trans (Cert.KernelIdeal.Gen.W10_main_arg15 m ρ c),
      (h c _ (Cert.KernelIdeal.Gen.mem_uc Cert.KernelIdeal.main_arg16 (by decide))).trans (Cert.KernelIdeal.Gen.W10_main_arg16 m ρ c),
      (h c _ (Cert.KernelIdeal.Gen.mem_uc Cert.KernelIdeal.main_arg17 (by decide))).trans (Cert.KernelIdeal.Gen.W10_main_arg17 m ρ c)⟩
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17⟩ := hagree c
    rw [Cert.ReferenceIdeal.Read.val_main_v121_eq, a0, a1, a2, a3, a4, a5, a6, a7, a8, a9, a10, a11, a12, a13, a14, a15, a16, a17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
